-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v22_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000x64 : Shape := ⟨2, ![1250000, 64]⟩
abbrev S1250000 : Shape := ⟨1, ![1250000]⟩
abbrev S64x16 : Shape := ⟨2, ![64, 16]⟩
abbrev S16x64 : Shape := ⟨2, ![16, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x64 : S_.BroadcastsInDim S1250000x64 (![] : Fin 0 → Fin S1250000x64.rank)
  reducesTo_S1250000x64_S_d0_1 : S1250000x64.ReducesTo [0, 1] S_
  bcast_S_S64x16 : S_.BroadcastsInDim S64x16 (![] : Fin 0 → Fin S64x16.rank)
  reducesTo_S64x16_S_d0_1 : S64x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg20 : FVec F S64 .f32) (main_arg21 : FVec F S64 .f32) (main_arg22 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg16 : FVec F S64x16 .f32) (main_arg17 : FVec F S16x64 .f32) (main_arg18 : FVec F S64 .f32) (main_arg19 : FVec F S64 .f32) (main_arg20 : FVec F S64 .f32) (main_arg21 : FVec F S64 .f32) (main_arg22 : FVec F S64 .f32) (main_v63 : IVec S_ 1) (main_v67 : IVec S_ 1) : IVec S_ 1 :=
  let main_v68 : IVec S_ 1 := andi main_v63 main_v67
  let main_v69 : FVec F S64x16 .f32 := Host.absf main_arg16
  let main_cst_26 : FVec F S_ .f32 := constant S_ .f32 0x7F800000#32
  let main_v70 : FVec F S64x16 .f32 := broadcastInDim S64x16 ![] bcast_S_S64x16 main_cst_26
  let main_v71 : IVec S64x16 1 := cmpf .olt main_v69 main_v70
  let main_c_27 : IVec S_ 1 := constantI S_ 1 1#1
  let main_v72 : IVec S_ 1 := (fun x v => Host.reduce IntOp.andi x v reducesTo_S64x16_S_d0_1 h_S_) main_v71 main_c_27
  let main_v73 : IVec S_ 1 := andi main_v68 main_v72
  let main_v74 : FVec F S16x64 .f32 := Host.absf main_arg17
  let main_cst_28 : FVec F S_ .f32 := constant S_ .f32 0x7F800000#32
  let main_v75 : FVec F S16x64 .f32 := broadcastInDim S16x64 ![] bcast_S_S16x64 main_cst_28
  let main_v76 : IVec S16x64 1 := cmpf .olt main_v74 main_v75
  let main_c_29 : IVec S_ 1 := constantI S_ 1 1#1
  let main_v77 : IVec S_ 1 := (fun x v => Host.reduce IntOp.andi x v reducesTo_S16x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64x16 .f32) (main_arg14 : FVec F S16x64 .f32) (main_arg15 : FVec F S64 .f32) (main_arg16 : FVec F S64x16 .f32) (main_arg17 : FVec F S16x64 .f32) (main_arg18 : FVec F S64 .f32) (main_arg19 : FVec F S64 .f32) (main_arg20 : FVec F S64 .f32) (main_arg21 : FVec F S64 .f32) (main_arg22 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x16 .f32 := Host.absf main_arg13
  let main_cst_20 : FVec F S_ .f32 := constant S_ .f32 0x7F800000#32
  let main_v55 : FVec F S64x16 .f32 := broadcastInDim S64x16 ![] bcast_S_S64x16 main_cst_20
  let main_v56 : IVec S64x16 1 := cmpf .olt main_v54 main_v55
  let main_c_21 : IVec S_ 1 := constantI S_ 1 1#1
  let main_v57 : IVec S_ 1 := (fun x v => Host.reduce IntOp.andi x v reducesTo_S64x16_S_d0_1 h_S_) main_v56 main_c_21
  let main_v58 : IVec S_ 1 := andi main_v53 main_v57
  let main_v59 : FVec F S16x64 .f32 := Host.absf main_arg14
  let main_cst_22 : FVec F S_ .f32 := constant S_ .f32 0x7F800000#32
  let main_v60 : FVec F S16x64 .f32 := broadcastInDim S16x64 ![] bcast_S_S16x64 main_cst_22
  let main_v61 : IVec S16x64 1 := cmpf .olt main_v59 main_v60
  let main_c_23 : IVec S_ 1 := constantI S_ 1 1#1
  let main_v62 : IVec S_ 1 := (fun x v => Host.reduce IntOp.andi x v reducesTo_S16x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_v63 main_v67

def fn_part2 {F : FTy → Type} [FloatOps F] (main_arg9 : FVec F S64 .f32) (main_arg10 : FVec F S64x16 .f32) (main_arg11 : FVec F S16x64 .f32) (main_arg12 : FVec F S64 .f32) (main_arg13 : FVec F S64x16 .f32) (main_arg14 : FVec F S16x64 .f32) (main_arg15 : FVec F S64 .f32) (main_arg16 : FVec F S64x16 .f32) (main_arg17 : FVec F S16x64 .f32) (main_arg18 : FVec F S64 .f32) (main_arg19 : FVec F S64 .f32) (main_arg20 : FVec F S64 .f32) (main_arg21 : FVec F S64 .f32) (main_arg22 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg10
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16x64 .f32 := Host.absf main_arg11
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64x16 .f32) (main_arg8 : FVec F S16x64 .f32) (main_arg9 : FVec F S64 .f32) (main_arg10 : FVec F S64x16 .f32) (main_arg11 : FVec F S16x64 .f32) (main_arg12 : FVec F S64 .f32) (main_arg13 : FVec F S64x16 .f32) (main_arg14 : FVec F S16x64 .f32) (main_arg15 : FVec F S64 .f32) (main_arg16 : FVec F S64x16 .f32) (main_arg17 : FVec F S16x64 .f32) (main_arg18 : FVec F S64 .f32) (main_arg19 : FVec F S64 .f32) (main_arg20 : FVec F S64 .f32) (main_arg21 : FVec F S64 .f32) (main_arg22 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x64 .f32) (main_arg1 : FVec F S1250000x64 .f32) (main_arg2 : IVec S1250000 32) (main_arg3 : IVec S1250000 32) (main_arg4 : FVec F S64x16 .f32) (main_arg5 : FVec F S16x64 .f32) (main_arg6 : FVec F S64 .f32) (main_arg7 : FVec F S64x16 .f32) (main_arg8 : FVec F S16x64 .f32) (main_arg9 : FVec F S64 .f32) (main_arg10 : FVec F S64x16 .f32) (main_arg11 : FVec F S16x64 .f32) (main_arg12 : FVec F S64 .f32) (main_arg13 : FVec F S64x16 .f32) (main_arg14 : FVec F S16x64 .f32) (main_arg15 : FVec F S64 .f32) (main_arg16 : FVec F S64x16 .f32) (main_arg17 : FVec F S16x64 .f32) (main_arg18 : FVec F S64 .f32) (main_arg19 : FVec F S64 .f32) (main_arg20 : FVec F S64 .f32) (main_arg21 : FVec F S64 .f32) (main_arg22 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x64 .f32 := Host.absf main_arg1
  let main_cst_0 : FVec F S_ .f32 := constant S_ .f32 0x7F800000#32
  let main_v5 : FVec F S1250000x64 .f32 := broadcastInDim S1250000x64 ![] bcast_S_S1250000x64 main_cst_0
  let main_v6 : IVec S1250000x64 1 := cmpf .olt main_v4 main_v5
  let main_c_1 : IVec S_ 1 := constantI S_ 1 1#1
  let main_v7 : IVec S_ 1 := (fun x v => Host.reduce IntOp.andi x v reducesTo_S1250000x64_S_d0_1 h_S_) main_v6 main_c_1
  let main_v8 : IVec S_ 1 := andi main_v3 main_v7
  let main_v9 : FVec F S64x16 .f32 := Host.absf main_arg4
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16x64 .f32 := Host.absf main_arg5
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x64 : Shape := ⟨2, ![100000, 64]⟩
abbrev S1250000x64 : Shape := ⟨2, ![1250000, 64]⟩
abbrev S1250000 : Shape := ⟨1, ![1250000]⟩
abbrev S64x16 : Shape := ⟨2, ![64, 16]⟩
abbrev S16x64 : Shape := ⟨2, ![16, 64]⟩
abbrev S64 : Shape := ⟨1, ![64]⟩
abbrev S5000x64 : Shape := ⟨2, ![5000, 64]⟩
abbrev S5000x16 : Shape := ⟨2, ![5000, 16]⟩
abbrev S1x64 : Shape := ⟨2, ![1, 64]⟩
abbrev S_ : Shape := ⟨0, ![]⟩
abbrev S1250000x1 : Shape := ⟨2, ![1250000, 1]⟩
abbrev S2000x64 : Shape := ⟨2, ![2000, 64]⟩
abbrev S2000x16 : Shape := ⟨2, ![2000, 16]⟩
abbrev S2000 : Shape := ⟨1, ![2000]⟩
abbrev S2000x1 : Shape := ⟨2, ![2000, 1]⟩
abbrev S5000 : Shape := ⟨1, ![5000]⟩
abbrev S5000x1 : Shape := ⟨2, ![5000, 1]⟩

abbrev nBuf : Space → Nat
  | .hbm => 70
  | .vmem => 51
  | .smem => 0
  | _ => 0

abbrev bufTy : (tb : Table) → Fin (tcTables nBuf tb) → BufTy
  | .hbm, ⟨0, _⟩ => ⟨S100000x64, .f32⟩
  | .hbm, ⟨1, _⟩ => ⟨S1250000x64, .f32⟩
  | .hbm, ⟨2, _⟩ => ⟨S1250000, .i32⟩
  | .hbm, ⟨3, _⟩ => ⟨S1250000, .i32⟩
  | .hbm, ⟨4, _⟩ => ⟨S64x16, .f32⟩
  | .hbm, ⟨5, _⟩ => ⟨S16x64, .f32⟩
  | .hbm, ⟨6, _⟩ => ⟨S64, .f32⟩
  | .hbm, ⟨7, _⟩ => ⟨S64x16, .f32⟩
  | .hbm, ⟨8, _⟩ => ⟨S16x64, .f32⟩
  | .hbm, ⟨9, _⟩ => ⟨S64, .f32⟩
  | .hbm, ⟨10, _⟩ => ⟨S64x16, .f32⟩
  | .hbm, ⟨11, _⟩ => ⟨S16x64, .f32⟩
  | .hbm, ⟨12, _⟩ => ⟨S64, .f32⟩
  | .hbm, ⟨13, _⟩ => ⟨S64x16, .f32⟩
  | .hbm, ⟨14, _⟩ => ⟨S16x64, .f32⟩
  | .hbm, ⟨15, _⟩ => ⟨S64, .f32⟩
  | .hbm, ⟨16, _⟩ => ⟨S64x16, .f32⟩
  | .hbm, ⟨17, _⟩ => ⟨S16x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000x64, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000x64, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S1250000x64, .f32⟩
  | .hbm, ⟨55, _⟩ => ⟨S1250000x64, .f32⟩
  | .hbm, ⟨56, _⟩ => ⟨S1250000x64, .f32⟩
  | .hbm, ⟨57, _⟩ => ⟨S_, .f32⟩
  | .hbm, ⟨58, _⟩ => ⟨S100000x64, .f32⟩
  | .hbm, ⟨59, _⟩ => ⟨S1250000x1, .i32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S1250000x1, .i32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x16, .f32⟩
  | .local _ .vmem, ⟨3, _⟩ => ⟨S16x64, .f32⟩
  | .local _ .vmem, ⟨4, _⟩ => ⟨S64, .f32⟩
  | .local _ .vmem, ⟨5, _⟩ => ⟨S64x16, .f32⟩
  | .local _ .vmem, ⟨6, _⟩ => ⟨S16x64, .f32⟩
  | .local _ .vmem, ⟨7, _⟩ => ⟨S64, .f32⟩
  | .local _ .vmem, ⟨8, _⟩ => ⟨S64x16, .f32⟩
  | .local _ .vmem, ⟨9, _⟩ => ⟨S16x64, .f32⟩
  | .local _ .vmem, ⟨10, _⟩ => ⟨S64, .f32⟩
  | .local _ .vmem, ⟨11, _⟩ => ⟨S64x16, .f32⟩
  | .local _ .vmem, ⟨12, _⟩ => ⟨S16x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x16, .f32⟩
  | .local _ .vmem, ⟨31, _⟩ => ⟨S16x64, .f32⟩
  | .local _ .vmem, ⟨32, _⟩ => ⟨S64, .f32⟩
  | .local _ .vmem, ⟨33, _⟩ => ⟨S64, .f32⟩
  | .local _ .vmem, ⟨34, _⟩ => ⟨S64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S64, .f32⟩
  | .local _ .vmem, ⟨48, _⟩ => ⟨S64, .f32⟩
  | .local _ .vmem, ⟨49, _⟩ => ⟨S5000x64, .f32⟩
  | .local _ .vmem, ⟨50, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev main_v0_3 : Ref sig .tc := ⟨.hbm, 26, rfl⟩
abbrev main_c : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_1 : Ref sig .tc := ⟨.hbm, 36, rfl⟩
abbrev main_v8 : Ref sig .tc := ⟨.hbm, 37, rfl⟩
abbrev main_v9 : Ref sig .tc := ⟨.hbm, 38, rfl⟩
abbrev main_c_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22_0 : Ref sig .tc := ⟨.hbm, 54, rfl⟩
abbrev main_v22_1 : Ref sig .tc := ⟨.hbm, 55, rfl⟩
abbrev main_v22_2 : Ref sig .tc := ⟨.hbm, 56, rfl⟩
abbrev main_cst : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc2_stg0_0 : Ref sig .tc := ⟨.vmem, 41, rfl⟩
abbrev cc2_stg0_1 : Ref sig .tc := ⟨.vmem, 42, rfl⟩
abbrev cc2_stg1_0 : Ref sig .tc := ⟨.vmem, 43, rfl⟩
abbrev cc2_stg1_1 : Ref sig .tc := ⟨.vmem, 44, rfl⟩
abbrev cc2_stg2_0 : Ref sig .tc := ⟨.vmem, 45, rfl⟩
abbrev cc2_stg2_1 : Ref sig .tc := ⟨.vmem, 46, rfl⟩
abbrev cc2_stg3_0 : Ref sig .tc := ⟨.vmem, 47, rfl⟩
abbrev cc2_stg4_0 : Ref sig .tc := ⟨.vmem, 48, rfl⟩
abbrev cc2_stg5_0 : Ref sig .tc := ⟨.vmem, 49, rfl⟩
abbrev cc2_stg5_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem9_1 : DmaSem sig := 36
abbrev cc1_sem10_0 : DmaSem sig := 37
abbrev cc1_sem10_1 : DmaSem sig := 38
abbrev cc1_sem11_0 : DmaSem sig := 39
abbrev cc1_sem11_1 : DmaSem sig := 40
abbrev cc2_sem0_0 : DmaSem sig := 41
abbrev cc2_sem0_1 : DmaSem sig := 42
abbrev cc2_sem1_0 : DmaSem sig := 43
abbrev cc2_sem1_1 : DmaSem sig := 44
abbrev cc2_sem2_0 : DmaSem sig := 45
abbrev cc2_sem2_1 : DmaSem sig := 46
abbrev cc2_sem3_0 : DmaSem sig := 47
abbrev cc2_sem4_0 : DmaSem sig := 48
abbrev cc2_sem5_0 : DmaSem sig := 49
abbrev cc2_sem5_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S5000x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S5000x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S2000x64_S2000x64_0_0 : ∀ a, (![0, 0] : Fin 2 → Nat) a + S2000x64.size a ≤ S2000x64.size a
  h_S2000x64 : 0 < S2000x64.numel
  broadcasts_S1x64_S2000x64 : S1x64.Broadcasts S2000x64
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  bcast_S_S100000x64 : S_.BroadcastsInDim S100000x64 (![] : Fin 0 → Fin S100000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  dot_S5000x64_S64x16_S5000x16_1_0_0_1_n_n_wf : DotDims.WF S5000x64 S64x16 S5000x16 [1] [0] [0] [1] [] []
  dot_S5000x16_S16x64_S5000x64_1_0_0_1_n_n_wf : DotDims.WF S5000x16 S16x64 S5000x64 [1] [0] [0] [1] [] []
  gather_S100000x64_S1250000x1_S1250000x64_1_0_n_n_0_1_164_wf : GatherDims.WF S100000x64 S1250000x1 S1250000x64 [1] [0] [] [0] [] 1 ![1, 64]
  dot_S2000x64_S64x16_S2000x16_1_0_0_1_n_n_wf : DotDims.WF S2000x64 S64x16 S2000x16 [1] [0] [0] [1] [] []
  dot_S2000x16_S16x64_S2000x64_1_0_0_1_n_n_wf : DotDims.WF S2000x16 S16x64 S2000x64 [1] [0] [0] [1] [] []
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S64x16.size a
  hwx0_7 : ∀ i : grid0.Coords, EltTy.bits .f32 = 32 ∨ (Rect.block (s := S64x16) S64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x64.size a ≤ S16x64.size a
  hwx0_8 : ∀ i : grid0.Coords, EltTy.bits .f32 = 32 ∨ (Rect.block (s := S16x64) S16x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x16.size a ≤ S64x16.size a
  hwx0_10 : ∀ i : grid0.Coords, EltTy.bits .f32 = 32 ∨ (Rect.block (s := S64x16) S64x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x64.size a ≤ S16x64.size a
  hwx0_11 : ∀ i : grid0.Coords, EltTy.bits .f32 = 32 ∨ (Rect.block (s := S16x64) S16x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x64.size a ≤ S100000x64.size a
  hwx0_13 : ∀ i : grid0.Coords, EltTy.bits .f32 = 32 ∨ (Rect.block (s := S100000x64) S5000x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x64.size a ≤ S100000x64.size a
  hwx0_14 : ∀ i : grid0.Coords, EltTy.bits .f32 = 32 ∨ (Rect.block (s := S100000x64) S5000x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x64.size a ≤ S100000x64.size a
  hwx0_15 : ∀ i : grid0.Coords, EltTy.bits .f32 = 32 ∨ (Rect.block (s := S100000x64) S5000x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5000x64.size a ≤ S100000x64.size a
  hwx0_16 : ∀ i : grid0.Coords, EltTy.bits .f32 = 32 ∨ (Rect.block (s := S100000x64) S5000x64.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S1250000x64.size a
  hwx1_0 : ∀ i : grid1.Coords, EltTy.bits .f32 = 32 ∨ (Rect.block (s := S1250000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S1250000x64.size a
  hwx1_1 : ∀ i : grid1.Coords, EltTy.bits .f32 = 32 ∨ (Rect.block (s := S1250000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S1250000x64.size a
  hwx1_2 : ∀ i : grid1.Coords, EltTy.bits .f32 = 32 ∨ (Rect.block (s := S1250000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S1250000x64.size a
  hwx1_3 : ∀ i : grid1.Coords, EltTy.bits .f32 = 32 ∨ (Rect.block (s := S1250000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .f32 = 32 ∨ (Rect.block (s := S64x16) S64x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x64.size a ≤ S16x64.size a
  hwx1_5 : ∀ i : grid1.Coords, EltTy.bits .f32 = 32 ∨ (Rect.block (s := S16x64) S16x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S1250000x64.size a
  hwx1_9 : ∀ i : grid1.Coords, EltTy.bits .f32 = 32 ∨ (Rect.block (s := S1250000x64) S2000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x64.size a ≤ S1250000x64.size a
  hwx1_10 : ∀ i : grid1.Coords, EltTy.bits .f32 = 32 ∨ (Rect.block (s := S1250000x64) S2000x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x64.size a ≤ S1250000x64.size a
  hwx1_11 : ∀ i : grid1.Coords, EltTy.bits .f32 = 32 ∨ (Rect.block (s := S1250000x64) S2000x64.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S16x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg18) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S64x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S16x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_0) S5000x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S5000x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_2) S5000x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_3) S5000x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S16x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg21) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg22) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22_0) S2000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v22_1) S2000x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v22_2) S2000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v0_3) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg19) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg20) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1250000x64 : Shape := ⟨2, ![1250000, 64]⟩
abbrev S1250000 : Shape := ⟨1, ![1250000]⟩
abbrev S64x16 : Shape := ⟨2, ![64, 16]⟩
abbrev S16x64 : Shape := ⟨2, ![16, 64]⟩
abbrev S64 : Shape := ⟨1, ![64]⟩
abbrev S100000x16 : Shape := ⟨2, ![100000, 16]⟩
abbrev S1x64 : Shape := ⟨2, ![1, 64]⟩
abbrev S1250000x16 : Shape := ⟨2, ![1250000, 16]⟩
abbrev S_ : Shape := ⟨0, ![]⟩
abbrev S1250000x1 : Shape := ⟨2, ![1250000, 1]⟩
abbrev S100000 : Shape := ⟨1, ![100000]⟩
abbrev S100000x1 : Shape := ⟨2, ![100000, 1]⟩

abbrev nBuf : Space → Nat
  | .hbm => 173
  | .vmem => 0
  | .smem => 0
  | _ => 0

abbrev hbmTy0_0 (i : Nat) : BufTy := match i % 128 with
  | 0 => ⟨S100000x64, .f32⟩
  | 1 => ⟨S1250000x64, .f32⟩
  | 2 => ⟨S1250000, .i32⟩
  | 3 => ⟨S1250000, .i32⟩
  | 4 => ⟨S64x16, .f32⟩
  | 5 => ⟨S16x64, .f32⟩
  | 6 => ⟨S64, .f32⟩
  | 7 => ⟨S64x16, .f32⟩
  | 8 => ⟨S16x64, .f32⟩
  | 9 => ⟨S64, .f32⟩
  | 10 => ⟨S64x16, .f32⟩
  | 11 => ⟨S16x64, .f32⟩
  | 12 => ⟨S64, .f32⟩
  | 13 => ⟨S64x16, .f32⟩
  | 14 => ⟨S16x64, .f32⟩
  | 15 => ⟨S64, .f32⟩
  | 16 => ⟨S64x16, .f32⟩
  | 17 => ⟨S16x64, .f32⟩
  | 18 => ⟨S64, .f32⟩
  | 19 => ⟨S64, .f32⟩
  | 20 => ⟨S64, .f32⟩
  | 21 => ⟨S64, .f32⟩
  | 22 => ⟨S64, .f32⟩
  | 23 => ⟨S100000x16, .f32⟩
  | 24 => ⟨S100000x64, .f32⟩
  | 25 => ⟨S1x64, .f32⟩
  | 26 => ⟨S100000x64, .f32⟩
  | 27 => ⟨S100000x64, .f32⟩
  | 28 => ⟨S100000x16, .f32⟩
  | 29 => ⟨S100000x64, .f32⟩
  | 30 => ⟨S1x64, .f32⟩
  | 31 => ⟨S100000x64, .f32⟩
  | 32 => ⟨S100000x64, .f32⟩
  | 33 => ⟨S1250000x16, .f32⟩
  | 34 => ⟨S1250000x64, .f32⟩
  | 35 => ⟨S1x64, .f32⟩
  | 36 => ⟨S1250000x64, .f32⟩
  | 37 => ⟨S1250000x64, .f32⟩
  | 38 => ⟨S_, .i32⟩
  | 39 => ⟨S1250000, .i32⟩
  | 40 => ⟨S1250000, .i1⟩
  | 41 => ⟨S_, .i32⟩
  | 42 => ⟨S1250000, .i32⟩
  | 43 => ⟨S1250000, .i32⟩
  | 44 => ⟨S1250000, .i32⟩
  | 45 => ⟨S1250000x1, .i32⟩
  | 46 => ⟨S1250000x64, .f32⟩
  | 47 => ⟨S_, .i32⟩
  | 48 => ⟨S1250000, .i32⟩
  | 49 => ⟨S1250000, .i1⟩
  | 50 => ⟨S_, .i32⟩
  | 51 => ⟨S1250000, .i32⟩
  | 52 => ⟨S1250000, .i32⟩
  | 53 => ⟨S1250000, .i32⟩
  | 54 => ⟨S1250000x1, .i32⟩
  | 55 => ⟨S1250000x64, .f32⟩
  | 56 => ⟨S1250000x64, .f32⟩
  | 57 => ⟨S1250000x64, .f32⟩
  | 58 => ⟨S1250000x64, .f32⟩
  | 59 => ⟨S1250000x64, .f32⟩
  | 60 => ⟨S_, .f32⟩
  | 61 => ⟨S1250000x64, .f32⟩
  | 62 => ⟨S1250000x64, .f32⟩
  | 63 => ⟨S_, .f32⟩
  | 64 => ⟨S1250000x64, .f32⟩
  | 65 => ⟨S1250000x64, .f32⟩
  | 66 => ⟨S100000x16, .f32⟩
  | 67 => ⟨S100000x64, .f32⟩
  | 68 => ⟨S1x64, .f32⟩
  | 69 => ⟨S100000x64, .f32⟩
  | 70 => ⟨S100000x64, .f32⟩
  | 71 => ⟨S_, .i32⟩
  | 72 => ⟨S1250000, .i32⟩
  | 73 => ⟨S1250000, .i1⟩
  | 74 => ⟨S_, .i32⟩
  | 75 => ⟨S1250000, .i32⟩
  | 76 => ⟨S1250000, .i32⟩
  | 77 => ⟨S1250000, .i32⟩
  | 78 => ⟨S1250000x1, .i32⟩
  | 79 => ⟨S1250000x64, .f32⟩
  | 80 => ⟨S1250000x64, .f32⟩
  | 81 => ⟨S_, .f32⟩
  | 82 => ⟨S100000x64, .f32⟩
  | 83 => ⟨S1250000x1, .i32⟩
  | 84 => ⟨S100000x64, .f32⟩
  | 85 => ⟨S_, .f32⟩
  | 86 => ⟨S100000x64, .f32⟩
  | 87 => ⟨S1250000x1, .i32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S100000x16, .f32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S100000, .f32⟩
  | 101 => ⟨S100000x1, .f32⟩
  | 102 => ⟨S_, .f32⟩
  | 103 => ⟨S100000x1, .f32⟩
  | 104 => ⟨S100000x1, .f32⟩
  | 105 => ⟨S100000x64, .f32⟩
  | 106 => ⟨S100000x64, .f32⟩
  | 107 => ⟨S100000x64, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S_, .f32⟩
  | 115 => ⟨S100000x1, .f32⟩
  | 116 => ⟨S100000x1, .f32⟩
  | 117 => ⟨S100000x1, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S100000x64, .f32⟩
  | 8 => ⟨S_, .f32⟩
  | 9 => ⟨S1250000, .f32⟩
  | 10 => ⟨S1250000x1, .f32⟩
  | 11 => ⟨S_, .f32⟩
  | 12 => ⟨S1250000x1, .f32⟩
  | 13 => ⟨S1250000x1, .f32⟩
  | 14 => ⟨S1250000x64, .f32⟩
  | 15 => ⟨S1250000x64, .f32⟩
  | 16 => ⟨S1250000x64, .f32⟩
  | 17 => ⟨S_, .f32⟩
  | 18 => ⟨S1250000, .f32⟩
  | 19 => ⟨S1250000x1, .f32⟩
  | 20 => ⟨S_, .f32⟩
  | 21 => ⟨S1250000x1, .f32⟩
  | 22 => ⟨S1250000x1, .f32⟩
  | 23 => ⟨S_, .f32⟩
  | 24 => ⟨S1250000x1, .f32⟩
  | 25 => ⟨S1250000x1, .f32⟩
  | 26 => ⟨S1250000x1, .f32⟩
  | 27 => ⟨S1250000x64, .f32⟩
  | 28 => ⟨S1250000x64, .f32⟩
  | 29 => ⟨S1x64, .f32⟩
  | 30 => ⟨S1250000x64, .f32⟩
  | 31 => ⟨S1250000x64, .f32⟩
  | 32 => ⟨S1x64, .f32⟩
  | 33 => ⟨S1250000x64, .f32⟩
  | 34 => ⟨S1250000x64, .f32⟩
  | 35 => ⟨S1250000x64, .f32⟩
  | 36 => ⟨S1250000x64, .f32⟩
  | 37 => ⟨S_, .f32⟩
  | 38 => ⟨S1250000x64, .f32⟩
  | 39 => ⟨S1250000x64, .f32⟩
  | 40 => ⟨S_, .f32⟩
  | 41 => ⟨S1250000x64, .f32⟩
  | 42 => ⟨S1250000x64, .f32⟩
  | 43 => ⟨S1250000x64, .f32⟩
  | 44 => ⟨S1250000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_1 : Ref sig .tc := ⟨.hbm, 47, rfl⟩
abbrev main_v22 : Ref sig .tc := ⟨.hbm, 48, rfl⟩
abbrev main_v23 : Ref sig .tc := ⟨.hbm, 49, rfl⟩
abbrev main_c_2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_4 : Ref sig .tc := ⟨.hbm, 71, rfl⟩
abbrev main_v42 : Ref sig .tc := ⟨.hbm, 72, rfl⟩
abbrev main_v43 : Ref sig .tc := ⟨.hbm, 73, rfl⟩
abbrev main_c_5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_9 : Ref sig .tc := ⟨.hbm, 99, rfl⟩
abbrev main_v65 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_v73 : Ref sig .tc := ⟨.hbm, 110, rfl⟩
abbrev main_cst_12 : Ref sig .tc := ⟨.hbm, 111, rfl⟩
abbrev main_v74 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call0_v0 : Ref sig .tc := ⟨.hbm, 126, rfl⟩
abbrev main_call0_v1 : Ref sig .tc := ⟨.hbm, 127, rfl⟩
abbrev main_call0_cst : Ref sig .tc := ⟨.hbm, 128, rfl⟩
abbrev main_call0_v2 : Ref sig .tc := ⟨.hbm, 129, rfl⟩
abbrev main_call0_v3 : Ref sig .tc := ⟨.hbm, 130, rfl⟩
abbrev main_call0_cst_0 : Ref sig .tc := ⟨.hbm, 131, rfl⟩
abbrev main_call0_v4 : Ref sig .tc := ⟨.hbm, 132, rfl⟩
abbrev main_call0_v5 : Ref sig .tc := ⟨.hbm, 133, rfl⟩
abbrev main_v87 : Ref sig .tc := ⟨.hbm, 134, rfl⟩
abbrev main_v88 : Ref sig .tc := ⟨.hbm, 135, rfl⟩
abbrev main_cst_14 : Ref sig .tc := ⟨.hbm, 136, rfl⟩
abbrev main_v89 : Ref sig .tc := ⟨.hbm, 137, rfl⟩
abbrev main_v90 : Ref sig .tc := ⟨.hbm, 138, rfl⟩
abbrev main_cst_15 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_16 : Ref sig .tc := ⟨.hbm, 145, rfl⟩
abbrev main_v96 : Ref sig .tc := ⟨.hbm, 146, rfl⟩
abbrev main_v97 : Ref sig .tc := ⟨.hbm, 147, rfl⟩
abbrev main_cst_17 : Ref sig .tc := ⟨.hbm, 148, rfl⟩
abbrev main_v98 : Ref sig .tc := ⟨.hbm, 149, rfl⟩
abbrev main_v99 : Ref sig .tc := ⟨.hbm, 150, rfl⟩
abbrev main_cst_18 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_call1_v0 : Ref sig .tc := ⟨.hbm, 163, rfl⟩
abbrev main_call1_v1 : Ref sig .tc := ⟨.hbm, 164, rfl⟩
abbrev main_call1_cst : Ref sig .tc := ⟨.hbm, 165, rfl⟩
abbrev main_call1_v2 : Ref sig .tc := ⟨.hbm, 166, rfl⟩
abbrev main_call1_v3 : Ref sig .tc := ⟨.hbm, 167, rfl⟩
abbrev main_call1_cst_0 : Ref sig .tc := ⟨.hbm, 168, rfl⟩
abbrev main_call1_v4 : Ref sig .tc := ⟨.hbm, 169, rfl⟩
abbrev main_call1_v5 : Ref sig .tc := ⟨.hbm, 170, rfl⟩
abbrev main_v111 : Ref sig .tc := ⟨.hbm, 171, rfl⟩
abbrev main_v112 : Ref sig .tc := ⟨.hbm, 172, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1250000x64_0_1 : S1x64.BroadcastsInDim S1250000x64 (![0, 1] : Fin 2 → Fin S1250000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S1250000x64_S1250000_d1 : S1250000x64.ReducesTo [1] S1250000
  bcast_S_S1250000x1 : S_.BroadcastsInDim S1250000x1 (![] : Fin 0 → Fin S1250000x1.rank)
  bcast_S1250000x1_S1250000x64_0_1 : S1250000x1.BroadcastsInDim S1250000x64 (![0, 1] : Fin 2 → Fin S1250000x64.rank)
  dot_S100000x64_S64x16_S100000x16_1_0_0_1_n_n_wf : DotDims.WF S100000x64 S64x16 S100000x16 [1] [0] [0] [1] [] []
  dot_S100000x16_S16x64_S100000x64_1_0_0_1_n_n_wf : DotDims.WF S100000x16 S16x64 S100000x64 [1] [0] [0] [1] [] []
  dot_S1250000x64_S64x16_S1250000x16_1_0_0_1_n_n_wf : DotDims.WF S1250000x64 S64x16 S1250000x16 [1] [0] [0] [1] [] []
  dot_S1250000x16_S16x64_S1250000x64_1_0_0_1_n_n_wf : DotDims.WF S1250000x16 S16x64 S1250000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S1250000x64_S64x16_S1250000x16_1_0_0_1_n_n : DotDims S1250000x64 S64x16 S1250000x16 where
  lhsContracting := [1]
  rhsContracting := [0]
  lhsNonContracting := [0]
  rhsNonContracting := [1]
  lhsBatch := []
  rhsBatch := []
  wf := dot_S1250000x64_S64x16_S1250000x16_1_0_0_1_n_n_wf
def dot_S1250000x16_S16x64_S1250000x64_1_0_0_1_n_n : DotDims S1250000x16 S16x64 S1250000x64 where
  lhsContracting := [1]
  rhsContracting := [0]
  lhsNonContracting := [0]
  rhsNonContracting := [1]
  lhsBatch := []
  rhsBatch := []
  wf := dot_S1250000x16_S16x64_S1250000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.RefFrame.lean ====
/-
  The reference program's side.  Its run is read back operation by operation (the generated run and
  read-at-an-index modules); here its frame is that run with the two results dropped, and its two
  results are named as the last stages of the reference's chain applied to the launch arguments.
-/
import proofs.«126342_j74371653697786_2_alg».proof.Defs
import proofs.«126342_j74371653697786_2_alg».proof.Proof.Gen.ReferenceIdeal
import proofs.«126342_j74371653697786_2_alg».proof.Proof.Gen.Pre_finite_inputs
import proofs.«126342_j74371653697786_2_alg».proof.Proof.Gen.ReferenceIdeal.Run
import proofs.«126342_j74371653697786_2_alg».proof.Proof.Gen.ReferenceIdeal.Read

noncomputable section

open Idealize.ShloMosaic Idealize.ShloMosaic.TcCoe Idealize.SL.Sem

namespace Cert.Proof.RefFrame

/-- Every weakly fair execution of the reference terminates without a fault and leaves its arguments as
    launched: the reference's run, forgetting what it says of the two results. -/
theorem frame : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.KernelRun.lean ====
/-
  The kernel program's run with its two results named.  At the last boundary of the program every
  unscoped buffer holds the fold of the three regions' write-backs and the two stretches of host
  operations over the launch memory; the run's final memory is that fold at every buffer, in
  particular at the two result buffers and at the twenty-three arguments, which nothing writes.
-/
import proofs.«126342_j74371653697786_2_alg».proof.Proof.Gen.KernelIdeal.Frame

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program ends, without a fault, with the node result and the
    edge result at the last boundary's contents and every argument as launched. -/
theorem run_named : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_v22_0) = W5 m ρ c (Proc.devRef .tc main_v22_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       h c _ (mem_uc main_v22_0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c)⟩)

end Cert.Proof.KernelRun

end
-- ==== Proof.Glue.lean ====
/-
  The kernel program's two results as functions of its arguments.  The buffer contents at each boundary
  of the program are a fold over the launch memory: region 0 leaves the four low-rank projections of the
  node features, the first stretch of host operations gathers three of them along the edges, region 1
  leaves the edge result, the gate and the gated messages, the second stretch sums the messages and the
  gates into the destination nodes and divides, region 2 leaves the node result.  Each region's arrays are
  the reference's own stages of what the region finds on entry (the three region facts below, proved in
  their own modules); the host operations between the regions are the reference's, operation for
  operation, so each stretch is read back whole and never opened at an index.
-/
import proofs.«126342_j74371653697786_2_alg».proof.Proof.Gen.KernelIdeal.Frame
import proofs.«126342_j74371653697786_2_alg».proof.Proof.Gen.ReferenceIdeal.Read
import Idealize.ShloMosaic.Lib.StableHlo.Run

set_option maxRecDepth 16384

noncomputable section

namespace Cert.Proof.Glue

open Cert.KernelIdeal Cert.KernelIdeal.Gen
open Idealize.ShloMosaic Idealize.ShloMosaic.TcCoe Idealize.SL.Sem Idealize.ShloMosaic.StableHlo

/-! ## The three region facts -/

/-- Region 0: each of its four output arrays is the reference's low-rank stage of the node features and
    that projection's two factors and bias, as the region finds them. -/
def Region0 : Prop := ∀ (V : (c : Dev nD) → (b : Ref sig .tc) → Buf (Elt Ideal) ((c : Thread nD τ).loc b)) (c : Dev nD),
  (dat0 (F := Ideal) V c).arrAt 13 cfg0.N = Cert.ReferenceIdeal.Read.val_main_v4 (F := Ideal) (V c main_arg0) (V c main_arg4) (V c main_arg5) (V c main_arg6)
  ∧ (dat0 (F := Ideal) V c).arrAt 14 cfg0.N = Cert.ReferenceIdeal.Read.val_main_v9 (F := Ideal) (V c main_arg0) (V c main_arg7) (V c main_arg8) (V c main_arg9)
  ∧ (dat0 (F := Ideal) V c).arrAt 15 cfg0.N = Cert.ReferenceIdeal.Read.val_main_v41 (F := Ideal) (V c main_arg0) (V c main_arg16) (V c main_arg17) (V c main_arg18)
  ∧ (dat0 (F := Ideal) V c).arrAt 16 cfg0.N = Cert.ReferenceIdeal.Read.val_main_v63 (F := Ideal) (V c main_arg0) (V c main_arg13) (V c main_arg14) (V c main_arg15)

/-- Region 1: entered with the edge features, the three gathered projections and the edge weights, it
    leaves the reference's edge result, gated messages and gate. -/
def Region1 : Prop := ∀ (V : (c : Dev nD) → (b : Ref sig .tc) → Buf (Elt Ideal) ((c : Thread nD τ).loc b)) (c : Dev nD) (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (x16 : (⟨Cert.ReferenceIdeal.S64x16, .f32⟩ : BufTy).Contents (Elt Ideal)) (x17 : (⟨Cert.ReferenceIdeal.S16x64, .f32⟩ : BufTy).Contents (Elt Ideal)) (x18 : (⟨Cert.ReferenceIdeal.S64, .f32⟩ : BufTy).Contents (Elt Ideal)) (x21 : (⟨Cert.ReferenceIdeal.S64, .f32⟩ : BufTy).Contents (Elt Ideal)) (x22 : (⟨Cert.ReferenceIdeal.S64, .f32⟩ : BufTy).Contents (Elt Ideal)),
  V c main_arg1 = x1 → V c main_v7 = Cert.ReferenceIdeal.Read.val_main_v21 (F := Ideal) x0 x2 x4 x5 x6 →
  V c main_v14 = Cert.ReferenceIdeal.Read.val_main_v28 (F := Ideal) x0 x3 x7 x8 x9 → V c main_v21 = Cert.ReferenceIdeal.Read.val_main_v48 (F := Ideal) x0 x2 x16 x17 x18 →
  V c main_arg10 = x10 → V c main_arg11 = x11 → V c main_arg12 = x12 → V c main_arg21 = x21 → V c main_arg22 = x22 →
  (dat1 (F := Ideal) V c).arrAt 9 cfg1.N = Cert.ReferenceIdeal.Read.val_main_v112 (F := Ideal) x0 x1 x2 x3 x4 x5 x6 x7 x8 x9 x10 x11 x12 x21 x22
  ∧ (dat1 (F := Ideal) V c).arrAt 10 cfg1.N = Cert.ReferenceIdeal.Read.val_main_v49 (F := Ideal) x0 x1 x2 x3 x4 x5 x6 x7 x8 x9 x10 x11 x12 x16 x17 x18
  ∧ (dat1 (F := Ideal) V c).arrAt 11 cfg1.N = Cert.ReferenceIdeal.Read.val_main_v36 (F := Ideal) x0 x1 x2 x3 x4 x5 x6 x7 x8 x9 x10 x11 x12

/-- Region 2: entered with the fourth projection, the normalised message sum, the node features and the
    node weights, it leaves the reference's node result. -/
def Region2 : Prop := ∀ (V : (c : Dev nD) → (b : Ref sig .tc) → Buf (Elt Ideal) ((c : Thread nD τ).loc b)) (c : Dev nD) (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (x13 : (⟨Cert.ReferenceIdeal.S64x16, .f32⟩ : BufTy).Contents (Elt Ideal)) (x14 : (⟨Cert.ReferenceIdeal.S16x64, .f32⟩ : BufTy).Contents (Elt Ideal)) (x15 : (⟨Cert.ReferenceIdeal.S64, .f32⟩ : BufTy).Contents (Elt Ideal)) (x16 : (⟨Cert.ReferenceIdeal.S64x16, .f32⟩ : BufTy).Contents (Elt Ideal)) (x17 : (⟨Cert.ReferenceIdeal.S16x64, .f32⟩ : BufTy).Contents (Elt Ideal)) (x18 : (⟨Cert.ReferenceIdeal.S64, .f32⟩ : BufTy).Contents (Elt Ideal)) (x19 : (⟨Cert.ReferenceIdeal.S64, .f32⟩ : BufTy).Contents (Elt Ideal)) (x20 : (⟨Cert.ReferenceIdeal.S64, .f32⟩ : BufTy).Contents (Elt Ideal)),
  V c main_v0_3 = Cert.ReferenceIdeal.Read.val_main_v63 (F := Ideal) x0 x13 x14 x15 →
  V c main_v31 = Cert.ReferenceIdeal.Read.val_main_v58 (F := Ideal) x0 x1 x2 x3 x4 x5 x6 x7 x8 x9 x10 x11 x12 x16 x17 x18 →
  V c main_arg0 = x0 → V c main_arg19 = x19 → V c main_arg20 = x20 →
  (dat2 (F := Ideal) V c).arrAt 5 cfg2.N = Cert.ReferenceIdeal.Read.val_main_v88 (F := Ideal) x0 x1 x2 x3 x4 x5 x6 x7 x8 x9 x10 x11 x12 x13 x14 x15 x16 x17 x18 x19 x20

variable (m : (ℓ : Loc nD τ sig) → Buf (Elt Ideal) ℓ) (ρ : Dev nD → PrngReg) (c : Dev nD)

/-- An argument array as launched. -/
abbrev A (k : Ref sig .tc) : Buf (Elt Ideal) ((c : Thread nD τ).loc k) := m ((c : Thread nD τ).loc k)

/-! ## After region 0 -/

theorem W1_arg0 : W1 m ρ c (Proc.devRef .tc main_arg0) = A m c main_arg0 :=
  (W1_arr m ρ c 0).trans (((dat0 (V0 m ρ) c).arrAt_in 0 rfl _).trans (A_eq0 (V0 m ρ) c 0))
theorem W1_arg1 : W1 m ρ c (Proc.devRef .tc main_arg1) = A m c main_arg1 := W1_of_ne m ρ c main_arg1 (by decide)
theorem W1_arg2 : W1 m ρ c (Proc.devRef .tc main_arg2) = A m c main_arg2 := W1_of_ne m ρ c main_arg2 (by decide)
theorem W1_arg3 : W1 m ρ c (Proc.devRef .tc main_arg3) = A m c main_arg3 := W1_of_ne m ρ c main_arg3 (by decide)
theorem W1_arg10 : W1 m ρ c (Proc.devRef .tc main_arg10) = A m c main_arg10 := W1_of_ne m ρ c main_arg10 (by decide)
theorem W1_arg11 : W1 m ρ c (Proc.devRef .tc main_arg11) = A m c main_arg11 := W1_of_ne m ρ c main_arg11 (by decide)
theorem W1_arg12 : W1 m ρ c (Proc.devRef .tc main_arg12) = A m c main_arg12 := W1_of_ne m ρ c main_arg12 (by decide)
theorem W1_arg19 : W1 m ρ c (Proc.devRef .tc main_arg19) = A m c main_arg19 := W1_of_ne m ρ c main_arg19 (by decide)
theorem W1_arg20 : W1 m ρ c (Proc.devRef .tc main_arg20) = A m c main_arg20 := W1_of_ne m ρ c main_arg20 (by decide)
theorem W1_arg21 : W1 m ρ c (Proc.devRef .tc main_arg21) = A m c main_arg21 := W1_of_ne m ρ c main_arg21 (by decide)
theorem W1_arg22 : W1 m ρ c (Proc.devRef .tc main_arg22) = A m c main_arg22 := W1_of_ne m ρ c main_arg22 (by decide)

theorem W1_v0_0 (h : Region0) : W1 m ρ c (Proc.devRef .tc main_v0_0) = Cert.ReferenceIdeal.Read.val_main_v4 (F := Ideal) (A m c main_arg0) (A m c main_arg4) (A m c main_arg5) (A m c main_arg6) :=
  (W1_arr m ρ c 13).trans (h (V0 m ρ) c).1
theorem W1_v0_1 (h : Region0) : W1 m ρ c (Proc.devRef .tc main_v0_1) = Cert.ReferenceIdeal.Read.val_main_v9 (F := Ideal) (A m c main_arg0) (A m c main_arg7) (A m c main_arg8) (A m c main_arg9) :=
  (W1_arr m ρ c 14).trans (h (V0 m ρ) c).2.1
theorem W1_v0_2 (h : Region0) : W1 m ρ c (Proc.devRef .tc main_v0_2) = Cert.ReferenceIdeal.Read.val_main_v41 (F := Ideal) (A m c main_arg0) (A m c main_arg16) (A m c main_arg17) (A m c main_arg18) :=
  (W1_arr m ρ c 15).trans (h (V0 m ρ) c).2.2.1
theorem W1_v0_3 (h : Region0) : W1 m ρ c (Proc.devRef .tc main_v0_3) = Cert.ReferenceIdeal.Read.val_main_v63 (F := Ideal) (A m c main_arg0) (A m c main_arg13) (A m c main_arg14) (A m c main_arg15) :=
  (W1_arr m ρ c 16).trans (h (V0 m ρ) c).2.2.2

/-! ## After the first stretch of host operations: the three gathers -/

theorem W2_arg1 : W2 m ρ c (Proc.devRef .tc main_arg1) = A m c main_arg1 := by
  show StableHlo.after hostOps1 (W1 m ρ c) (Proc.devRef .tc main_arg1) = _
  dsimp only [hostOps1]
  after_results
  exact W1_arg1 m ρ c
theorem W2_arg3 : W2 m ρ c (Proc.devRef .tc main_arg3) = A m c main_arg3 := by
  show StableHlo.after hostOps1 (W1 m ρ c) (Proc.devRef .tc main_arg3) = _
  dsimp only [hostOps1]
  after_results
  exact W1_arg3 m ρ c
theorem W2_arg10 : W2 m ρ c (Proc.devRef .tc main_arg10) = A m c main_arg10 := by
  show StableHlo.after hostOps1 (W1 m ρ c) (Proc.devRef .tc main_arg10) = _
  dsimp only [hostOps1]
  after_results
  exact W1_arg10 m ρ c
theorem W2_arg11 : W2 m ρ c (Proc.devRef .tc main_arg11) = A m c main_arg11 := by
  show StableHlo.after hostOps1 (W1 m ρ c) (Proc.devRef .tc main_arg11) = _
  dsimp only [hostOps1]
  after_results
  exact W1_arg11 m ρ c
theorem W2_arg12 : W2 m ρ c (Proc.devRef .tc main_arg12) = A m c main_arg12 := by
  show StableHlo.after hostOps1 (W1 m ρ c) (Proc.devRef .tc main_arg12) = _
  dsimp only [hostOps1]
  after_results
  exact W1_arg12 m ρ c
theorem W2_arg19 : W2 m ρ c (Proc.devRef .tc main_arg19) = A m c main_arg19 := by
  show StableHlo.after hostOps1 (W1 m ρ c) (Proc.devRef .tc main_arg19) = _
  dsimp only [hostOps1]
  after_results
  exact W1_arg19 m ρ c
theorem W2_arg20 : W2 m ρ c (Proc.devRef .tc main_arg20) = A m c main_arg20 := by
  show StableHlo.after hostOps1 (W1 m ρ c) (Proc.devRef .tc main_arg20) = _
  dsimp only [hostOps1]
  after_results
  exact W1_arg20 m ρ c
theorem W2_arg21 : W2 m ρ c (Proc.devRef .tc main_arg21) = A m c main_arg21 := by
  show StableHlo.after hostOps1 (W1 m ρ c) (Proc.devRef .tc main_arg21) = _
  dsimp only [hostOps1]
  after_results
  exact W1_arg21 m ρ c
theorem W2_arg22 : W2 m ρ c (Proc.devRef .tc main_arg22) = A m c main_arg22 := by
  show StableHlo.after hostOps1 (W1 m ρ c) (Proc.devRef .tc main_arg22) = _
  dsimp only [hostOps1]
  after_results
  exact W1_arg22 m ρ c
theorem W2_arg0 : W2 m ρ c (Proc.devRef .tc main_arg0) = A m c main_arg0 := by
  show StableHlo.after hostOps1 (W1 m ρ c) (Proc.devRef .tc main_arg0) = _
  dsimp only [hostOps1]
  after_results
  exact W1_arg0 m ρ c
theorem W2_v0_3 (h : Region0) : W2 m ρ c (Proc.devRef .tc main_v0_3) = Cert.ReferenceIdeal.Read.val_main_v63 (F := Ideal) (A m c main_arg0) (A m c main_arg13) (A m c main_arg14) (A m c main_arg15) := by
  show StableHlo.after hostOps1 (W1 m ρ c) (Proc.devRef .tc main_v0_3) = _
  dsimp only [hostOps1]
  after_results
  exact W1_v0_3 m ρ c h

/-- The source gate gathered along the edges: the host's index arithmetic and gather are the reference's own. -/
theorem W2_v7 (h : Region0) : W2 m ρ c (Proc.devRef .tc main_v7) = Cert.ReferenceIdeal.Read.val_main_v21 (F := Ideal) (A m c main_arg0) (A m c main_arg2) (A m c main_arg4) (A m c main_arg5) (A m c main_arg6) := by
  show StableHlo.after hostOps1 (W1 m ρ c) (Proc.devRef .tc main_v7) = _
  dsimp only [hostOps1]
  after_results
  rw [W1_v0_0 m ρ c h, W1_arg2 m ρ c]
  rfl
set_option maxHeartbeats 2000000 in
/-- The destination gate gathered along the edges. -/
theorem W2_v14 (h : Region0) : W2 m ρ c (Proc.devRef .tc main_v14) = Cert.ReferenceIdeal.Read.val_main_v28 (F := Ideal) (A m c main_arg0) (A m c main_arg3) (A m c main_arg7) (A m c main_arg8) (A m c main_arg9) := by
  show StableHlo.after hostOps1 (W1 m ρ c) (Proc.devRef .tc main_v14) = _
  dsimp only [hostOps1]
  after_results_simp
  rw [W1_v0_1 m ρ c h, W1_arg3 m ρ c]
  rfl
set_option maxHeartbeats 2000000 in
/-- The destination update gathered along the edges. -/
theorem W2_v21 (h : Region0) : W2 m ρ c (Proc.devRef .tc main_v21) = Cert.ReferenceIdeal.Read.val_main_v48 (F := Ideal) (A m c main_arg0) (A m c main_arg2) (A m c main_arg16) (A m c main_arg17) (A m c main_arg18) := by
  show StableHlo.after hostOps1 (W1 m ρ c) (Proc.devRef .tc main_v21) = _
  dsimp only [hostOps1]
  after_results_simp
  rw [W1_v0_2 m ρ c h, W1_arg2 m ρ c]
  rfl

/-! ## After region 1 -/

/-- Region 1's three output arrays at the reference's stages of the launch arguments. -/
theorem region1_at (h0 : Region0) (h1 : Region1) :
    (dat1 (F := Ideal) (V2 m ρ) c).arrAt 9 cfg1.N = Cert.ReferenceIdeal.Read.val_main_v112 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg21) (A m c main_arg22)
    ∧ (dat1 (F := Ideal) (V2 m ρ) c).arrAt 10 cfg1.N = Cert.ReferenceIdeal.Read.val_main_v49 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg16) (A m c main_arg17) (A m c main_arg18)
    ∧ (dat1 (F := Ideal) (V2 m ρ) c).arrAt 11 cfg1.N = Cert.ReferenceIdeal.Read.val_main_v36 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) :=
  h1 (V2 m ρ) c (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg16) (A m c main_arg17) (A m c main_arg18) (A m c main_arg21) (A m c main_arg22)
    (W2_arg1 m ρ c) (W2_v7 m ρ c h0) (W2_v14 m ρ c h0) (W2_v21 m ρ c h0)
    (W2_arg10 m ρ c) (W2_arg11 m ρ c) (W2_arg12 m ρ c) (W2_arg21 m ρ c) (W2_arg22 m ρ c)

theorem W3_v22_0 (h0 : Region0) (h1 : Region1) : W3 m ρ c (Proc.devRef .tc main_v22_0) = Cert.ReferenceIdeal.Read.val_main_v112 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg21) (A m c main_arg22) :=
  (W3_arr m ρ c 9).trans (region1_at m ρ c h0 h1).1
theorem W3_v22_1 (h0 : Region0) (h1 : Region1) : W3 m ρ c (Proc.devRef .tc main_v22_1) = Cert.ReferenceIdeal.Read.val_main_v49 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg16) (A m c main_arg17) (A m c main_arg18) :=
  (W3_arr m ρ c 10).trans (region1_at m ρ c h0 h1).2.1
theorem W3_v22_2 (h0 : Region0) (h1 : Region1) : W3 m ρ c (Proc.devRef .tc main_v22_2) = Cert.ReferenceIdeal.Read.val_main_v36 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) :=
  (W3_arr m ρ c 11).trans (region1_at m ρ c h0 h1).2.2
theorem W3_arg3 : W3 m ρ c (Proc.devRef .tc main_arg3) = A m c main_arg3 := (W3_of_ne m ρ c main_arg3 (by decide)).trans (W2_arg3 m ρ c)
theorem W3_arg0 : W3 m ρ c (Proc.devRef .tc main_arg0) = A m c main_arg0 := (W3_of_ne m ρ c main_arg0 (by decide)).trans (W2_arg0 m ρ c)
theorem W3_arg19 : W3 m ρ c (Proc.devRef .tc main_arg19) = A m c main_arg19 := (W3_of_ne m ρ c main_arg19 (by decide)).trans (W2_arg19 m ρ c)
theorem W3_arg20 : W3 m ρ c (Proc.devRef .tc main_arg20) = A m c main_arg20 := (W3_of_ne m ρ c main_arg20 (by decide)).trans (W2_arg20 m ρ c)
theorem W3_v0_3 (h : Region0) : W3 m ρ c (Proc.devRef .tc main_v0_3) = Cert.ReferenceIdeal.Read.val_main_v63 (F := Ideal) (A m c main_arg0) (A m c main_arg13) (A m c main_arg14) (A m c main_arg15) :=
  (W3_of_ne m ρ c main_v0_3 (by decide)).trans (W2_v0_3 m ρ c h)

/-! ## After the second stretch of host operations: the two sums into the destination nodes and their quotient -/

theorem W4_arg0 : W4 m ρ c (Proc.devRef .tc main_arg0) = A m c main_arg0 := by
  show StableHlo.after hostOps2 (W3 m ρ c) (Proc.devRef .tc main_arg0) = _
  dsimp only [hostOps2]
  after_results
  exact W3_arg0 m ρ c
theorem W4_arg19 : W4 m ρ c (Proc.devRef .tc main_arg19) = A m c main_arg19 := by
  show StableHlo.after hostOps2 (W3 m ρ c) (Proc.devRef .tc main_arg19) = _
  dsimp only [hostOps2]
  after_results
  exact W3_arg19 m ρ c
theorem W4_arg20 : W4 m ρ c (Proc.devRef .tc main_arg20) = A m c main_arg20 := by
  show StableHlo.after hostOps2 (W3 m ρ c) (Proc.devRef .tc main_arg20) = _
  dsimp only [hostOps2]
  after_results
  exact W3_arg20 m ρ c
theorem W4_v0_3 (h : Region0) : W4 m ρ c (Proc.devRef .tc main_v0_3) = Cert.ReferenceIdeal.Read.val_main_v63 (F := Ideal) (A m c main_arg0) (A m c main_arg13) (A m c main_arg14) (A m c main_arg15) := by
  show StableHlo.after hostOps2 (W3 m ρ c) (Proc.devRef .tc main_v0_3) = _
  dsimp only [hostOps2]
  after_results
  exact W3_v0_3 m ρ c h
theorem W4_v22_0 (h0 : Region0) (h1 : Region1) : W4 m ρ c (Proc.devRef .tc main_v22_0) = Cert.ReferenceIdeal.Read.val_main_v112 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg21) (A m c main_arg22) := by
  show StableHlo.after hostOps2 (W3 m ρ c) (Proc.devRef .tc main_v22_0) = _
  dsimp only [hostOps2]
  after_results
  exact W3_v22_0 m ρ c h0 h1
set_option maxHeartbeats 2000000 in
/-- The gated messages summed into their destination nodes, over the gates summed likewise plus the
    small constant: the host's scatter-adds, sum and quotient are the reference's own. -/
theorem W4_v31 (h0 : Region0) (h1 : Region1) : W4 m ρ c (Proc.devRef .tc main_v31) = Cert.ReferenceIdeal.Read.val_main_v58 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg16) (A m c main_arg17) (A m c main_arg18) := by
  show StableHlo.after hostOps2 (W3 m ρ c) (Proc.devRef .tc main_v31) = _
  dsimp only [hostOps2]
  after_results_simp
  rw [W3_v22_1 m ρ c h0 h1, W3_v22_2 m ρ c h0 h1, W3_arg3 m ρ c]
  rfl

/-! ## After region 2: the two results -/

/-- The node result at the last boundary is the reference's node result of the launch arguments. -/
theorem W5_v32 (h0 : Region0) (h1 : Region1) (h2 : Region2) :
    W5 m ρ c (Proc.devRef .tc main_v32) = Cert.ReferenceIdeal.Read.val_main_v88 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) :=
  (W5_arr m ρ c 5).trans (h2 (V4 m ρ) c (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20)
    (W4_v0_3 m ρ c h0) (W4_v31 m ρ c h0 h1) (W4_arg0 m ρ c) (W4_arg19 m ρ c) (W4_arg20 m ρ c))
/-- The edge result at the last boundary is the reference's edge result of the launch arguments. -/
theorem W5_v22_0 (h0 : Region0) (h1 : Region1) :
    W5 m ρ c (Proc.devRef .tc main_v22_0) = Cert.ReferenceIdeal.Read.val_main_v112 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg21) (A m c main_arg22) :=
  (W5_of_ne m ρ c main_v22_0 (by decide)).trans (W4_v22_0 m ρ c h0 h1)

end Cert.Proof.Glue

end
-- ==== Proof.NodeProj.lean ====
/-
  Region 0, the four node projections. Each of the region's four outputs is a low-rank projection of the node features,
  x · w1 · w2 + b with x of shape [100000, 64], w1 [64, 16], w2 [16, 64] and b [64], computed on row blocks of 5000 over
  a grid of 20 points. Entry (i, j) of the result is (∑ r < 16, (∑ k < 64, x i k · w1 k r) · w2 r j) + b j: it depends on
  row i of x alone, so cutting the rows into blocks changes nothing, and at the ideal values the roundings to bf16 are
  the identity, a matrix product into a zero accumulator is the plain sum of products, and no law of arithmetic beyond
  reading both sides entry by entry is used (in particular nothing about finiteness).

  The file has four steps. (1) The body's stored value, one function of (x, w1, w2, b) for all four outputs, read at an
  entry of a block. (2) Each window's block at a grid point as rows of its array: the feature block at point t is rows
  5000·t … 5000·t + 4999, every weight and bias block is the whole array. (3) What point t writes back is block t of
  the projection of the whole arrays, and row r lies in the block of point r / 5000, so each output array ends holding
  the projection. (4) The host program's corresponding stage (two dot products plus the broadcast bias) is the same
  function, entry by entry.
-/
import proofs.«126342_j74371653697786_2_alg».proof.Proof.Gen.KernelIdeal.Frame
import proofs.«126342_j74371653697786_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx
open Idealize.ShloMosaic.Pipeline (Dat)
open scoped BigOperators

namespace Cert.Proof.NodeProj

open Cert.KernelIdeal Cert.KernelIdeal.Gen

/-- Entry (p, q) of the low-rank projection x · w1 · w2 + b: the inner sum runs over the 64 input features, the outer one
    over the 16 ranks, and the bias depends on the column alone. The row count is a parameter, so the same term reads a
    5000-row block and the 100000-row array. -/
def entry {n : Nat} (x : (⟨2, ![n, 64]⟩ : Shape).Idx → EReal) (w1 : (⟨2, ![64, 16]⟩ : Shape).Idx → EReal)
    (w2 : (⟨2, ![16, 64]⟩ : Shape).Idx → EReal) (b : (⟨1, ![64]⟩ : Shape).Idx → EReal) (p : Fin n) (q : Fin 64) : EReal :=
  (∑ r : Fin 16, (∑ k : Fin 64, x (ix2 p k) * w1 (ix2 k r)) * w2 (ix2 r q)) + b (ix1 q)

variable {F : FTy → Type} [FloatOps F]

/-- One row block of the projection as the kernel body computes it: both factors and the intermediate product pass through
    bf16, each matrix product accumulates into zeros, and the bias row is broadcast down the block. -/
def blockProj (x : Vec F S5000x64 .f32) (w1 : Vec F S64x16 .f32) (w2 : Vec F S16x64 .f32) (b : Vec F S64 .f32) :
    FVec F S5000x64 .f32 :=
  addf
    (matmul dot_S5000x16_S16x64_S5000x64_1_0_0_1_n_n none
      (truncf .bf16
        (matmul dot_S5000x64_S64x16_S5000x16_1_0_0_1_n_n none (truncf .bf16 x bitsLt_bf16_f32) (truncf .bf16 w1 bitsLt_bf16_f32)
          (constant S5000x16 .f32 0x00000000#32))
        bitsLt_bf16_f32)
      (truncf .bf16 w2 bitsLt_bf16_f32) (constant S5000x64 .f32 0x00000000#32))
    (broadcastTo S5000x64 (shapeCast S1x64 b shapeCasts_S64_S1x64) broadcasts_S1x64_S5000x64)

/-- The four stored values are that one function, with its subterms grouped differently. -/
theorem pay4_eq (x : Vec F S5000x64 .f32) (w1 : Vec F S64x16 .f32) (w2 : Vec F S16x64 .f32) (b : Vec F S64 .f32) :
    k0_pay4 x w1 w2 b = blockProj x w1 w2 b := rfl
theorem pay5_eq (x : Vec F S5000x64 .f32) (w1 : Vec F S64x16 .f32) (w2 : Vec F S16x64 .f32) (b : Vec F S64 .f32) :
    k0_pay5 x w1 w2 b = blockProj x w1 w2 b := rfl
theorem pay1_eq (x : Vec F S5000x64 .f32) (w1 : Vec F S64x16 .f32) (w2 : Vec F S16x64 .f32) (b : Vec F S64 .f32) :
    k0_pay1 (k0_pay6 w2) (k0_pay7 x w1) b = blockProj x w1 w2 b := rfl
theorem pay2_eq (x : Vec F S5000x64 .f32) (w1 : Vec F S64x16 .f32) (w2 : Vec F S16x64 .f32) (b : Vec F S64 .f32) :
    k0_pay2 (k0_pay3 x) w1 w2 b = blockProj x w1 w2 b := rfl

/-! ## The two matrix products at an entry -/

theorem dotA_lhs0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide),
    dif_pos (show (0 : Fin S5000x64.rank) ∈ dot_S5000x64_S64x16_S5000x16_1_0_0_1_n_n.lhsNonContracting by decide)]
  rfl
theorem dotA_rhs1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide),
    dif_pos (show (1 : Fin S64x16.rank) ∈ dot_S5000x64_S64x16_S5000x16_1_0_0_1_n_n.rhsNonContracting by decide)]
  rfl

/-- The first product, [5000,64] by [64,16] into zeros, at entry (p, r): the sum over the 64 features. -/
theorem dotA_apply (L : FVec Ideal S5000x64 .bf16) (R : FVec Ideal S64x16 .bf16) (p : Fin 5000) (r : Fin 16) :
    matmul dot_S5000x64_S64x16_S5000x16_1_0_0_1_n_n none L R (constant S5000x16 .f32 0x00000000#32) (ix2 p r)
      = ∑ k : Fin 64, L (ix2 p k) * R (ix2 k r) := by
  refine (Ideal.matmul_constant_zero_apply dot_S5000x64_S64x16_S5000x16_1_0_0_1_n_n none L R (ix2 p r)).trans ?_
  rw [← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p r) ((contrEquiv1 dot_S5000x64_S64x16_S5000x16_1_0_0_1_n_n 64 rfl rfl).symm k) = ix2 p k :=
    funext fun a => Fin.ext (by
      match a with
      | ⟨0, _⟩ => exact dotA_lhs0 _ _
      | ⟨1, _⟩ => exact (dot_S5000x64_S64x16_S5000x16_1_0_0_1_n_n.lhsIdx_val_of_single rfl _ _).trans hk)
  have er : dot_S5000x64_S64x16_S5000x16_1_0_0_1_n_n.rhsIdx (ix2 p r) ((contrEquiv1 dot_S5000x64_S64x16_S5000x16_1_0_0_1_n_n 64 rfl rfl).symm k) = ix2 k r :=
    funext fun a => Fin.ext (by
      match a with
      | ⟨0, _⟩ => exact (dot_S5000x64_S64x16_S5000x16_1_0_0_1_n_n.rhsIdx_val_of_single rfl _ _).trans hk
      | ⟨1, _⟩ => exact dotA_rhs1 _ _)
  rw [el, er]

theorem dotB_lhs0 (i : S5000x64.Idx) (q : dot_S5000x16_S16x64_S5000x64_1_0_0_1_n_n.contr.Idx) :
    (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide),
    dif_pos (show (0 : Fin S5000x16.rank) ∈ dot_S5000x16_S16x64_S5000x64_1_0_0_1_n_n.lhsNonContracting by decide)]
  rfl
theorem dotB_rhs1 (i : S5000x64.Idx) (q : dot_S5000x16_S16x64_S5000x64_1_0_0_1_n_n.contr.Idx) :
    (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide),
    dif_pos (show (1 : Fin S16x64.rank) ∈ dot_S5000x16_S16x64_S5000x64_1_0_0_1_n_n.rhsNonContracting by decide)]
  rfl

/-- The second product, [5000,16] by [16,64] into zeros, at entry (p, q): the sum over the 16 ranks. -/
theorem dotB_apply (L : FVec Ideal S5000x16 .bf16) (R : FVec Ideal S16x64 .bf16) (p : Fin 5000) (q : Fin 64) :
    matmul dot_S5000x16_S16x64_S5000x64_1_0_0_1_n_n none L R (constant S5000x64 .f32 0x00000000#32) (ix2 p q)
      = ∑ r : Fin 16, L (ix2 p r) * R (ix2 r q) := by
  refine (Ideal.matmul_constant_zero_apply dot_S5000x16_S16x64_S5000x64_1_0_0_1_n_n none L R (ix2 p q)).trans ?_
  rw [← Equiv.sum_comp (contrEquiv1 dot_S5000x16_S16x64_S5000x64_1_0_0_1_n_n 16 rfl rfl).symm]
  refine Finset.sum_congr rfl fun k _ => ?_
  have hk := contrEquiv1_symm_val dot_S5000x16_S16x64_S5000x64_1_0_0_1_n_n 16 rfl rfl k
  have el : dot_S5000x16_S16x64_S5000x64_1_0_0_1_n_n.lhsIdx (ix2 p q) ((contrEquiv1 dot_S5000x16_S16x64_S5000x64_1_0_0_1_n_n 16 rfl rfl).symm k) = ix2 p k :=
    funext fun a => Fin.ext (by
      match a with
      | ⟨0, _⟩ => exact dotB_lhs0 _ _
      | ⟨1, _⟩ => exact (dot_S5000x16_S16x64_S5000x64_1_0_0_1_n_n.lhsIdx_val_of_single rfl _ _).trans hk)
  have er : dot_S5000x16_S16x64_S5000x64_1_0_0_1_n_n.rhsIdx (ix2 p q) ((contrEquiv1 dot_S5000x16_S16x64_S5000x64_1_0_0_1_n_n 16 rfl rfl).symm k) = ix2 k q :=
    funext fun a => Fin.ext (by
      match a with
      | ⟨0, _⟩ => exact (dot_S5000x16_S16x64_S5000x64_1_0_0_1_n_n.rhsIdx_val_of_single rfl _ _).trans hk
      | ⟨1, _⟩ => exact dotB_rhs1 _ _)
  rw [el, er]

/-- The block function at entry (p, q): at the ideal values the bf16 roundings are the identity, so this is the entry
    of the projection. -/
theorem blockProj_apply (x : Vec Ideal S5000x64 .f32) (w1 : Vec Ideal S64x16 .f32) (w2 : Vec Ideal S16x64 .f32)
    (b : Vec Ideal S64 .f32) (p : Fin 5000) (q : Fin 64) :
    blockProj (F := Ideal) x w1 w2 b (ix2 p q) = entry x w1 w2 b p q := by
  unfold blockProj entry
  refine (addf_apply _ _ _).trans ?_
  refine congrArg₂ (· + ·) ?_ ?_
  · refine (dotB_apply _ _ p q).trans ?_
    refine Finset.sum_congr rfl fun r _ => ?_
    refine congrArg₂ (· * ·) ?_ rfl
    exact dotA_apply _ _ p r
  · exact (broadcastTo_1b_ab_apply _ _ p q).trans (shapeCast_a_1a_apply b _ 0 q)

/-! ## The row blocks and the array -/

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a <;> rfl

/-- The whole projected array: entry (i 0, i 1) of x · w1 · w2 + b. -/
def proj (x : S100000x64.Idx → EReal) (w1 : S64x16.Idx → EReal) (w2 : S16x64.Idx → EReal) (b : S64.Idx → EReal) :
    S100000x64.Idx → EReal :=
  fun i => entry x w1 w2 b (i 0) (i 1)

/-- Where the blocks sit: the node features and the four outputs move down the rows with the grid point, five thousand
    rows a point; every weight and bias block is its whole array at every point. Decided over the twenty points. -/
theorem idx_rows : ∀ t : Fin cfg0.N,
    (win0_0.index t (0 : Fin 2) = t.val ∧ win0_0.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ (win0_11.index t (0 : Fin 2) = 0 ∧ win0_11.index t (1 : Fin 2) = 0)
    ∧ win0_12.index t (0 : Fin 1) = 0 :=
  (by decide +kernel : ∀ t : Fin grid0.N, _)

/-- The node-feature block at point t is rows 5000·t … 5000·t + 4999 of the array. -/
theorem blk_x (t : Fin cfg0.N) (p : Fin 5000) (k : Fin 64) (h : 5000 * t.val + p.val < 100000) :
    (iblk0 V c 0 t : Vec Ideal S5000x64 .f32) (ix2 p k) = (V c main_arg0 : S100000x64.Idx → EReal) (ix2 ⟨5000 * t.val + p.val, h⟩ k) := by
  obtain ⟨⟨e0, e1⟩, -⟩ := idx_rows t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- Each weight and bias block is the whole array, at every point. -/
theorem blk_1 (t : Fin cfg0.N) : (iblk0 V c 1 t : Vec Ideal S64x16 .f32) = V c main_arg4 := by
  have h := idx_whole t
  obtain ⟨e0, e1⟩ := h.1
  funext j
  unfold iblk0
  rw [View.read_apply]
  show V c main_arg4 _ = V c main_arg4 _
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 16 + 1 * (j 1).val = (j 1).val; rw [e1]; omega
theorem blk_2 (t : Fin cfg0.N) : (iblk0 V c 2 t : Vec Ideal S16x64 .f32) = V c main_arg5 := by
  have h := idx_whole t
  obtain ⟨e0, e1⟩ := h.2.1
  funext j
  unfold iblk0
  rw [View.read_apply]
  show V c main_arg5 _ = V c main_arg5 _
  congr 1
  funext a
  apply Fin.ext
  match a with
  | ⟨0, _⟩ => show win0_2.index t (0 : Fin 2) * 16 + 1 * (j 0).val = (j 0).val; rw [e0]; omega
  | ⟨1, _⟩ => show win0_2.index t (1 : Fin 2) * 64 + 1 * (j 1).val = (j 1).val; rw [e1]; omega
theorem blk_3 (t : Fin cfg0.N) : (iblk0 V c 3 t : Vec Ideal S64 .f32) = V c main_arg6 := by
  have h := idx_whole t
  have e0 := h.2.2.1
  funext j
  unfold iblk0
  rw [View.read_apply]
  show V c main_arg6 _ = V c main_arg6 _
  congr 1
  funext a
  apply Fin.ext
  match a with
  | ⟨0, _⟩ => show win0_3.index t (0 : Fin 1) * 64 + 1 * (j 0).val = (j 0).val; rw [e0]; omega
theorem blk_4 (t : Fin cfg0.N) : (iblk0 V c 4 t : Vec Ideal S64x16 .f32) = V c main_arg7 := by
  have h := idx_whole t
  obtain ⟨e0, e1⟩ := h.2.2.2.1
  funext j
  unfold iblk0
  rw [View.read_apply]
  show V c main_arg7 _ = V c main_arg7 _
  congr 1
  funext a
  apply Fin.ext
  match a with
  | ⟨0, _⟩ => show win0_4.index t (0 : Fin 2) * 64 + 1 * (j 0).val = (j 0).val; rw [e0]; omega
  | ⟨1, _⟩ => show win0_4.index t (1 : Fin 2) * 16 + 1 * (j 1).val = (j 1).val; rw [e1]; omega
theorem blk_5 (t : Fin cfg0.N) : (iblk0 V c 5 t : Vec Ideal S16x64 .f32) = V c main_arg8 := by
  have h := idx_whole t
  obtain ⟨e0, e1⟩ := h.2.2.2.2.1
  funext j
  unfold iblk0
  rw [View.read_apply]
  show V c main_arg8 _ = V c main_arg8 _
  congr 1
  funext a
  apply Fin.ext
  match a with
  | ⟨0, _⟩ => show win0_5.index t (0 : Fin 2) * 16 + 1 * (j 0).val = (j 0).val; rw [e0]; omega
  | ⟨1, _⟩ => show win0_5.index t (1 : Fin 2) * 64 + 1 * (j 1).val = (j 1).val; rw [e1]; omega
theorem blk_6 (t : Fin cfg0.N) : (iblk0 V c 6 t : Vec Ideal S64 .f32) = V c main_arg9 := by
  have h := idx_whole t
  have e0 := h.2.2.2.2.2.1
  funext j
  unfold iblk0
  rw [View.read_apply]
  show V c main_arg9 _ = V c main_arg9 _
  congr 1
  funext a
  apply Fin.ext
  match a with
  | ⟨0, _⟩ => show win0_6.index t (0 : Fin 1) * 64 + 1 * (j 0).val = (j 0).val; rw [e0]; omega
theorem blk_7 (t : Fin cfg0.N) : (iblk0 V c 7 t : Vec Ideal S64x16 .f32) = V c main_arg16 := by
  have h := idx_whole t
  obtain ⟨e0, e1⟩ := h.2.2.2.2.2.2.1
  funext j
  unfold iblk0
  rw [View.read_apply]
  show V c main_arg16 _ = V c main_arg16 _
  congr 1
  funext a
  apply Fin.ext
  match a with
  | ⟨0, _⟩ => show win0_7.index t (0 : Fin 2) * 64 + 1 * (j 0).val = (j 0).val; rw [e0]; omega
  | ⟨1, _⟩ => show win0_7.index t (1 : Fin 2) * 16 + 1 * (j 1).val = (j 1).val; rw [e1]; omega
theorem blk_8 (t : Fin cfg0.N) : (iblk0 V c 8 t : Vec Ideal S16x64 .f32) = V c main_arg17 := by
  have h := idx_whole t
  obtain ⟨e0, e1⟩ := h.2.2.2.2.2.2.2.1
  funext j
  unfold iblk0
  rw [View.read_apply]
  show V c main_arg17 _ = V c main_arg17 _
  congr 1
  funext a
  apply Fin.ext
  match a with
  | ⟨0, _⟩ => show win0_8.index t (0 : Fin 2) * 16 + 1 * (j 0).val = (j 0).val; rw [e0]; omega
  | ⟨1, _⟩ => show win0_8.index t (1 : Fin 2) * 64 + 1 * (j 1).val = (j 1).val; rw [e1]; omega
theorem blk_9 (t : Fin cfg0.N) : (iblk0 V c 9 t : Vec Ideal S64 .f32) = V c main_arg18 := by
  have h := idx_whole t
  have e0 := h.2.2.2.2.2.2.2.2.1
  funext j
  unfold iblk0
  rw [View.read_apply]
  show V c main_arg18 _ = V c main_arg18 _
  congr 1
  funext a
  apply Fin.ext
  match a with
  | ⟨0, _⟩ => show win0_9.index t (0 : Fin 1) * 64 + 1 * (j 0).val = (j 0).val; rw [e0]; omega
theorem blk_10 (t : Fin cfg0.N) : (iblk0 V c 10 t : Vec Ideal S64x16 .f32) = V c main_arg13 := by
  have h := idx_whole t
  obtain ⟨e0, e1⟩ := h.2.2.2.2.2.2.2.2.2.1
  funext j
  unfold iblk0
  rw [View.read_apply]
  show V c main_arg13 _ = V c main_arg13 _
  congr 1
  funext a
  apply Fin.ext
  match a with
  | ⟨0, _⟩ => show win0_10.index t (0 : Fin 2) * 64 + 1 * (j 0).val = (j 0).val; rw [e0]; omega
  | ⟨1, _⟩ => show win0_10.index t (1 : Fin 2) * 16 + 1 * (j 1).val = (j 1).val; rw [e1]; omega
theorem blk_11 (t : Fin cfg0.N) : (iblk0 V c 11 t : Vec Ideal S16x64 .f32) = V c main_arg14 := by
  have h := idx_whole t
  obtain ⟨e0, e1⟩ := h.2.2.2.2.2.2.2.2.2.2.1
  funext j
  unfold iblk0
  rw [View.read_apply]
  show V c main_arg14 _ = V c main_arg14 _
  congr 1
  funext a
  apply Fin.ext
  match a with
  | ⟨0, _⟩ => show win0_11.index t (0 : Fin 2) * 16 + 1 * (j 0).val = (j 0).val; rw [e0]; omega
  | ⟨1, _⟩ => show win0_11.index t (1 : Fin 2) * 64 + 1 * (j 1).val = (j 1).val; rw [e1]; omega
theorem blk_12 (t : Fin cfg0.N) : (iblk0 V c 12 t : Vec Ideal S64 .f32) = V c main_arg15 := by
  have h := idx_whole t
  have e0 := h.2.2.2.2.2.2.2.2.2.2.2
  funext j
  unfold iblk0
  rw [View.read_apply]
  show V c main_arg15 _ = V c main_arg15 _
  congr 1
  funext a
  apply Fin.ext
  match a with
  | ⟨0, _⟩ => show win0_12.index t (0 : Fin 1) * 64 + 1 * (j 0).val = (j 0).val; rw [e0]; omega

/-- One point's block against the array: if the block's rows are rows 5000·T … of X, its entry (j 0, j 1) is the
    array's entry in row 5000·T + j 0. -/
theorem point_eq (X : S100000x64.Idx → EReal) (w1 : Vec Ideal S64x16 .f32) (w2 : Vec Ideal S16x64 .f32) (b : Vec Ideal S64 .f32)
    (x : Vec Ideal S5000x64 .f32) (T : Nat) (hT : T < 20)
    (hx : ∀ (p : Fin 5000) (k : Fin 64) (h : 5000 * T + p.val < 100000), x (ix2 p k) = X (ix2 ⟨5000 * T + p.val, h⟩ k))
    (j : S5000x64.Idx) (i : S100000x64.Idx) (hi0 : (i 0).val = 5000 * T + (j 0).val) (hi1 : (i 1).val = (j 1).val) :
    blockProj (F := Ideal) x w1 w2 b j = proj X w1 w2 b i := by
  obtain ⟨p, q, rfl⟩ : ∃ (p : Fin 5000) (q : Fin 64), j = ix2 p q := ⟨j 0, j 1, eq_ix2 j⟩
  have hb : 5000 * T + p.val < 100000 := by have := p.isLt; omega
  obtain ⟨r, s, rfl⟩ : ∃ (r : Fin 100000) (s : Fin 64), i = ix2 r s := ⟨i 0, i 1, eq_ix2 i⟩
  have hr : r = ⟨5000 * T + p.val, hb⟩ := Fin.ext hi0
  have hs : s = q := Fin.ext hi1
  subst hr hs
  rw [blockProj_apply]
  unfold proj entry
  refine congrArg₂ (· + ·) (Finset.sum_congr rfl fun r _ => congrArg₂ (· * ·) (Finset.sum_congr rfl fun k _ => ?_) rfl) rfl
  exact congrArg₂ (· * ·) (hx p k _) rfl

/-- What point t writes back to output 13 is block t of the projection of the arrays as the region finds them. -/
theorem flushed13_eq (t : Fin cfg0.N) :
    (dat0 (F := Ideal) V c).flushed 13 t
      = ((cfg0.win 13).blk t).view.read (Elt Ideal) (proj (V c main_arg0) (V c main_arg4) (V c main_arg5) (V c main_arg6)) := by
  have h := idx_rows t
  obtain ⟨e0, e1⟩ := h.2.1
  have ht : t.val < 20 := (show t.val < grid0.N from t.isLt).trans_eq N_0
  show (cfg0.win 13).cut (grid0.coords t) ((dat0 V c).after 13 t) = _
  rw [after0_13]
  unfold out0_13
  rw [View.canon_unit_zero hz2]
  simp only [View.ld_unit_zero (S := S5000x64) hz2, View.ld_unit_zero (S := S64x16) hz2, View.ld_unit_zero (S := S16x64) hz2,
    View.ld_unit_zero (S := S64) hz1]
  rw [pay4_eq, blk_1 V c t, blk_2 V c t, blk_3 V c t]
  funext j
  rw [View.read_apply]
  refine point_eq (V c main_arg0) (V c main_arg4) (V c main_arg5) (V c main_arg6) (iblk0 V c 0 t) t.val ht
    (fun p k hp => blk_x V c t p k hp) j _ ?_ ?_
  · show win0_13.index t (0 : Fin 2) * 5000 + 1 * (j 0).val = 5000 * t.val + (j 0).val; rw [e0]; omega
  · show win0_13.index t (1 : Fin 2) * 64 + 1 * (j 1).val = (j 1).val; rw [e1]; omega

/-- An index of the array is in point t's block iff each coordinate is in the block's range on its axis. -/
theorem mem_blk13 (t : Fin cfg0.N) (i : S100000x64.Idx) :
    i ∈ ((cfg0.win 13).blk t).view.set ↔ ∀ a : Fin 2, win0_13.index t a * S5000x64.size a ≤ (i a).val ∧ (i a).val < win0_13.index t a * S5000x64.size a + S5000x64.size a := by
  show i ∈ ((View.whole main_v0_0).slice (win0_13.rect t)).set ↔ _
  rw [View.set_slice_whole, Rect.mem_set_unit]
  exact Iff.rfl

/-- Row r of the array lies in the block of point r / 5000: the twenty blocks tile the hundred thousand rows. -/
theorem cover13 (i : S100000x64.Idx) : ∃ t : Fin cfg0.N, (cfg0.win 13).flush t = true ∧ i ∈ ((cfg0.win 13).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_13 _, ?_⟩
  have h := idx_rows ⟨(i 0).val / 5000, by rw [hN]; omega⟩
  obtain ⟨e0, e1⟩ := h.2.1
  rw [mem_blk13]
  intro a
  match a with
  | ⟨0, _⟩ => show win0_13.index _ (0 : Fin 2) * 5000 ≤ (i 0).val ∧ (i 0).val < win0_13.index _ (0 : Fin 2) * 5000 + 5000; rw [e0]; show (i 0).val / 5000 * 5000 ≤ (i 0).val ∧ (i 0).val < (i 0).val / 5000 * 5000 + 5000; omega
  | ⟨1, _⟩ => show win0_13.index _ (1 : Fin 2) * 64 ≤ (i 1).val ∧ (i 1).val < win0_13.index _ (1 : Fin 2) * 64 + 64; rw [e1]; omega

/-- So output 13's array ends holding the projection. -/
theorem arr13_proj : (dat0 (F := Ideal) V c).arrAt 13 cfg0.N = proj (V c main_arg0) (V c main_arg4) (V c main_arg5) (V c main_arg6) :=
  (dat0 (F := Ideal) V c).arrAt_eq_of_cover 13 (proj (V c main_arg0) (V c main_arg4) (V c main_arg5) (V c main_arg6))
    (fun t _ => flushed13_eq V c t) cover13

/-- What point t writes back to output 14 is block t of the projection of the arrays as the region finds them. -/
theorem flushed14_eq (t : Fin cfg0.N) :
    (dat0 (F := Ideal) V c).flushed 14 t
      = ((cfg0.win 14).blk t).view.read (Elt Ideal) (proj (V c main_arg0) (V c main_arg7) (V c main_arg8) (V c main_arg9)) := by
  have h := idx_rows t
  obtain ⟨e0, e1⟩ := h.2.2.1
  have ht : t.val < 20 := (show t.val < grid0.N from t.isLt).trans_eq N_0
  show (cfg0.win 14).cut (grid0.coords t) ((dat0 V c).after 14 t) = _
  rw [after0_14]
  unfold out0_14
  rw [View.canon_unit_zero hz2]
  simp only [View.ld_unit_zero (S := S5000x64) hz2, View.ld_unit_zero (S := S64x16) hz2, View.ld_unit_zero (S := S16x64) hz2,
    View.ld_unit_zero (S := S64) hz1]
  rw [pay5_eq, blk_4 V c t, blk_5 V c t, blk_6 V c t]
  funext j
  rw [View.read_apply]
  refine point_eq (V c main_arg0) (V c main_arg7) (V c main_arg8) (V c main_arg9) (iblk0 V c 0 t) t.val ht
    (fun p k hp => blk_x V c t p k hp) j _ ?_ ?_
  · show win0_14.index t (0 : Fin 2) * 5000 + 1 * (j 0).val = 5000 * t.val + (j 0).val; rw [e0]; omega
  · show win0_14.index t (1 : Fin 2) * 64 + 1 * (j 1).val = (j 1).val; rw [e1]; omega

/-- An index of the array is in point t's block iff each coordinate is in the block's range on its axis. -/
theorem mem_blk14 (t : Fin cfg0.N) (i : S100000x64.Idx) :
    i ∈ ((cfg0.win 14).blk t).view.set ↔ ∀ a : Fin 2, win0_14.index t a * S5000x64.size a ≤ (i a).val ∧ (i a).val < win0_14.index t a * S5000x64.size a + S5000x64.size a := by
  show i ∈ ((View.whole main_v0_1).slice (win0_14.rect t)).set ↔ _
  rw [View.set_slice_whole, Rect.mem_set_unit]
  exact Iff.rfl

/-- Row r of the array lies in the block of point r / 5000: the twenty blocks tile the hundred thousand rows. -/
theorem cover14 (i : S100000x64.Idx) : ∃ t : Fin cfg0.N, (cfg0.win 14).flush t = true ∧ i ∈ ((cfg0.win 14).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_14 _, ?_⟩
  have h := idx_rows ⟨(i 0).val / 5000, by rw [hN]; omega⟩
  obtain ⟨e0, e1⟩ := h.2.2.1
  rw [mem_blk14]
  intro a
  match a with
  | ⟨0, _⟩ => show win0_14.index _ (0 : Fin 2) * 5000 ≤ (i 0).val ∧ (i 0).val < win0_14.index _ (0 : Fin 2) * 5000 + 5000; rw [e0]; show (i 0).val / 5000 * 5000 ≤ (i 0).val ∧ (i 0).val < (i 0).val / 5000 * 5000 + 5000; omega
  | ⟨1, _⟩ => show win0_14.index _ (1 : Fin 2) * 64 ≤ (i 1).val ∧ (i 1).val < win0_14.index _ (1 : Fin 2) * 64 + 64; rw [e1]; omega

/-- So output 14's array ends holding the projection. -/
theorem arr14_proj : (dat0 (F := Ideal) V c).arrAt 14 cfg0.N = proj (V c main_arg0) (V c main_arg7) (V c main_arg8) (V c main_arg9) :=
  (dat0 (F := Ideal) V c).arrAt_eq_of_cover 14 (proj (V c main_arg0) (V c main_arg7) (V c main_arg8) (V c main_arg9))
    (fun t _ => flushed14_eq V c t) cover14

/-- What point t writes back to output 15 is block t of the projection of the arrays as the region finds them. -/
theorem flushed15_eq (t : Fin cfg0.N) :
    (dat0 (F := Ideal) V c).flushed 15 t
      = ((cfg0.win 15).blk t).view.read (Elt Ideal) (proj (V c main_arg0) (V c main_arg16) (V c main_arg17) (V c main_arg18)) := by
  have h := idx_rows t
  obtain ⟨e0, e1⟩ := h.2.2.2.1
  have ht : t.val < 20 := (show t.val < grid0.N from t.isLt).trans_eq N_0
  show (cfg0.win 15).cut (grid0.coords t) ((dat0 V c).after 15 t) = _
  rw [after0_15]
  unfold out0_15
  rw [View.canon_unit_zero hz2]
  simp only [View.ld_unit_zero (S := S5000x64) hz2, View.ld_unit_zero (S := S64x16) hz2, View.ld_unit_zero (S := S16x64) hz2,
    View.ld_unit_zero (S := S64) hz1]
  rw [pay1_eq, blk_7 V c t, blk_8 V c t, blk_9 V c t]
  funext j
  rw [View.read_apply]
  refine point_eq (V c main_arg0) (V c main_arg16) (V c main_arg17) (V c main_arg18) (iblk0 V c 0 t) t.val ht
    (fun p k hp => blk_x V c t p k hp) j _ ?_ ?_
  · show win0_15.index t (0 : Fin 2) * 5000 + 1 * (j 0).val = 5000 * t.val + (j 0).val; rw [e0]; omega
  · show win0_15.index t (1 : Fin 2) * 64 + 1 * (j 1).val = (j 1).val; rw [e1]; omega

/-- An index of the array is in point t's block iff each coordinate is in the block's range on its axis. -/
theorem mem_blk15 (t : Fin cfg0.N) (i : S100000x64.Idx) :
    i ∈ ((cfg0.win 15).blk t).view.set ↔ ∀ a : Fin 2, win0_15.index t a * S5000x64.size a ≤ (i a).val ∧ (i a).val < win0_15.index t a * S5000x64.size a + S5000x64.size a := by
  show i ∈ ((View.whole main_v0_2).slice (win0_15.rect t)).set ↔ _
  rw [View.set_slice_whole, Rect.mem_set_unit]
  exact Iff.rfl

/-- Row r of the array lies in the block of point r / 5000: the twenty blocks tile the hundred thousand rows. -/
theorem cover15 (i : S100000x64.Idx) : ∃ t : Fin cfg0.N, (cfg0.win 15).flush t = true ∧ i ∈ ((cfg0.win 15).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_15 _, ?_⟩
  have h := idx_rows ⟨(i 0).val / 5000, by rw [hN]; omega⟩
  obtain ⟨e0, e1⟩ := h.2.2.2.1
  rw [mem_blk15]
  intro a
  match a with
  | ⟨0, _⟩ => show win0_15.index _ (0 : Fin 2) * 5000 ≤ (i 0).val ∧ (i 0).val < win0_15.index _ (0 : Fin 2) * 5000 + 5000; rw [e0]; show (i 0).val / 5000 * 5000 ≤ (i 0).val ∧ (i 0).val < (i 0).val / 5000 * 5000 + 5000; omega
  | ⟨1, _⟩ => show win0_15.index _ (1 : Fin 2) * 64 ≤ (i 1).val ∧ (i 1).val < win0_15.index _ (1 : Fin 2) * 64 + 64; rw [e1]; omega

/-- So output 15's array ends holding the projection. -/
theorem arr15_proj : (dat0 (F := Ideal) V c).arrAt 15 cfg0.N = proj (V c main_arg0) (V c main_arg16) (V c main_arg17) (V c main_arg18) :=
  (dat0 (F := Ideal) V c).arrAt_eq_of_cover 15 (proj (V c main_arg0) (V c main_arg16) (V c main_arg17) (V c main_arg18))
    (fun t _ => flushed15_eq V c t) cover15

/-- What point t writes back to output 16 is block t of the projection of the arrays as the region finds them. -/
theorem flushed16_eq (t : Fin cfg0.N) :
    (dat0 (F := Ideal) V c).flushed 16 t
      = ((cfg0.win 16).blk t).view.read (Elt Ideal) (proj (V c main_arg0) (V c main_arg13) (V c main_arg14) (V c main_arg15)) := by
  have h := idx_rows t
  obtain ⟨e0, e1⟩ := h.2.2.2.2
  have ht : t.val < 20 := (show t.val < grid0.N from t.isLt).trans_eq N_0
  show (cfg0.win 16).cut (grid0.coords t) ((dat0 V c).after 16 t) = _
  rw [after0_16]
  unfold out0_16
  rw [View.canon_unit_zero hz2]
  simp only [View.ld_unit_zero (S := S5000x64) hz2, View.ld_unit_zero (S := S64x16) hz2, View.ld_unit_zero (S := S16x64) hz2,
    View.ld_unit_zero (S := S64) hz1]
  rw [pay2_eq, blk_10 V c t, blk_11 V c t, blk_12 V c t]
  funext j
  rw [View.read_apply]
  refine point_eq (V c main_arg0) (V c main_arg13) (V c main_arg14) (V c main_arg15) (iblk0 V c 0 t) t.val ht
    (fun p k hp => blk_x V c t p k hp) j _ ?_ ?_
  · show win0_16.index t (0 : Fin 2) * 5000 + 1 * (j 0).val = 5000 * t.val + (j 0).val; rw [e0]; omega
  · show win0_16.index t (1 : Fin 2) * 64 + 1 * (j 1).val = (j 1).val; rw [e1]; omega

/-- An index of the array is in point t's block iff each coordinate is in the block's range on its axis. -/
theorem mem_blk16 (t : Fin cfg0.N) (i : S100000x64.Idx) :
    i ∈ ((cfg0.win 16).blk t).view.set ↔ ∀ a : Fin 2, win0_16.index t a * S5000x64.size a ≤ (i a).val ∧ (i a).val < win0_16.index t a * S5000x64.size a + S5000x64.size a := by
  show i ∈ ((View.whole main_v0_3).slice (win0_16.rect t)).set ↔ _
  rw [View.set_slice_whole, Rect.mem_set_unit]
  exact Iff.rfl

/-- Row r of the array lies in the block of point r / 5000: the twenty blocks tile the hundred thousand rows. -/
theorem cover16 (i : S100000x64.Idx) : ∃ t : Fin cfg0.N, (cfg0.win 16).flush t = true ∧ i ∈ ((cfg0.win 16).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_16 _, ?_⟩
  have h := idx_rows ⟨(i 0).val / 5000, by rw [hN]; omega⟩
  obtain ⟨e0, e1⟩ := h.2.2.2.2
  rw [mem_blk16]
  intro a
  match a with
  | ⟨0, _⟩ => show win0_16.index _ (0 : Fin 2) * 5000 ≤ (i 0).val ∧ (i 0).val < win0_16.index _ (0 : Fin 2) * 5000 + 5000; rw [e0]; show (i 0).val / 5000 * 5000 ≤ (i 0).val ∧ (i 0).val < (i 0).val / 5000 * 5000 + 5000; omega
  | ⟨1, _⟩ => show win0_16.index _ (1 : Fin 2) * 64 ≤ (i 1).val ∧ (i 1).val < win0_16.index _ (1 : Fin 2) * 64 + 64; rw [e1]; omega

/-- So output 16's array ends holding the projection. -/
theorem arr16_proj : (dat0 (F := Ideal) V c).arrAt 16 cfg0.N = proj (V c main_arg0) (V c main_arg13) (V c main_arg14) (V c main_arg15) :=
  (dat0 (F := Ideal) V c).arrAt_eq_of_cover 16 (proj (V c main_arg0) (V c main_arg13) (V c main_arg14) (V c main_arg15))
    (fun t _ => flushed16_eq V c t) cover16

/-! ## The reference's four projections -/

/-- The host program's stage v4 (two dot products, the bias broadcast over the rows, their sum) is the projection,
    entry by entry. -/
theorem ref_v4 (x : (⟨Cert.ReferenceIdeal.S100000x64, .f32⟩ : BufTy).Contents (Elt Ideal))
    (w1 : (⟨Cert.ReferenceIdeal.S64x16, .f32⟩ : BufTy).Contents (Elt Ideal))
    (w2 : (⟨Cert.ReferenceIdeal.S16x64, .f32⟩ : BufTy).Contents (Elt Ideal))
    (b : (⟨Cert.ReferenceIdeal.S64, .f32⟩ : BufTy).Contents (Elt Ideal)) :
    Cert.ReferenceIdeal.Read.val_main_v4 (F := Ideal) x w1 w2 b = proj x w1 w2 b := by
  funext i
  have eL : ∀ (r : Fin 16) (k : Fin 64),
      Cert.ReferenceIdeal.Read.lidx_main_v0 (Cert.ReferenceIdeal.Read.lidx_main_v1 i r) k = ix2 (i 0) k :=
    fun r k => funext fun a => Fin.ext (by match a with | ⟨0, _⟩ => rfl | ⟨1, _⟩ => rfl)
  have eR : ∀ (r : Fin 16) (k : Fin 64),
      Cert.ReferenceIdeal.Read.ridx_main_v0 (Cert.ReferenceIdeal.Read.lidx_main_v1 i r) k = ix2 k r :=
    fun r k => funext fun a => Fin.ext (by match a with | ⟨0, _⟩ => rfl | ⟨1, _⟩ => rfl)
  have eW : ∀ (r : Fin 16), Cert.ReferenceIdeal.Read.ridx_main_v1 i r = ix2 r (i 1) :=
    fun r => funext fun a => Fin.ext (by match a with | ⟨0, _⟩ => rfl | ⟨1, _⟩ => rfl)
  have eB : Cert.ReferenceIdeal.Read.idx_main_v2 (Cert.ReferenceIdeal.Read.idx_main_v3 i) = ix1 (i 1) :=
    funext fun a => Fin.ext (by match a with | ⟨0, _⟩ => rfl)
  rw [Cert.ReferenceIdeal.Read.val_main_v4_apply, Cert.ReferenceIdeal.Read.val_main_v1_apply,
    Cert.ReferenceIdeal.Read.val_main_v3_apply, Cert.ReferenceIdeal.Read.val_main_v2_apply]
  simp only [Cert.ReferenceIdeal.Read.val_main_v0_apply, eL, eR, eW, eB]
  rfl

/-- The host program's stage v9 (two dot products, the bias broadcast over the rows, their sum) is the projection,
    entry by entry. -/
theorem ref_v9 (x : (⟨Cert.ReferenceIdeal.S100000x64, .f32⟩ : BufTy).Contents (Elt Ideal))
    (w1 : (⟨Cert.ReferenceIdeal.S64x16, .f32⟩ : BufTy).Contents (Elt Ideal))
    (w2 : (⟨Cert.ReferenceIdeal.S16x64, .f32⟩ : BufTy).Contents (Elt Ideal))
    (b : (⟨Cert.ReferenceIdeal.S64, .f32⟩ : BufTy).Contents (Elt Ideal)) :
    Cert.ReferenceIdeal.Read.val_main_v9 (F := Ideal) x w1 w2 b = proj x w1 w2 b := by
  funext i
  have eL : ∀ (r : Fin 16) (k : Fin 64),
      Cert.ReferenceIdeal.Read.lidx_main_v5 (Cert.ReferenceIdeal.Read.lidx_main_v6 i r) k = ix2 (i 0) k :=
    fun r k => funext fun a => Fin.ext (by match a with | ⟨0, _⟩ => rfl | ⟨1, _⟩ => rfl)
  have eR : ∀ (r : Fin 16) (k : Fin 64),
      Cert.ReferenceIdeal.Read.ridx_main_v5 (Cert.ReferenceIdeal.Read.lidx_main_v6 i r) k = ix2 k r :=
    fun r k => funext fun a => Fin.ext (by match a with | ⟨0, _⟩ => rfl | ⟨1, _⟩ => rfl)
  have eW : ∀ (r : Fin 16), Cert.ReferenceIdeal.Read.ridx_main_v6 i r = ix2 r (i 1) :=
    fun r => funext fun a => Fin.ext (by match a with | ⟨0, _⟩ => rfl | ⟨1, _⟩ => rfl)
  have eB : Cert.ReferenceIdeal.Read.idx_main_v7 (Cert.ReferenceIdeal.Read.idx_main_v8 i) = ix1 (i 1) :=
    funext fun a => Fin.ext (by match a with | ⟨0, _⟩ => rfl)
  rw [Cert.ReferenceIdeal.Read.val_main_v9_apply, Cert.ReferenceIdeal.Read.val_main_v6_apply,
    Cert.ReferenceIdeal.Read.val_main_v8_apply, Cert.ReferenceIdeal.Read.val_main_v7_apply]
  simp only [Cert.ReferenceIdeal.Read.val_main_v5_apply, eL, eR, eW, eB]
  rfl

/-- The host program's stage v41 (two dot products, the bias broadcast over the rows, their sum) is the projection,
    entry by entry. -/
theorem ref_v41 (x : (⟨Cert.ReferenceIdeal.S100000x64, .f32⟩ : BufTy).Contents (Elt Ideal))
    (w1 : (⟨Cert.ReferenceIdeal.S64x16, .f32⟩ : BufTy).Contents (Elt Ideal))
    (w2 : (⟨Cert.ReferenceIdeal.S16x64, .f32⟩ : BufTy).Contents (Elt Ideal))
    (b : (⟨Cert.ReferenceIdeal.S64, .f32⟩ : BufTy).Contents (Elt Ideal)) :
    Cert.ReferenceIdeal.Read.val_main_v41 (F := Ideal) x w1 w2 b = proj x w1 w2 b := by
  funext i
  have eL : ∀ (r : Fin 16) (k : Fin 64),
      Cert.ReferenceIdeal.Read.lidx_main_v37 (Cert.ReferenceIdeal.Read.lidx_main_v38 i r) k = ix2 (i 0) k :=
    fun r k => funext fun a => Fin.ext (by match a with | ⟨0, _⟩ => rfl | ⟨1, _⟩ => rfl)
  have eR : ∀ (r : Fin 16) (k : Fin 64),
      Cert.ReferenceIdeal.Read.ridx_main_v37 (Cert.ReferenceIdeal.Read.lidx_main_v38 i r) k = ix2 k r :=
    fun r k => funext fun a => Fin.ext (by match a with | ⟨0, _⟩ => rfl | ⟨1, _⟩ => rfl)
  have eW : ∀ (r : Fin 16), Cert.ReferenceIdeal.Read.ridx_main_v38 i r = ix2 r (i 1) :=
    fun r => funext fun a => Fin.ext (by match a with | ⟨0, _⟩ => rfl | ⟨1, _⟩ => rfl)
  have eB : Cert.ReferenceIdeal.Read.idx_main_v39 (Cert.ReferenceIdeal.Read.idx_main_v40 i) = ix1 (i 1) :=
    funext fun a => Fin.ext (by match a with | ⟨0, _⟩ => rfl)
  rw [Cert.ReferenceIdeal.Read.val_main_v41_apply, Cert.ReferenceIdeal.Read.val_main_v38_apply,
    Cert.ReferenceIdeal.Read.val_main_v40_apply, Cert.ReferenceIdeal.Read.val_main_v39_apply]
  simp only [Cert.ReferenceIdeal.Read.val_main_v37_apply, eL, eR, eW, eB]
  rfl

/-- The host program's stage v63 (two dot products, the bias broadcast over the rows, their sum) is the projection,
    entry by entry. -/
theorem ref_v63 (x : (⟨Cert.ReferenceIdeal.S100000x64, .f32⟩ : BufTy).Contents (Elt Ideal))
    (w1 : (⟨Cert.ReferenceIdeal.S64x16, .f32⟩ : BufTy).Contents (Elt Ideal))
    (w2 : (⟨Cert.ReferenceIdeal.S16x64, .f32⟩ : BufTy).Contents (Elt Ideal))
    (b : (⟨Cert.ReferenceIdeal.S64, .f32⟩ : BufTy).Contents (Elt Ideal)) :
    Cert.ReferenceIdeal.Read.val_main_v63 (F := Ideal) x w1 w2 b = proj x w1 w2 b := by
  funext i
  have eL : ∀ (r : Fin 16) (k : Fin 64),
      Cert.ReferenceIdeal.Read.lidx_main_v59 (Cert.ReferenceIdeal.Read.lidx_main_v60 i r) k = ix2 (i 0) k :=
    fun r k => funext fun a => Fin.ext (by match a with | ⟨0, _⟩ => rfl | ⟨1, _⟩ => rfl)
  have eR : ∀ (r : Fin 16) (k : Fin 64),
      Cert.ReferenceIdeal.Read.ridx_main_v59 (Cert.ReferenceIdeal.Read.lidx_main_v60 i r) k = ix2 k r :=
    fun r k => funext fun a => Fin.ext (by match a with | ⟨0, _⟩ => rfl | ⟨1, _⟩ => rfl)
  have eW : ∀ (r : Fin 16), Cert.ReferenceIdeal.Read.ridx_main_v60 i r = ix2 r (i 1) :=
    fun r => funext fun a => Fin.ext (by match a with | ⟨0, _⟩ => rfl | ⟨1, _⟩ => rfl)
  have eB : Cert.ReferenceIdeal.Read.idx_main_v61 (Cert.ReferenceIdeal.Read.idx_main_v62 i) = ix1 (i 1) :=
    funext fun a => Fin.ext (by match a with | ⟨0, _⟩ => rfl)
  rw [Cert.ReferenceIdeal.Read.val_main_v63_apply, Cert.ReferenceIdeal.Read.val_main_v60_apply,
    Cert.ReferenceIdeal.Read.val_main_v62_apply, Cert.ReferenceIdeal.Read.val_main_v61_apply]
  simp only [Cert.ReferenceIdeal.Read.val_main_v59_apply, eL, eR, eW, eB]
  rfl

/-! ## The four output arrays of the region are the reference's stages -/

theorem arr13 : (dat0 (F := Ideal) V c).arrAt 13 cfg0.N
    = Cert.ReferenceIdeal.Read.val_main_v4 (F := Ideal) (V c main_arg0) (V c main_arg4) (V c main_arg5) (V c main_arg6) :=
  (arr13_proj V c).trans (ref_v4 _ _ _ _).symm

theorem arr14 : (dat0 (F := Ideal) V c).arrAt 14 cfg0.N
    = Cert.ReferenceIdeal.Read.val_main_v9 (F := Ideal) (V c main_arg0) (V c main_arg7) (V c main_arg8) (V c main_arg9) :=
  (arr14_proj V c).trans (ref_v9 _ _ _ _).symm

theorem arr15 : (dat0 (F := Ideal) V c).arrAt 15 cfg0.N
    = Cert.ReferenceIdeal.Read.val_main_v41 (F := Ideal) (V c main_arg0) (V c main_arg16) (V c main_arg17) (V c main_arg18) :=
  (arr15_proj V c).trans (ref_v41 _ _ _ _).symm

theorem arr16 : (dat0 (F := Ideal) V c).arrAt 16 cfg0.N
    = Cert.ReferenceIdeal.Read.val_main_v63 (F := Ideal) (V c main_arg0) (V c main_arg13) (V c main_arg14) (V c main_arg15) :=
  (arr16_proj V c).trans (ref_v63 _ _ _ _).symm

end Cert.Proof.NodeProj

end
-- ==== Proof.EdgeGate.lean ====
/-
  The edge gate, region by rows. The kernel's second region walks the 1250000 edge rows in 625 blocks of 2000 rows;
  at each block it forms the gate's pre-activation m = (e_src[src] + e_dst[dst]) + ((x · w1) · w2 + b) from the block's
  rows of the edge features x and of the two gathered node terms, and writes back three blocks: the gate
  sigma = logistic m, the message (gathered update) · sigma, and the edge output x + silu(layernorm(m) · g + beta).
  Each of these, at row r and column q, depends on row r of the four edge arrays and on the weights only; nothing
  crosses rows. So the three output arrays are the same functions of the same rows as the reference's three stages,
  whatever the tiling. This module says so: the row functions (`gate`, `mean`, `var`, `scaled`, `silu`, `yrow`),
  the kernel's payloads at an index of a block in terms of them, the reference's stages at an index of the array in
  terms of them, the blocks as rows of the arrays, and the three whole-array equations `arr11`, `arr10`, `arr9`.
  Over the extended reals the narrowing to sixteen bits is the identity, a contraction into a zero accumulator is the
  host's contraction, a lane sum is the host's sum with initial value zero, and the logistic function is
  one over one plus the exponential of the negation; no law that needs finiteness is used.
-/
import proofs.«126342_j74371653697786_2_alg».proof.Proof.Gen.KernelIdeal.Frame
import proofs.«126342_j74371653697786_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

namespace Cert.Proof.EdgeGate

/-! ## The mathematics of one row

Every output of the edge gate at row `r`, column `q` depends on row `r` of the four edge arrays and on the
weights only. The functions below are that dependence, over the extended reals: a row is `Fin 64 → EReal`. -/

/-- The word 64.0, the row length the mean and the variance divide by. -/
abbrev c64 : EReal := Ideal.ofBits .f32 0x42800000#32
/-- The layer normalisation's epsilon, as the word both programs print. -/
abbrev ceps : EReal := Ideal.ofBits .f32 0x3727C5AC#32

/-- The low-rank projection of a row: (e · w1) · w2 + bias, the inner product taken first. -/
def proj (e : Fin 64 → EReal) (w1 : Fin 64 → Fin 16 → EReal) (w2 : Fin 16 → Fin 64 → EReal) (bias : Fin 64 → EReal)
    (q : Fin 64) : EReal :=
  (∑ k : Fin 16, (∑ j : Fin 64, e j * w1 j k) * w2 k q) + bias q

/-- The gate's pre-activation: the two gathered node terms added, then the edge's own projection. -/
def gate (e a b : Fin 64 → EReal) (w1 : Fin 64 → Fin 16 → EReal) (w2 : Fin 16 → Fin 64 → EReal) (bias : Fin 64 → EReal)
    (q : Fin 64) : EReal :=
  (a q + b q) + proj e w1 w2 bias q

/-- A row's mean. -/
def mean (m : Fin 64 → EReal) : EReal := Ideal.div (∑ q : Fin 64, m q) c64
/-- A row's variance about its mean. -/
def var (m : Fin 64 → EReal) : EReal := Ideal.div (∑ q : Fin 64, (m q - mean m) * (m q - mean m)) c64
/-- The normalised row, scaled: (m − mean) · rsqrt(var + eps) · g. -/
def scaled (m g : Fin 64 → EReal) (q : Fin 64) : EReal := (m q - mean m) * Ideal.rsqrt (var m + ceps) * g q
/-- x · logistic x. -/
def silu (x : EReal) : EReal := x * Ideal.logistic x
/-- The edge output of a row: the residual plus silu of the layer-normalised gate. -/
def yrow (e m g bb : Fin 64 → EReal) (q : Fin 64) : EReal := e q + silu (scaled m g q + bb q)

/-- The word 1.0 is the extended real one. -/
theorem ofBits_one : Ideal.ofBits .f32 0x3F800000#32 = 1 := IdealRules.sign_bit.ideal_onePat .f32

/-- The logistic function written out, one over one plus the exponential of the negation, is the logistic. -/
theorem logistic_expanded (x : EReal) :
    Ideal.div (Ideal.ofBits .f32 0x3F800000#32) (Ideal.ofBits .f32 0x3F800000#32 + Ideal.exp (-x)) = Ideal.logistic x := by
  rw [ofBits_one]; rfl

/-! ## The body's operations read at an index of a block -/

theorem hz2 : (![0, 0] : Fin 2 → Nat) = fun _ => 0 := funext fun a => by fin_cases a <;> rfl
theorem hz1 : (![0] : Fin 1 → Nat) = fun _ => 0 := funext fun a => by fin_cases a <;> rfl

theorem mm1_lhs0 (i : S2000x16.Idx) (c : dot_S2000x64_S64x16_S2000x16_1_0_0_1_n_n.contr.Idx) : (dot_S2000x64_S64x16_S2000x16_1_0_0_1_n_n.lhsIdx i c 0).val = (i 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl
theorem mm1_lhs1 (i : S2000x16.Idx) (c : dot_S2000x64_S64x16_S2000x16_1_0_0_1_n_n.contr.Idx) : (dot_S2000x64_S64x16_S2000x16_1_0_0_1_n_n.lhsIdx i c 1).val = (c ⟨0, by decide⟩).val :=
  dot_S2000x64_S64x16_S2000x16_1_0_0_1_n_n.lhsIdx_val_of_single rfl i c
theorem mm1_rhs0 (i : S2000x16.Idx) (c : dot_S2000x64_S64x16_S2000x16_1_0_0_1_n_n.contr.Idx) : (dot_S2000x64_S64x16_S2000x16_1_0_0_1_n_n.rhsIdx i c 0).val = (c ⟨0, by decide⟩).val :=
  dot_S2000x64_S64x16_S2000x16_1_0_0_1_n_n.rhsIdx_val_of_single rfl i c
theorem mm1_rhs1 (i : S2000x16.Idx) (c : dot_S2000x64_S64x16_S2000x16_1_0_0_1_n_n.contr.Idx) : (dot_S2000x64_S64x16_S2000x16_1_0_0_1_n_n.rhsIdx i c 1).val = (i 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-- The first contraction: a block of edge rows against the 64 × 16 weight, at (p, k). -/
theorem mm1_apply (l : FVec Ideal S2000x64 .bf16) (r : FVec Ideal S64x16 .bf16) (p : Fin 2000) (k : Fin 16) :
    matmul dot_S2000x64_S64x16_S2000x16_1_0_0_1_n_n none l r (constant S2000x16 .f32 0x00000000#32) (ix2 p k)
      = ∑ j : Fin 64, l (ix2 p j) * r (ix2 j k) := by
  refine (Ideal.matmul_constant_zero_apply dot_S2000x64_S64x16_S2000x16_1_0_0_1_n_n none l r (ix2 p k)).trans ?_
  rw [← Equiv.sum_comp (contrEquiv1 dot_S2000x64_S64x16_S2000x16_1_0_0_1_n_n 64 rfl rfl).symm]
  refine Finset.sum_congr rfl fun j _ => ?_
  have hk := contrEquiv1_symm_val dot_S2000x64_S64x16_S2000x16_1_0_0_1_n_n 64 rfl rfl j
  have el : dot_S2000x64_S64x16_S2000x16_1_0_0_1_n_n.lhsIdx (ix2 p k) ((contrEquiv1 dot_S2000x64_S64x16_S2000x16_1_0_0_1_n_n 64 rfl rfl).symm j) = ix2 p j :=
    funext fun x => Fin.ext (by
      match x with
      | ⟨0, _⟩ => exact mm1_lhs0 _ _
      | ⟨1, _⟩ => exact (mm1_lhs1 _ _).trans hk)
  have er : dot_S2000x64_S64x16_S2000x16_1_0_0_1_n_n.rhsIdx (ix2 p k) ((contrEquiv1 dot_S2000x64_S64x16_S2000x16_1_0_0_1_n_n 64 rfl rfl).symm j) = ix2 j k :=
    funext fun x => Fin.ext (by
      match x with
      | ⟨0, _⟩ => exact (mm1_rhs0 _ _).trans hk
      | ⟨1, _⟩ => exact mm1_rhs1 _ _)
  rw [el, er]

theorem mm2_lhs0 (i : S2000x64.Idx) (c : dot_S2000x16_S16x64_S2000x64_1_0_0_1_n_n.contr.Idx) : (dot_S2000x16_S16x64_S2000x64_1_0_0_1_n_n.lhsIdx i c 0).val = (i 0).val := by
  unfold DotDims.lhsIdx
  rw [dif_neg (show ¬(0 : Fin S2000x16.rank) ∈ dot_S2000x16_S16x64_S2000x64_1_0_0_1_n_n.lhsBatch by decide), dif_pos (show (0 : Fin S2000x16.rank) ∈ dot_S2000x16_S16x64_S2000x64_1_0_0_1_n_n.lhsNonContracting by decide)]
  rfl
theorem mm2_lhs1 (i : S2000x64.Idx) (c : dot_S2000x16_S16x64_S2000x64_1_0_0_1_n_n.contr.Idx) : (dot_S2000x16_S16x64_S2000x64_1_0_0_1_n_n.lhsIdx i c 1).val = (c ⟨0, by decide⟩).val :=
  dot_S2000x16_S16x64_S2000x64_1_0_0_1_n_n.lhsIdx_val_of_single rfl i c
theorem mm2_rhs0 (i : S2000x64.Idx) (c : dot_S2000x16_S16x64_S2000x64_1_0_0_1_n_n.contr.Idx) : (dot_S2000x16_S16x64_S2000x64_1_0_0_1_n_n.rhsIdx i c 0).val = (c ⟨0, by decide⟩).val :=
  dot_S2000x16_S16x64_S2000x64_1_0_0_1_n_n.rhsIdx_val_of_single rfl i c
theorem mm2_rhs1 (i : S2000x64.Idx) (c : dot_S2000x16_S16x64_S2000x64_1_0_0_1_n_n.contr.Idx) : (dot_S2000x16_S16x64_S2000x64_1_0_0_1_n_n.rhsIdx i c 1).val = (i 1).val := by
  unfold DotDims.rhsIdx
  rw [dif_neg (show ¬(1 : Fin S16x64.rank) ∈ dot_S2000x16_S16x64_S2000x64_1_0_0_1_n_n.rhsBatch by decide), dif_pos (show (1 : Fin S16x64.rank) ∈ dot_S2000x16_S16x64_S2000x64_1_0_0_1_n_n.rhsNonContracting by decide)]
  rfl

/-- The second contraction: the 2000 × 16 intermediate against the 16 × 64 weight, at (p, q). -/
theorem mm2_apply (l : FVec Ideal S2000x16 .bf16) (r : FVec Ideal S16x64 .bf16) (p : Fin 2000) (q : Fin 64) :
    matmul dot_S2000x16_S16x64_S2000x64_1_0_0_1_n_n none l r (constant S2000x64 .f32 0x00000000#32) (ix2 p q)
      = ∑ j : Fin 16, l (ix2 p j) * r (ix2 j q) := by
  refine (Ideal.matmul_constant_zero_apply dot_S2000x16_S16x64_S2000x64_1_0_0_1_n_n none l r (ix2 p q)).trans ?_
  rw [← Equiv.sum_comp (contrEquiv1 dot_S2000x16_S16x64_S2000x64_1_0_0_1_n_n 16 rfl rfl).symm]
  refine Finset.sum_congr rfl fun j _ => ?_
  have hk := contrEquiv1_symm_val dot_S2000x16_S16x64_S2000x64_1_0_0_1_n_n 16 rfl rfl j
  have el : dot_S2000x16_S16x64_S2000x64_1_0_0_1_n_n.lhsIdx (ix2 p q) ((contrEquiv1 dot_S2000x16_S16x64_S2000x64_1_0_0_1_n_n 16 rfl rfl).symm j) = ix2 p j :=
    funext fun x => Fin.ext (by
      match x with
      | ⟨0, _⟩ => exact mm2_lhs0 _ _
      | ⟨1, _⟩ => exact (mm2_lhs1 _ _).trans hk)
  have er : dot_S2000x16_S16x64_S2000x64_1_0_0_1_n_n.rhsIdx (ix2 p q) ((contrEquiv1 dot_S2000x16_S16x64_S2000x64_1_0_0_1_n_n 16 rfl rfl).symm j) = ix2 j q :=
    funext fun x => Fin.ext (by
      match x with
      | ⟨0, _⟩ => exact (mm2_rhs0 _ _).trans hk
      | ⟨1, _⟩ => exact mm2_rhs1 _ _)
  rw [el, er]

/-- A 64-vector broadcast over the rows of a block, at (p, q): its entry q. -/
theorem rowvec_apply (v : Vec Ideal S64 .f32) (p : Fin 2000) (q : Fin 64) :
    broadcastTo S2000x64 (shapeCast S1x64 v shapeCasts_S64_S1x64) broadcasts_S1x64_S2000x64 (ix2 p q) = v (ix1 q) := by
  rw [broadcastTo_1b_ab_apply, shapeCast_a_1a_apply]

/-- A lane sum of a block, at row p: the sum of the row. -/
theorem rowsum_apply (src : FVec Ideal S2000x64 .f32) (p : Fin 2000) :
    multiReduction .add [1] S2000 src 0x00000000#32 reduces_S2000x64_S2000 (.inl rfl) rfl (ix1 p)
      = ∑ q : Fin 64, src (ix2 p q) :=
  (Ideal.multiReduction_add_single src 0x00000000#32 reduces_S2000x64_S2000 (.inl rfl) rfl (ix1 p)).trans
    (Finset.sum_congr rfl fun q _ => congrArg src (funext fun a => Fin.ext (by
      match a with
      | ⟨0, _⟩ => rfl
      | ⟨1, _⟩ => rfl)))

/-- A per-row value kept as a column, then broadcast along the row: at (p, q) its entry p. -/
theorem colvec_apply (x : FVec Ideal S2000x1 .f32) (p : Fin 2000) (q : Fin 64) :
    broadcastTo S2000x64 x broadcasts_S2000x1_S2000x64 (ix2 p q) = x (ix2 p (0 : Fin 1)) := by
  refine broadcastTo_apply x broadcasts_S2000x1_S2000x64 (ix2 p q) (ix2 p (0 : Fin 1)) fun ax => ?_
  match ax with
  | ⟨0, _⟩ =>
    show p.val = if (2000 : Nat) = 1 then 0 else p.val
    rw [if_neg (by decide)]
  | ⟨1, _⟩ =>
    show (0 : Nat) = if (1 : Nat) = 1 then 0 else q.val
    rw [if_pos rfl]

/-- A 2000-vector cast to a column, at (p, u): its entry p. -/
theorem colcast_apply (x : FVec Ideal S2000 .f32) (p : Fin 2000) (u : Fin 1) :
    shapeCast S2000x1 x shapeCasts_S2000_S2000x1 (ix2 p u) = x (ix1 p) :=
  shapeCast_apply x shapeCasts_S2000_S2000x1 _ _ (by
    have hu : u.val = 0 := by omega
    rw [Shape.rowMajor_val_two, Shape.rowMajor_val_one]
    show p.val = p.val * 1 + u.val
    omega)

/-! ## The payloads read at an index

The body's values are named by the generated payloads: `k1_pay3` is the gate's pre-activation of a block, `k1_pay4`
its logistic, `k1_pay5` the normalised and scaled block, `k1_pay1` and `k1_pay2` the two remaining stores. The
row statistics of a block are named here and bridged to `k1_pay5` by unfolding. -/

/-- The row means of a block, kept as a column and broadcast back along the rows. -/
def meanB (M : FVec Ideal S2000x64 .f32) : FVec Ideal S2000x64 .f32 :=
  broadcastTo S2000x64
    (divf (shapeCast S2000x1 (multiReduction .add [1] S2000 M 0x00000000#32 reduces_S2000x64_S2000 (.inl rfl) rfl) shapeCasts_S2000_S2000x1)
      (broadcast S2000x1 (Scalar.ofBits .f32 0x42800000#32)))
    broadcasts_S2000x1_S2000x64

/-- The block with each row's mean taken off. -/
def cenB (M : FVec Ideal S2000x64 .f32) : FVec Ideal S2000x64 .f32 := subf M (meanB M)

/-- The reciprocal root of each row's variance plus epsilon, broadcast along the rows. -/
def rstdB (M : FVec Ideal S2000x64 .f32) : FVec Ideal S2000x64 .f32 :=
  broadcastTo S2000x64
    (rsqrt (addf
      (divf (shapeCast S2000x1 (multiReduction .add [1] S2000 (mulf (cenB M) (cenB M)) 0x00000000#32 reduces_S2000x64_S2000 (.inl rfl) rfl) shapeCasts_S2000_S2000x1)
        (broadcast S2000x1 (Scalar.ofBits .f32 0x42800000#32)))
      (broadcast S2000x1 (Scalar.ofBits .f32 0x3727C5AC#32))))
    broadcasts_S2000x1_S2000x64

/-- The normalised, scaled block is the centred block times the reciprocal root times the scale row. -/
theorem pay5_eq (v0 v13 v15 : Vec Ideal S2000x64 .f32) (v2 : Vec Ideal S64x16 .f32) (v5 : Vec Ideal S16x64 .f32)
    (v9 v36 : Vec Ideal S64 .f32) :
    k1_pay5 v0 v2 v5 v9 v13 v15 v36
      = mulf (mulf (cenB (k1_pay3 v0 v2 v5 v9 v13 v15)) (rstdB (k1_pay3 v0 v2 v5 v9 v13 v15)))
          (broadcastTo S2000x64 (shapeCast S1x64 v36 shapeCasts_S64_S1x64) broadcasts_S1x64_S2000x64) := rfl

theorem meanB_apply (M : FVec Ideal S2000x64 .f32) (p : Fin 2000) (q : Fin 64) :
    meanB M (ix2 p q) = mean (fun j => M (ix2 p j)) := by
  unfold meanB
  rw [colvec_apply]
  show Ideal.div (shapeCast S2000x1 (multiReduction .add [1] S2000 M 0x00000000#32 reduces_S2000x64_S2000 (.inl rfl) rfl) shapeCasts_S2000_S2000x1 (ix2 p (0 : Fin 1))) c64 = _
  rw [colcast_apply, rowsum_apply]
  rfl

theorem cenB_apply (M : FVec Ideal S2000x64 .f32) (p : Fin 2000) (q : Fin 64) :
    cenB M (ix2 p q) = M (ix2 p q) - mean (fun j => M (ix2 p j)) := by
  unfold cenB
  rw [subf_apply, meanB_apply]

theorem rstdB_apply (M : FVec Ideal S2000x64 .f32) (p : Fin 2000) (q : Fin 64) :
    rstdB M (ix2 p q) = Ideal.rsqrt (var (fun j => M (ix2 p j)) + ceps) := by
  unfold rstdB
  rw [colvec_apply]
  show Ideal.rsqrt (Ideal.div (shapeCast S2000x1 (multiReduction .add [1] S2000 (mulf (cenB M) (cenB M)) 0x00000000#32 reduces_S2000x64_S2000 (.inl rfl) rfl) shapeCasts_S2000_S2000x1 (ix2 p (0 : Fin 1))) c64 + ceps) = _
  rw [colcast_apply, rowsum_apply]
  unfold var
  simp only [mulf_apply, cenB_apply]

/-- The gate's pre-activation of a block at (p, q) is `gate` of row p of the three edge blocks. -/
theorem pay3_apply (v0 v13 v15 : Vec Ideal S2000x64 .f32) (v2 : Vec Ideal S64x16 .f32) (v5 : Vec Ideal S16x64 .f32)
    (v9 : Vec Ideal S64 .f32) (p : Fin 2000) (q : Fin 64) :
    k1_pay3 v0 v2 v5 v9 v13 v15 (ix2 p q)
      = gate (fun j => v0 (ix2 p j)) (fun j => v13 (ix2 p j)) (fun j => v15 (ix2 p j))
          (fun j k => v2 (ix2 j k)) (fun k j => v5 (ix2 k j)) (fun j => v9 (ix1 j)) q := by
  have e1 : k1_pay3 v0 v2 v5 v9 v13 v15 (ix2 p q)
      = (shapeCast S2000x64 v13 shapeCasts_S2000x64_S2000x64 (ix2 p q) + shapeCast S2000x64 v15 shapeCasts_S2000x64_S2000x64 (ix2 p q))
        + (matmul dot_S2000x16_S16x64_S2000x64_1_0_0_1_n_n none
              (truncf .bf16 (matmul dot_S2000x64_S64x16_S2000x16_1_0_0_1_n_n none (truncf .bf16 v0 bitsLt_bf16_f32) (truncf .bf16 v2 bitsLt_bf16_f32) (constant S2000x16 .f32 0x00000000#32)) bitsLt_bf16_f32)
              (truncf .bf16 v5 bitsLt_bf16_f32) (constant S2000x64 .f32 0x00000000#32) (ix2 p q)
          + broadcastTo S2000x64 (shapeCast S1x64 v9 shapeCasts_S64_S1x64) broadcasts_S1x64_S2000x64 (ix2 p q)) := rfl
  rw [e1, shapeCast_self, shapeCast_self, mm2_apply, rowvec_apply]
  unfold gate proj
  simp only [truncf_apply, mm1_apply]

/-- So a row of the block's pre-activation is `gate` of the rows. -/
theorem pay3_row (v0 v13 v15 : Vec Ideal S2000x64 .f32) (v2 : Vec Ideal S64x16 .f32) (v5 : Vec Ideal S16x64 .f32)
    (v9 : Vec Ideal S64 .f32) (p : Fin 2000) :
    (fun j => k1_pay3 v0 v2 v5 v9 v13 v15 (ix2 p j))
      = gate (fun j => v0 (ix2 p j)) (fun j => v13 (ix2 p j)) (fun j => v15 (ix2 p j))
          (fun j k => v2 (ix2 j k)) (fun k j => v5 (ix2 k j)) (fun j => v9 (ix1 j)) :=
  funext fun j => pay3_apply v0 v13 v15 v2 v5 v9 p j

/-- The gate of a block at (p, q): the logistic of the pre-activation there. -/
theorem pay4_apply (v0 v13 v15 : Vec Ideal S2000x64 .f32) (v2 : Vec Ideal S64x16 .f32) (v5 : Vec Ideal S16x64 .f32)
    (v9 : Vec Ideal S64 .f32) (p : Fin 2000) (q : Fin 64) :
    k1_pay4 v0 v2 v5 v9 v13 v15 (ix2 p q)
      = Ideal.logistic (gate (fun j => v0 (ix2 p j)) (fun j => v13 (ix2 p j)) (fun j => v15 (ix2 p j))
          (fun j k => v2 (ix2 j k)) (fun k j => v5 (ix2 k j)) (fun j => v9 (ix1 j)) q) := by
  have e1 : k1_pay4 v0 v2 v5 v9 v13 v15 (ix2 p q) = Ideal.logistic (k1_pay3 v0 v2 v5 v9 v13 v15 (ix2 p q)) := rfl
  rw [e1, pay3_apply]

/-- The message of a block at (p, q): the gathered update times the gate. -/
theorem pay2_apply (v19 : FVec Ideal S2000x64 .f32) (v47 : Vec Ideal S2000x64 .f32) (p : Fin 2000) (q : Fin 64) :
    k1_pay2 v19 v47 (ix2 p q) = v47 (ix2 p q) * v19 (ix2 p q) := by
  have e1 : k1_pay2 v19 v47 (ix2 p q) = shapeCast S2000x64 v47 shapeCasts_S2000x64_S2000x64 (ix2 p q) * v19 (ix2 p q) := rfl
  rw [e1, shapeCast_self]

/-- The normalised, scaled block at (p, q): `scaled` of row p of the pre-activation. -/
theorem pay5_apply (v0 v13 v15 : Vec Ideal S2000x64 .f32) (v2 : Vec Ideal S64x16 .f32) (v5 : Vec Ideal S16x64 .f32)
    (v9 v36 : Vec Ideal S64 .f32) (p : Fin 2000) (q : Fin 64) :
    k1_pay5 v0 v2 v5 v9 v13 v15 v36 (ix2 p q)
      = scaled (fun j => k1_pay3 v0 v2 v5 v9 v13 v15 (ix2 p j)) (fun j => v36 (ix1 j)) q := by
  rw [pay5_eq, mulf_apply, mulf_apply, cenB_apply, rstdB_apply, rowvec_apply]
  rfl

/-- The edge output of a block at (p, q): the residual plus silu of the normalised value plus the shift. -/
theorem pay1_apply (v0 : Vec Ideal S2000x64 .f32) (v39 : FVec Ideal S2000x64 .f32) (v40 : Vec Ideal S64 .f32)
    (p : Fin 2000) (q : Fin 64) :
    k1_pay1 v0 v39 v40 (ix2 p q) = v0 (ix2 p q) + silu (v39 (ix2 p q) + v40 (ix1 q)) := by
  have e1 : k1_pay1 v0 v39 v40 (ix2 p q)
      = v0 (ix2 p q) + ((v39 (ix2 p q) + broadcastTo S2000x64 (shapeCast S1x64 v40 shapeCasts_S64_S1x64) broadcasts_S1x64_S2000x64 (ix2 p q))
          * Ideal.logistic (v39 (ix2 p q) + broadcastTo S2000x64 (shapeCast S1x64 v40 shapeCasts_S64_S1x64) broadcasts_S1x64_S2000x64 (ix2 p q))) := rfl
  rw [e1, rowvec_apply]
  rfl

/-! ## The reference's stages read at (r, q)

The generated read-at-an-index lemmas take each stage down to the stages it is computed from; the composed index
functions they leave are identified here with indices written by coordinates, once each. The two gathered node
terms and the gathered update are left as they are: both programs share them. -/

section IndexFacts
open Cert.ReferenceIdeal.Read

theorem ix_v13 (r : Fin 1250000) (q : Fin 64) : idx_main_v12 (idx_main_v13 (ix2 r q)) = ix1 q :=
  funext fun a => Fin.ext (by match a with | ⟨0, _⟩ => rfl)
theorem ix_v11l (r : Fin 1250000) (q : Fin 64) (k : Fin 16) : lidx_main_v11 (ix2 r q) k = ix2 r k :=
  funext fun a => Fin.ext (by match a with | ⟨0, _⟩ => rfl | ⟨1, _⟩ => rfl)
theorem ix_v11r (r : Fin 1250000) (q : Fin 64) (k : Fin 16) : ridx_main_v11 (ix2 r q) k = ix2 k q :=
  funext fun a => Fin.ext (by match a with | ⟨0, _⟩ => rfl | ⟨1, _⟩ => rfl)
theorem ix_v10l (r : Fin 1250000) (k : Fin 16) (j : Fin 64) : lidx_main_v10 (ix2 r k) j = ix2 r j :=
  funext fun a => Fin.ext (by match a with | ⟨0, _⟩ => rfl | ⟨1, _⟩ => rfl)
theorem ix_v10r (r : Fin 1250000) (k : Fin 16) (j : Fin 64) : ridx_main_v10 (ix2 r k) j = ix2 j k :=
  funext fun a => Fin.ext (by match a with | ⟨0, _⟩ => rfl | ⟨1, _⟩ => rfl)
theorem ix_v93 (r : Fin 1250000) (q : Fin 64) : idx_main_v93 (ix2 r q) = ix2 r (0 : Fin 1) :=
  funext fun a => Fin.ext (by match a with | ⟨0, _⟩ => rfl | ⟨1, _⟩ => rfl)
theorem ix_v90 (r : Fin 1250000) (u : Fin 1) : idx_main_v90 (ix2 r u) = ix1 r :=
  funext fun a => Fin.ext (by match a with | ⟨0, _⟩ => rfl)
theorem ix_v89 (r : Fin 1250000) (k : Fin 64) : idx_main_v89 (ix1 r) k = ix2 r k :=
  funext fun a => Fin.ext (by match a with | ⟨0, _⟩ => rfl | ⟨1, _⟩ => rfl)
theorem ix_v103 (r : Fin 1250000) (q : Fin 64) : idx_main_v103 (ix2 r q) = ix2 r (0 : Fin 1) :=
  funext fun a => Fin.ext (by match a with | ⟨0, _⟩ => rfl | ⟨1, _⟩ => rfl)
theorem ix_v97 (r : Fin 1250000) (u : Fin 1) : idx_main_v97 (ix2 r u) = ix1 r :=
  funext fun a => Fin.ext (by match a with | ⟨0, _⟩ => rfl)
theorem ix_v96 (r : Fin 1250000) (k : Fin 64) : idx_main_v96 (ix1 r) k = ix2 r k :=
  funext fun a => Fin.ext (by match a with | ⟨0, _⟩ => rfl | ⟨1, _⟩ => rfl)
theorem ix_v106 (r : Fin 1250000) (q : Fin 64) : idx_main_v105 (idx_main_v106 (ix2 r q)) = ix1 q :=
  funext fun a => Fin.ext (by match a with | ⟨0, _⟩ => rfl)
theorem ix_v109 (r : Fin 1250000) (q : Fin 64) : idx_main_v108 (idx_main_v109 (ix2 r q)) = ix1 q :=
  funext fun a => Fin.ext (by match a with | ⟨0, _⟩ => rfl)

end IndexFacts

/-- The reference's gate pre-activation at (r, q): `gate` of row r of the edge array and of the two gathered terms. -/
theorem v30_at (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (r : Fin 1250000) (q : Fin 64) :
    Cert.ReferenceIdeal.Read.val_main_v30 (F := Ideal) x0 x1 x2 x3 x4 x5 x6 x7 x8 x9 x10 x11 x12 (ix2 r q)
      = gate (fun j => x1 (ix2 r j)) (fun j => Cert.ReferenceIdeal.Read.val_main_v21 (F := Ideal) x0 x2 x4 x5 x6 (ix2 r j)) (fun j => Cert.ReferenceIdeal.Read.val_main_v28 (F := Ideal) x0 x3 x7 x8 x9 (ix2 r j))
          (fun j k => x10 (ix2 j k)) (fun k j => x11 (ix2 k j)) (fun j => x12 (ix1 j)) q := by
  rw [Cert.ReferenceIdeal.Read.val_main_v30_apply, Cert.ReferenceIdeal.Read.val_main_v29_apply, Cert.ReferenceIdeal.Read.val_main_v14_apply, Cert.ReferenceIdeal.Read.val_main_v11_apply,
    Cert.ReferenceIdeal.Read.val_main_v13_apply, Cert.ReferenceIdeal.Read.val_main_v12_apply, ix_v13]
  simp only [ix_v11l, ix_v11r, Cert.ReferenceIdeal.Read.val_main_v10_apply, ix_v10l, ix_v10r]
  rfl

/-- So a row of it is `gate` of the rows. -/
theorem v30_row (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (r : Fin 1250000) :
    (fun j => Cert.ReferenceIdeal.Read.val_main_v30 (F := Ideal) x0 x1 x2 x3 x4 x5 x6 x7 x8 x9 x10 x11 x12 (ix2 r j))
      = gate (fun j => x1 (ix2 r j)) (fun j => Cert.ReferenceIdeal.Read.val_main_v21 (F := Ideal) x0 x2 x4 x5 x6 (ix2 r j)) (fun j => Cert.ReferenceIdeal.Read.val_main_v28 (F := Ideal) x0 x3 x7 x8 x9 (ix2 r j))
          (fun j k => x10 (ix2 j k)) (fun k j => x11 (ix2 k j)) (fun j => x12 (ix1 j)) :=
  funext fun j => v30_at x0 x1 x2 x3 x4 x5 x6 x7 x8 x9 x10 x11 x12 r j

/-- The reference's gate at (r, q): the logistic of the pre-activation there. -/
theorem v36_at (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (r : Fin 1250000) (q : Fin 64) :
    Cert.ReferenceIdeal.Read.val_main_v36 (F := Ideal) x0 x1 x2 x3 x4 x5 x6 x7 x8 x9 x10 x11 x12 (ix2 r q) = Ideal.logistic (Cert.ReferenceIdeal.Read.val_main_v30 (F := Ideal) x0 x1 x2 x3 x4 x5 x6 x7 x8 x9 x10 x11 x12 (ix2 r q)) := by
  rw [Cert.ReferenceIdeal.Read.val_main_v36_apply, Cert.ReferenceIdeal.Read.val_main_v35_apply, Cert.ReferenceIdeal.Read.val_main_cst_3_apply, Cert.ReferenceIdeal.Read.val_main_v34_apply,
    Cert.ReferenceIdeal.Read.val_main_v33_apply, Cert.ReferenceIdeal.Read.val_main_cst_apply, Cert.ReferenceIdeal.Read.val_main_v32_apply, Cert.ReferenceIdeal.Read.val_main_v31_apply]
  exact logistic_expanded _

/-- The reference's message at (r, q): the gathered update times the gate. -/
theorem v49_at (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (x16 : (⟨Cert.ReferenceIdeal.S64x16, .f32⟩ : BufTy).Contents (Elt Ideal)) (x17 : (⟨Cert.ReferenceIdeal.S16x64, .f32⟩ : BufTy).Contents (Elt Ideal)) (x18 : (⟨Cert.ReferenceIdeal.S64, .f32⟩ : BufTy).Contents (Elt Ideal)) (r : Fin 1250000) (q : Fin 64) :
    Cert.ReferenceIdeal.Read.val_main_v49 (F := Ideal) x0 x1 x2 x3 x4 x5 x6 x7 x8 x9 x10 x11 x12 x16 x17 x18 (ix2 r q)
      = Cert.ReferenceIdeal.Read.val_main_v48 (F := Ideal) x0 x2 x16 x17 x18 (ix2 r q) * Ideal.logistic (Cert.ReferenceIdeal.Read.val_main_v30 (F := Ideal) x0 x1 x2 x3 x4 x5 x6 x7 x8 x9 x10 x11 x12 (ix2 r q)) := by
  rw [Cert.ReferenceIdeal.Read.val_main_v49_apply, v36_at]
  rfl

/-- The reference's edge output at (r, q): `yrow` of row r of the edge array and of the pre-activation. -/
theorem v112_at (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (x21 : (⟨Cert.ReferenceIdeal.S64, .f32⟩ : BufTy).Contents (Elt Ideal)) (x22 : (⟨Cert.ReferenceIdeal.S64, .f32⟩ : BufTy).Contents (Elt Ideal)) (r : Fin 1250000) (q : Fin 64) :
    Cert.ReferenceIdeal.Read.val_main_v112 (F := Ideal) x0 x1 x2 x3 x4 x5 x6 x7 x8 x9 x10 x11 x12 x21 x22 (ix2 r q)
      = yrow (fun j => x1 (ix2 r j)) (fun j => Cert.ReferenceIdeal.Read.val_main_v30 (F := Ideal) x0 x1 x2 x3 x4 x5 x6 x7 x8 x9 x10 x11 x12 (ix2 r j)) (fun j => x21 (ix1 j)) (fun j => x22 (ix1 j)) q := by
  simp only [Cert.ReferenceIdeal.Read.val_main_v112_apply, Cert.ReferenceIdeal.Read.val_main_v111_apply, Cert.ReferenceIdeal.Read.val_main_call1_v5_apply, Cert.ReferenceIdeal.Read.val_main_call1_v4_apply, Cert.ReferenceIdeal.Read.val_main_call1_cst_0_apply, Cert.ReferenceIdeal.Read.val_main_call1_v3_apply, Cert.ReferenceIdeal.Read.val_main_call1_v2_apply, Cert.ReferenceIdeal.Read.val_main_call1_cst_apply, Cert.ReferenceIdeal.Read.val_main_call1_v1_apply, Cert.ReferenceIdeal.Read.val_main_call1_v0_apply, Cert.ReferenceIdeal.Read.val_main_v110_apply, Cert.ReferenceIdeal.Read.val_main_v109_apply, Cert.ReferenceIdeal.Read.val_main_v108_apply, Cert.ReferenceIdeal.Read.val_main_v107_apply, Cert.ReferenceIdeal.Read.val_main_v106_apply, Cert.ReferenceIdeal.Read.val_main_v105_apply, Cert.ReferenceIdeal.Read.val_main_v104_apply, Cert.ReferenceIdeal.Read.val_main_v103_apply, Cert.ReferenceIdeal.Read.val_main_v102_apply, Cert.ReferenceIdeal.Read.val_main_v101_apply, Cert.ReferenceIdeal.Read.val_main_v100_apply, Cert.ReferenceIdeal.Read.val_main_cst_18_apply, Cert.ReferenceIdeal.Read.val_main_v99_apply, Cert.ReferenceIdeal.Read.val_main_v98_apply, Cert.ReferenceIdeal.Read.val_main_cst_17_apply, Cert.ReferenceIdeal.Read.val_main_v97_apply, Cert.ReferenceIdeal.Read.val_main_v96_apply, Cert.ReferenceIdeal.Read.val_main_cst_16_apply, Cert.ReferenceIdeal.Read.val_main_v95_apply, Cert.ReferenceIdeal.Read.val_main_v94_apply, Cert.ReferenceIdeal.Read.val_main_v93_apply, Cert.ReferenceIdeal.Read.val_main_v92_apply, Cert.ReferenceIdeal.Read.val_main_v91_apply, Cert.ReferenceIdeal.Read.val_main_cst_15_apply, Cert.ReferenceIdeal.Read.val_main_v90_apply, Cert.ReferenceIdeal.Read.val_main_v89_apply, Cert.ReferenceIdeal.Read.val_main_cst_14_apply,
    ix_v93, ix_v90, ix_v89, ix_v103, ix_v97, ix_v96, ix_v106, ix_v109,
    Ideal.ofBits_def, Ideal.addf_def, Ideal.subf_def, Ideal.mulf_def, Ideal.hostDivf_def, Ideal.hostUnary_exp_def,
    Ideal.hostUnary_rsqrt_def, Ideal.hostNegf_def, Ideal.negf_def, Ideal.ofBits_zero_f32, zero_add, logistic_expanded]
  rfl

/-! ## The blocks of the arrays as the region finds them

Every edge window moves with the grid: at point t its block is rows 2000·t … 2000·t + 1999, all 64 columns. The
weight windows stay at block index zero: their block is the whole array. -/

section Blocks

variable (V : (c : Dev nD) → (b : Ref sig .tc) → Buf (Elt Ideal) ((c : Thread nD τ).loc b)) (c : Dev nD)

/-- Row p of the block at point t is row 2000·t + p of the array. -/
def rowOf (t : Fin cfg1.N) (p : Fin 2000) : Fin 1250000 :=
  ⟨2000 * t.val + p.val, by
    have ht : t.val < 625 := lt_of_lt_of_eq t.isLt N_1
    have hp : p.val < 2000 := p.isLt
    omega⟩

theorem rowOf_val (t : Fin cfg1.N) (p : Fin 2000) : (rowOf t p).val = 2000 * t.val + p.val := rfl

/-- The seven edge windows' index maps, decided over the grid: at point t the block index is (t, 0). -/
theorem idx_rows0 : ∀ t : Fin cfg1.N, win1_0.index t (0 : Fin 2) = t.val ∧ win1_0.index t (1 : Fin 2) = 0 :=
  (by decide +kernel : ∀ t : Fin grid1.N, _)
theorem idx_rows1 : ∀ t : Fin cfg1.N, win1_1.index t (0 : Fin 2) = t.val ∧ win1_1.index t (1 : Fin 2) = 0 :=
  (by decide +kernel : ∀ t : Fin grid1.N, _)
theorem idx_rows2 : ∀ t : Fin cfg1.N, win1_2.index t (0 : Fin 2) = t.val ∧ win1_2.index t (1 : Fin 2) = 0 :=
  (by decide +kernel : ∀ t : Fin grid1.N, _)
theorem idx_rows3 : ∀ t : Fin cfg1.N, win1_3.index t (0 : Fin 2) = t.val ∧ win1_3.index t (1 : Fin 2) = 0 :=
  (by decide +kernel : ∀ t : Fin grid1.N, _)
theorem idx_rows9 : ∀ t : Fin cfg1.N, win1_9.index t (0 : Fin 2) = t.val ∧ win1_9.index t (1 : Fin 2) = 0 :=
  (by decide +kernel : ∀ t : Fin grid1.N, _)
theorem idx_rows10 : ∀ t : Fin cfg1.N, win1_10.index t (0 : Fin 2) = t.val ∧ win1_10.index t (1 : Fin 2) = 0 :=
  (by decide +kernel : ∀ t : Fin grid1.N, _)
theorem idx_rows11 : ∀ t : Fin cfg1.N, win1_11.index t (0 : Fin 2) = t.val ∧ win1_11.index t (1 : Fin 2) = 0 :=
  (by decide +kernel : ∀ t : Fin grid1.N, _)
/-- The five weight windows' index maps: block index zero on every axis. -/
theorem idx_w4 : ∀ t : Fin cfg1.N, win1_4.index t (0 : Fin 2) = 0 ∧ win1_4.index t (1 : Fin 2) = 0 :=
  (by decide +kernel : ∀ t : Fin grid1.N, _)
theorem idx_w5 : ∀ t : Fin cfg1.N, win1_5.index t (0 : Fin 2) = 0 ∧ win1_5.index t (1 : Fin 2) = 0 :=
  (by decide +kernel : ∀ t : Fin grid1.N, _)
theorem idx_w6 : ∀ t : Fin cfg1.N, win1_6.index t (0 : Fin 1) = 0 :=
  (by decide +kernel : ∀ t : Fin grid1.N, _)
theorem idx_w7 : ∀ t : Fin cfg1.N, win1_7.index t (0 : Fin 1) = 0 :=
  (by decide +kernel : ∀ t : Fin grid1.N, _)
theorem idx_w8 : ∀ t : Fin cfg1.N, win1_8.index t (0 : Fin 1) = 0 :=
  (by decide +kernel : ∀ t : Fin grid1.N, _)

/-- The edge features' block at point t, row p: row 2000·t + p of the array. -/
theorem blk0_apply (t : Fin cfg1.N) (X : (⟨Cert.ReferenceIdeal.S1250000x64, .f32⟩ : BufTy).Contents (Elt Ideal)) (hX : V c main_arg1 = X) (p : Fin 2000) (j : Fin 64) :
    (iblk1 V c 0 t : Vec Ideal S2000x64 .f32) (ix2 p j) = X (ix2 (rowOf t p) j) := by
  obtain ⟨e0, e1⟩ := idx_rows0 t
  unfold iblk1
  rw [View.read_apply]
  show V c main_arg1 _ = X _
  rw [hX]
  congr 1
  funext a
  apply Fin.ext
  match a with
  | ⟨0, _⟩ =>
    show win1_0.index t (0 : Fin 2) * 2000 + 1 * p.val = 2000 * t.val + p.val
    rw [e0]; omega
  | ⟨1, _⟩ =>
    show win1_0.index t (1 : Fin 2) * 64 + 1 * j.val = j.val
    rw [e1]; omega

/-- The gathered source term's block likewise. -/
theorem blk1_apply (t : Fin cfg1.N) (X : (⟨Cert.ReferenceIdeal.S1250000x64, .f32⟩ : BufTy).Contents (Elt Ideal)) (hX : V c main_v7 = X) (p : Fin 2000) (j : Fin 64) :
    (iblk1 V c 1 t : Vec Ideal S2000x64 .f32) (ix2 p j) = X (ix2 (rowOf t p) j) := by
  obtain ⟨e0, e1⟩ := idx_rows1 t
  unfold iblk1
  rw [View.read_apply]
  show V c main_v7 _ = X _
  rw [hX]
  congr 1
  funext a
  apply Fin.ext
  match a with
  | ⟨0, _⟩ =>
    show win1_1.index t (0 : Fin 2) * 2000 + 1 * p.val = 2000 * t.val + p.val
    rw [e0]; omega
  | ⟨1, _⟩ =>
    show win1_1.index t (1 : Fin 2) * 64 + 1 * j.val = j.val
    rw [e1]; omega

/-- The gathered destination term's block likewise. -/
theorem blk2_apply (t : Fin cfg1.N) (X : (⟨Cert.ReferenceIdeal.S1250000x64, .f32⟩ : BufTy).Contents (Elt Ideal)) (hX : V c main_v14 = X) (p : Fin 2000) (j : Fin 64) :
    (iblk1 V c 2 t : Vec Ideal S2000x64 .f32) (ix2 p j) = X (ix2 (rowOf t p) j) := by
  obtain ⟨e0, e1⟩ := idx_rows2 t
  unfold iblk1
  rw [View.read_apply]
  show V c main_v14 _ = X _
  rw [hX]
  congr 1
  funext a
  apply Fin.ext
  match a with
  | ⟨0, _⟩ =>
    show win1_2.index t (0 : Fin 2) * 2000 + 1 * p.val = 2000 * t.val + p.val
    rw [e0]; omega
  | ⟨1, _⟩ =>
    show win1_2.index t (1 : Fin 2) * 64 + 1 * j.val = j.val
    rw [e1]; omega

/-- The gathered update's block likewise. -/
theorem blk3_apply (t : Fin cfg1.N) (X : (⟨Cert.ReferenceIdeal.S1250000x64, .f32⟩ : BufTy).Contents (Elt Ideal)) (hX : V c main_v21 = X) (p : Fin 2000) (j : Fin 64) :
    (iblk1 V c 3 t : Vec Ideal S2000x64 .f32) (ix2 p j) = X (ix2 (rowOf t p) j) := by
  obtain ⟨e0, e1⟩ := idx_rows3 t
  unfold iblk1
  rw [View.read_apply]
  show V c main_v21 _ = X _
  rw [hX]
  congr 1
  funext a
  apply Fin.ext
  match a with
  | ⟨0, _⟩ =>
    show win1_3.index t (0 : Fin 2) * 2000 + 1 * p.val = 2000 * t.val + p.val
    rw [e0]; omega
  | ⟨1, _⟩ =>
    show win1_3.index t (1 : Fin 2) * 64 + 1 * j.val = j.val
    rw [e1]; omega

/-- The first weight's block is the whole array. -/
theorem blk4_eq (t : Fin cfg1.N) (X : (⟨Cert.ReferenceIdeal.S64x16, .f32⟩ : BufTy).Contents (Elt Ideal)) (hX : V c main_arg10 = X) : (iblk1 V c 4 t : Vec Ideal S64x16 .f32) = X := by
  obtain ⟨e0, e1⟩ := idx_w4 t
  funext j
  unfold iblk1
  rw [View.read_apply]
  show V c main_arg10 _ = X _
  rw [hX]
  congr 1
  funext a
  apply Fin.ext
  match a with
  | ⟨0, _⟩ =>
    show win1_4.index t (0 : Fin 2) * 64 + 1 * (j 0).val = (j 0).val
    rw [e0]; omega
  | ⟨1, _⟩ =>
    show win1_4.index t (1 : Fin 2) * 16 + 1 * (j 1).val = (j 1).val
    rw [e1]; omega

/-- The second weight's block is the whole array. -/
theorem blk5_eq (t : Fin cfg1.N) (X : (⟨Cert.ReferenceIdeal.S16x64, .f32⟩ : BufTy).Contents (Elt Ideal)) (hX : V c main_arg11 = X) : (iblk1 V c 5 t : Vec Ideal S16x64 .f32) = X := by
  obtain ⟨e0, e1⟩ := idx_w5 t
  funext j
  unfold iblk1
  rw [View.read_apply]
  show V c main_arg11 _ = X _
  rw [hX]
  congr 1
  funext a
  apply Fin.ext
  match a with
  | ⟨0, _⟩ =>
    show win1_5.index t (0 : Fin 2) * 16 + 1 * (j 0).val = (j 0).val
    rw [e0]; omega
  | ⟨1, _⟩ =>
    show win1_5.index t (1 : Fin 2) * 64 + 1 * (j 1).val = (j 1).val
    rw [e1]; omega

/-- The projection's bias block is the whole vector. -/
theorem blk6_eq (t : Fin cfg1.N) (X : (⟨Cert.ReferenceIdeal.S64, .f32⟩ : BufTy).Contents (Elt Ideal)) (hX : V c main_arg12 = X) : (iblk1 V c 6 t : Vec Ideal S64 .f32) = X := by
  have e0 := idx_w6 t
  funext j
  unfold iblk1
  rw [View.read_apply]
  show V c main_arg12 _ = X _
  rw [hX]
  congr 1
  funext a
  apply Fin.ext
  match a with
  | ⟨0, _⟩ =>
    show win1_6.index t (0 : Fin 1) * 64 + 1 * (j 0).val = (j 0).val
    rw [e0]; omega

/-- The normalisation's scale block is the whole vector. -/
theorem blk7_eq (t : Fin cfg1.N) (X : (⟨Cert.ReferenceIdeal.S64, .f32⟩ : BufTy).Contents (Elt Ideal)) (hX : V c main_arg21 = X) : (iblk1 V c 7 t : Vec Ideal S64 .f32) = X := by
  have e0 := idx_w7 t
  funext j
  unfold iblk1
  rw [View.read_apply]
  show V c main_arg21 _ = X _
  rw [hX]
  congr 1
  funext a
  apply Fin.ext
  match a with
  | ⟨0, _⟩ =>
    show win1_7.index t (0 : Fin 1) * 64 + 1 * (j 0).val = (j 0).val
    rw [e0]; omega

/-- The normalisation's shift block is the whole vector. -/
theorem blk8_eq (t : Fin cfg1.N) (X : (⟨Cert.ReferenceIdeal.S64, .f32⟩ : BufTy).Contents (Elt Ideal)) (hX : V c main_arg22 = X) : (iblk1 V c 8 t : Vec Ideal S64 .f32) = X := by
  have e0 := idx_w8 t
  funext j
  unfold iblk1
  rw [View.read_apply]
  show V c main_arg22 _ = X _
  rw [hX]
  congr 1
  funext a
  apply Fin.ext
  match a with
  | ⟨0, _⟩ =>
    show win1_8.index t (0 : Fin 1) * 64 + 1 * (j 0).val = (j 0).val
    rw [e0]; omega

/-! ## What a point writes back, and the whole arrays -/

/-- Output window 9's block at point t, element (p, q), sits at row 2000·t + p, column q of its array. -/
theorem emb9 (t : Fin cfg1.N) (p : Fin 2000) (q : Fin 64) :
    ((cfg1.win 9).blk t).view.emb (ix2 p q) = ix2 (rowOf t p) q := by
  obtain ⟨e0, e1⟩ := idx_rows9 t
  funext a
  apply Fin.ext
  match a with
  | ⟨0, _⟩ =>
    show win1_9.index t (0 : Fin 2) * 2000 + 1 * p.val = 2000 * t.val + p.val
    rw [e0]; omega
  | ⟨1, _⟩ =>
    show win1_9.index t (1 : Fin 2) * 64 + 1 * q.val = q.val
    rw [e1]; omega

/-- An index of the array is in point t's block of window 9 iff each coordinate is in the block's range. -/
theorem mem_blk9 (t : Fin cfg1.N) (i : S1250000x64.Idx) :
    i ∈ ((cfg1.win 9).blk t).view.set ↔ ∀ a : Fin 2, win1_9.index t a * S2000x64.size a ≤ (i a).val ∧ (i a).val < win1_9.index t a * S2000x64.size a + S2000x64.size a := by
  show i ∈ ((View.whole main_v22_0).slice (win1_9.rect t)).set ↔ _
  rw [View.set_slice_whole, Rect.mem_set_unit]
  exact Iff.rfl

/-- Row r of window 9's array is covered by the point r / 2000. -/
theorem cover9 (i : S1250000x64.Idx) :
    ∃ t : Fin cfg1.N, (cfg1.win 9).flush t = true ∧ i ∈ ((cfg1.win 9).blk t).view.set := by
  have hi0 : (i 0).val < 1250000 := (i 0).isLt
  have hi1 : (i 1).val < 64 := (i 1).isLt
  have hN : cfg1.N = 625 := N_1
  have ht : (i 0).val / 2000 < cfg1.N := by rw [hN]; omega
  obtain ⟨e0, e1⟩ := idx_rows9 ⟨(i 0).val / 2000, ht⟩
  refine ⟨⟨(i 0).val / 2000, ht⟩, flush1_9 _, ?_⟩
  rw [mem_blk9]
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_9.index ⟨(i 0).val / 2000, ht⟩ (1 : Fin 2) * 64 ≤ (i 1).val ∧ (i 1).val < win1_9.index ⟨(i 0).val / 2000, ht⟩ (1 : Fin 2) * 64 + 64
    rw [e1]
    omega

/-- Output window 10's block at point t, element (p, q), sits at row 2000·t + p, column q of its array. -/
theorem emb10 (t : Fin cfg1.N) (p : Fin 2000) (q : Fin 64) :
    ((cfg1.win 10).blk t).view.emb (ix2 p q) = ix2 (rowOf t p) q := by
  obtain ⟨e0, e1⟩ := idx_rows10 t
  funext a
  apply Fin.ext
  match a with
  | ⟨0, _⟩ =>
    show win1_10.index t (0 : Fin 2) * 2000 + 1 * p.val = 2000 * t.val + p.val
    rw [e0]; omega
  | ⟨1, _⟩ =>
    show win1_10.index t (1 : Fin 2) * 64 + 1 * q.val = q.val
    rw [e1]; omega

/-- An index of the array is in point t's block of window 10 iff each coordinate is in the block's range. -/
theorem mem_blk10 (t : Fin cfg1.N) (i : S1250000x64.Idx) :
    i ∈ ((cfg1.win 10).blk t).view.set ↔ ∀ a : Fin 2, win1_10.index t a * S2000x64.size a ≤ (i a).val ∧ (i a).val < win1_10.index t a * S2000x64.size a + S2000x64.size a := by
  show i ∈ ((View.whole main_v22_1).slice (win1_10.rect t)).set ↔ _
  rw [View.set_slice_whole, Rect.mem_set_unit]
  exact Iff.rfl

/-- Row r of window 10's array is covered by the point r / 2000. -/
theorem cover10 (i : S1250000x64.Idx) :
    ∃ t : Fin cfg1.N, (cfg1.win 10).flush t = true ∧ i ∈ ((cfg1.win 10).blk t).view.set := by
  have hi0 : (i 0).val < 1250000 := (i 0).isLt
  have hi1 : (i 1).val < 64 := (i 1).isLt
  have hN : cfg1.N = 625 := N_1
  have ht : (i 0).val / 2000 < cfg1.N := by rw [hN]; omega
  obtain ⟨e0, e1⟩ := idx_rows10 ⟨(i 0).val / 2000, ht⟩
  refine ⟨⟨(i 0).val / 2000, ht⟩, flush1_10 _, ?_⟩
  rw [mem_blk10]
  intro a
  match a with
  | ⟨0, _⟩ =>
    show win1_10.index ⟨(i 0).val / 2000, ht⟩ (0 : Fin 2) * 2000 ≤ (i 0).val ∧ (i 0).val < win1_10.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_10.index ⟨(i 0).val / 2000, ht⟩ (1 : Fin 2) * 64 ≤ (i 1).val ∧ (i 1).val < win1_10.index ⟨(i 0).val / 2000, ht⟩ (1 : Fin 2) * 64 + 64
    rw [e1]
    omega

/-- Output window 11's block at point t, element (p, q), sits at row 2000·t + p, column q of its array. -/
theorem emb11 (t : Fin cfg1.N) (p : Fin 2000) (q : Fin 64) :
    ((cfg1.win 11).blk t).view.emb (ix2 p q) = ix2 (rowOf t p) q := by
  obtain ⟨e0, e1⟩ := idx_rows11 t
  funext a
  apply Fin.ext
  match a with
  | ⟨0, _⟩ =>
    show win1_11.index t (0 : Fin 2) * 2000 + 1 * p.val = 2000 * t.val + p.val
    rw [e0]; omega
  | ⟨1, _⟩ =>
    show win1_11.index t (1 : Fin 2) * 64 + 1 * q.val = q.val
    rw [e1]; omega

/-- An index of the array is in point t's block of window 11 iff each coordinate is in the block's range. -/
theorem mem_blk11 (t : Fin cfg1.N) (i : S1250000x64.Idx) :
    i ∈ ((cfg1.win 11).blk t).view.set ↔ ∀ a : Fin 2, win1_11.index t a * S2000x64.size a ≤ (i a).val ∧ (i a).val < win1_11.index t a * S2000x64.size a + S2000x64.size a := by
  show i ∈ ((View.whole main_v22_2).slice (win1_11.rect t)).set ↔ _
  rw [View.set_slice_whole, Rect.mem_set_unit]
  exact Iff.rfl

/-- Row r of window 11's array is covered by the point r / 2000. -/
theorem cover11 (i : S1250000x64.Idx) :
    ∃ t : Fin cfg1.N, (cfg1.win 11).flush t = true ∧ i ∈ ((cfg1.win 11).blk t).view.set := by
  have hi0 : (i 0).val < 1250000 := (i 0).isLt
  have hi1 : (i 1).val < 64 := (i 1).isLt
  have hN : cfg1.N = 625 := N_1
  have ht : (i 0).val / 2000 < cfg1.N := by rw [hN]; omega
  obtain ⟨e0, e1⟩ := idx_rows11 ⟨(i 0).val / 2000, ht⟩
  refine ⟨⟨(i 0).val / 2000, ht⟩, flush1_11 _, ?_⟩
  rw [mem_blk11]
  intro a
  match a with
  | ⟨0, _⟩ =>
    show win1_11.index ⟨(i 0).val / 2000, ht⟩ (0 : Fin 2) * 2000 ≤ (i 0).val ∧ (i 0).val < win1_11.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_11.index ⟨(i 0).val / 2000, ht⟩ (1 : Fin 2) * 64 ≤ (i 1).val ∧ (i 1).val < win1_11.index ⟨(i 0).val / 2000, ht⟩ (1 : Fin 2) * 64 + 64
    rw [e1]
    omega

/-- The gate's pre-activation of row p of the blocks at point t is the reference's at row 2000·t + p: the rows the
    two read are the same rows of the same arrays. -/
theorem gate_blocks (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (h0 : V c main_arg1 = x1) (h1 : V c main_v7 = Cert.ReferenceIdeal.Read.val_main_v21 (F := Ideal) x0 x2 x4 x5 x6) (h2 : V c main_v14 = Cert.ReferenceIdeal.Read.val_main_v28 (F := Ideal) x0 x3 x7 x8 x9) (h4 : V c main_arg10 = x10) (h5 : V c main_arg11 = x11) (h6 : V c main_arg12 = x12) (t : Fin cfg1.N) (p : Fin 2000) :
    gate (fun j => (iblk1 V c 0 t) (ix2 p j)) (fun j => (iblk1 V c 1 t) (ix2 p j)) (fun j => (iblk1 V c 2 t) (ix2 p j)) (fun j k => (iblk1 V c 4 t) (ix2 j k)) (fun k j => (iblk1 V c 5 t) (ix2 k j)) (fun j => (iblk1 V c 6 t) (ix1 j))
      = fun q => Cert.ReferenceIdeal.Read.val_main_v30 (F := Ideal) x0 x1 x2 x3 x4 x5 x6 x7 x8 x9 x10 x11 x12 (ix2 (rowOf t p) q) := by
  rw [v30_row x0 x1 x2 x3 x4 x5 x6 x7 x8 x9 x10 x11 x12 (rowOf t p), blk4_eq V c t x10 h4, blk5_eq V c t x11 h5, blk6_eq V c t x12 h6]
  congr 1
  · exact funext fun j => blk0_apply V c t x1 h0 p j
  · exact funext fun j => blk1_apply V c t _ h1 p j
  · exact funext fun j => blk2_apply V c t _ h2 p j

/-- THE GATE: what point t writes back to window 11 is block t of the reference's gate. -/
theorem flushed11_eq (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (h0 : V c main_arg1 = x1) (h1 : V c main_v7 = Cert.ReferenceIdeal.Read.val_main_v21 (F := Ideal) x0 x2 x4 x5 x6) (h2 : V c main_v14 = Cert.ReferenceIdeal.Read.val_main_v28 (F := Ideal) x0 x3 x7 x8 x9) (h4 : V c main_arg10 = x10) (h5 : V c main_arg11 = x11) (h6 : V c main_arg12 = x12) (t : Fin cfg1.N) :
    (dat1 (F := Ideal) V c).flushed 11 t = ((cfg1.win 11).blk t).view.read (Elt Ideal) (Cert.ReferenceIdeal.Read.val_main_v36 (F := Ideal) x0 x1 x2 x3 x4 x5 x6 x7 x8 x9 x10 x11 x12) := by
  show (cfg1.win 11).cut (grid1.coords t) ((dat1 (F := Ideal) V c).after 11 t) = _
  rw [after1_11]
  unfold out1_11
  rw [View.canon_unit_zero hz2]
  simp only [View.ld_unit_zero (S := S2000x64) hz2, View.ld_unit_zero (S := S64x16) hz2, View.ld_unit_zero (S := S16x64) hz2, View.ld_unit_zero (S := S64) hz1]
  funext j
  obtain ⟨p, q, rfl⟩ : ∃ (p : Fin 2000) (q : Fin 64), j = ix2 p q := ⟨j 0, j 1, eq_ix2 j⟩
  show k1_pay4 (iblk1 V c 0 t) (iblk1 V c 4 t) (iblk1 V c 5 t) (iblk1 V c 6 t) (iblk1 V c 1 t) (iblk1 V c 2 t) (ix2 p q) = (Cert.ReferenceIdeal.Read.val_main_v36 (F := Ideal) x0 x1 x2 x3 x4 x5 x6 x7 x8 x9 x10 x11 x12) (((cfg1.win 11).blk t).view.emb (ix2 p q))
  rw [emb11 t p q, v36_at]
  refine (pay4_apply (iblk1 V c 0 t) (iblk1 V c 1 t) (iblk1 V c 2 t) (iblk1 V c 4 t) (iblk1 V c 5 t) (iblk1 V c 6 t) p q).trans ?_
  exact congrArg Ideal.logistic (congrFun (gate_blocks V c x0 x1 x2 x3 x4 x5 x6 x7 x8 x9 x10 x11 x12 h0 h1 h2 h4 h5 h6 t p) q)

/-- The gate array after the region is the reference's gate. -/
theorem arr11 (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (h0 : V c main_arg1 = x1) (h1 : V c main_v7 = Cert.ReferenceIdeal.Read.val_main_v21 (F := Ideal) x0 x2 x4 x5 x6) (h2 : V c main_v14 = Cert.ReferenceIdeal.Read.val_main_v28 (F := Ideal) x0 x3 x7 x8 x9) (h4 : V c main_arg10 = x10) (h5 : V c main_arg11 = x11) (h6 : V c main_arg12 = x12) :
    (dat1 (F := Ideal) V c).arrAt 11 cfg1.N = Cert.ReferenceIdeal.Read.val_main_v36 (F := Ideal) x0 x1 x2 x3 x4 x5 x6 x7 x8 x9 x10 x11 x12 :=
  (dat1 (F := Ideal) V c).arrAt_eq_of_cover 11 (Cert.ReferenceIdeal.Read.val_main_v36 (F := Ideal) x0 x1 x2 x3 x4 x5 x6 x7 x8 x9 x10 x11 x12)
    (fun t _ => flushed11_eq V c x0 x1 x2 x3 x4 x5 x6 x7 x8 x9 x10 x11 x12 h0 h1 h2 h4 h5 h6 t) cover11

/-- THE MESSAGE: what point t writes back to window 10 is block t of the reference's message. -/
theorem flushed10_eq (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (x16 : (⟨Cert.ReferenceIdeal.S64x16, .f32⟩ : BufTy).Contents (Elt Ideal)) (x17 : (⟨Cert.ReferenceIdeal.S16x64, .f32⟩ : BufTy).Contents (Elt Ideal)) (x18 : (⟨Cert.ReferenceIdeal.S64, .f32⟩ : BufTy).Contents (Elt Ideal)) (h0 : V c main_arg1 = x1) (h1 : V c main_v7 = Cert.ReferenceIdeal.Read.val_main_v21 (F := Ideal) x0 x2 x4 x5 x6) (h2 : V c main_v14 = Cert.ReferenceIdeal.Read.val_main_v28 (F := Ideal) x0 x3 x7 x8 x9) (h3 : V c main_v21 = Cert.ReferenceIdeal.Read.val_main_v48 (F := Ideal) x0 x2 x16 x17 x18) (h4 : V c main_arg10 = x10) (h5 : V c main_arg11 = x11) (h6 : V c main_arg12 = x12) (t : Fin cfg1.N) :
    (dat1 (F := Ideal) V c).flushed 10 t = ((cfg1.win 10).blk t).view.read (Elt Ideal) (Cert.ReferenceIdeal.Read.val_main_v49 (F := Ideal) x0 x1 x2 x3 x4 x5 x6 x7 x8 x9 x10 x11 x12 x16 x17 x18) := by
  show (cfg1.win 10).cut (grid1.coords t) ((dat1 (F := Ideal) V c).after 10 t) = _
  rw [after1_10]
  unfold out1_10
  rw [View.canon_unit_zero hz2]
  simp only [View.ld_unit_zero (S := S2000x64) hz2, View.ld_unit_zero (S := S64x16) hz2, View.ld_unit_zero (S := S16x64) hz2, View.ld_unit_zero (S := S64) hz1]
  funext j
  obtain ⟨p, q, rfl⟩ : ∃ (p : Fin 2000) (q : Fin 64), j = ix2 p q := ⟨j 0, j 1, eq_ix2 j⟩
  show k1_pay2 (k1_pay4 (iblk1 V c 0 t) (iblk1 V c 4 t) (iblk1 V c 5 t) (iblk1 V c 6 t) (iblk1 V c 1 t) (iblk1 V c 2 t)) (iblk1 V c 3 t) (ix2 p q) = (Cert.ReferenceIdeal.Read.val_main_v49 (F := Ideal) x0 x1 x2 x3 x4 x5 x6 x7 x8 x9 x10 x11 x12 x16 x17 x18) (((cfg1.win 10).blk t).view.emb (ix2 p q))
  rw [emb10 t p q, v49_at]
  refine (pay2_apply (k1_pay4 (iblk1 V c 0 t) (iblk1 V c 4 t) (iblk1 V c 5 t) (iblk1 V c 6 t) (iblk1 V c 1 t) (iblk1 V c 2 t)) (iblk1 V c 3 t) p q).trans ?_
  refine congrArg₂ (· * ·) (blk3_apply V c t _ h3 p q) ?_
  refine (pay4_apply (iblk1 V c 0 t) (iblk1 V c 1 t) (iblk1 V c 2 t) (iblk1 V c 4 t) (iblk1 V c 5 t) (iblk1 V c 6 t) p q).trans ?_
  exact congrArg Ideal.logistic (congrFun (gate_blocks V c x0 x1 x2 x3 x4 x5 x6 x7 x8 x9 x10 x11 x12 h0 h1 h2 h4 h5 h6 t p) q)

/-- The message array after the region is the reference's message. -/
theorem arr10 (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (x16 : (⟨Cert.ReferenceIdeal.S64x16, .f32⟩ : BufTy).Contents (Elt Ideal)) (x17 : (⟨Cert.ReferenceIdeal.S16x64, .f32⟩ : BufTy).Contents (Elt Ideal)) (x18 : (⟨Cert.ReferenceIdeal.S64, .f32⟩ : BufTy).Contents (Elt Ideal)) (h0 : V c main_arg1 = x1) (h1 : V c main_v7 = Cert.ReferenceIdeal.Read.val_main_v21 (F := Ideal) x0 x2 x4 x5 x6) (h2 : V c main_v14 = Cert.ReferenceIdeal.Read.val_main_v28 (F := Ideal) x0 x3 x7 x8 x9) (h3 : V c main_v21 = Cert.ReferenceIdeal.Read.val_main_v48 (F := Ideal) x0 x2 x16 x17 x18) (h4 : V c main_arg10 = x10) (h5 : V c main_arg11 = x11) (h6 : V c main_arg12 = x12) :
    (dat1 (F := Ideal) V c).arrAt 10 cfg1.N = Cert.ReferenceIdeal.Read.val_main_v49 (F := Ideal) x0 x1 x2 x3 x4 x5 x6 x7 x8 x9 x10 x11 x12 x16 x17 x18 :=
  (dat1 (F := Ideal) V c).arrAt_eq_of_cover 10 (Cert.ReferenceIdeal.Read.val_main_v49 (F := Ideal) x0 x1 x2 x3 x4 x5 x6 x7 x8 x9 x10 x11 x12 x16 x17 x18)
    (fun t _ => flushed10_eq V c x0 x1 x2 x3 x4 x5 x6 x7 x8 x9 x10 x11 x12 x16 x17 x18 h0 h1 h2 h3 h4 h5 h6 t) cover10

/-- THE EDGE OUTPUT: what point t writes back to window 9 is block t of the reference's edge output. -/
theorem flushed9_eq (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (x21 : (⟨Cert.ReferenceIdeal.S64, .f32⟩ : BufTy).Contents (Elt Ideal)) (x22 : (⟨Cert.ReferenceIdeal.S64, .f32⟩ : BufTy).Contents (Elt Ideal)) (h0 : V c main_arg1 = x1) (h1 : V c main_v7 = Cert.ReferenceIdeal.Read.val_main_v21 (F := Ideal) x0 x2 x4 x5 x6) (h2 : V c main_v14 = Cert.ReferenceIdeal.Read.val_main_v28 (F := Ideal) x0 x3 x7 x8 x9) (h4 : V c main_arg10 = x10) (h5 : V c main_arg11 = x11) (h6 : V c main_arg12 = x12) (h7 : V c main_arg21 = x21) (h8 : V c main_arg22 = x22) (t : Fin cfg1.N) :
    (dat1 (F := Ideal) V c).flushed 9 t = ((cfg1.win 9).blk t).view.read (Elt Ideal) (Cert.ReferenceIdeal.Read.val_main_v112 (F := Ideal) x0 x1 x2 x3 x4 x5 x6 x7 x8 x9 x10 x11 x12 x21 x22) := by
  show (cfg1.win 9).cut (grid1.coords t) ((dat1 (F := Ideal) V c).after 9 t) = _
  rw [after1_9]
  unfold out1_9
  rw [View.canon_unit_zero hz2]
  simp only [View.ld_unit_zero (S := S2000x64) hz2, View.ld_unit_zero (S := S64x16) hz2, View.ld_unit_zero (S := S16x64) hz2, View.ld_unit_zero (S := S64) hz1]
  funext j
  obtain ⟨p, q, rfl⟩ : ∃ (p : Fin 2000) (q : Fin 64), j = ix2 p q := ⟨j 0, j 1, eq_ix2 j⟩
  show k1_pay1 (iblk1 V c 0 t) (k1_pay5 (iblk1 V c 0 t) (iblk1 V c 4 t) (iblk1 V c 5 t) (iblk1 V c 6 t) (iblk1 V c 1 t) (iblk1 V c 2 t) (iblk1 V c 7 t)) (iblk1 V c 8 t) (ix2 p q) = (Cert.ReferenceIdeal.Read.val_main_v112 (F := Ideal) x0 x1 x2 x3 x4 x5 x6 x7 x8 x9 x10 x11 x12 x21 x22) (((cfg1.win 9).blk t).view.emb (ix2 p q))
  rw [emb9 t p q, v112_at]
  refine (pay1_apply (iblk1 V c 0 t) (k1_pay5 (iblk1 V c 0 t) (iblk1 V c 4 t) (iblk1 V c 5 t) (iblk1 V c 6 t) (iblk1 V c 1 t) (iblk1 V c 2 t) (iblk1 V c 7 t)) (iblk1 V c 8 t) p q).trans ?_
  have hm : (fun j => k1_pay3 (iblk1 V c 0 t) (iblk1 V c 4 t) (iblk1 V c 5 t) (iblk1 V c 6 t) (iblk1 V c 1 t) (iblk1 V c 2 t) (ix2 p j))
      = fun j => Cert.ReferenceIdeal.Read.val_main_v30 (F := Ideal) x0 x1 x2 x3 x4 x5 x6 x7 x8 x9 x10 x11 x12 (ix2 (rowOf t p) j) :=
    (pay3_row (iblk1 V c 0 t) (iblk1 V c 1 t) (iblk1 V c 2 t) (iblk1 V c 4 t) (iblk1 V c 5 t) (iblk1 V c 6 t) p).trans
      (gate_blocks V c x0 x1 x2 x3 x4 x5 x6 x7 x8 x9 x10 x11 x12 h0 h1 h2 h4 h5 h6 t p)
  unfold yrow
  refine congrArg₂ (· + ·) (blk0_apply V c t x1 h0 p q)
    (congrArg silu (congrArg₂ (· + ·) ?_ (congrFun (blk8_eq V c t x22 h8) (ix1 q))))
  refine (pay5_apply (iblk1 V c 0 t) (iblk1 V c 1 t) (iblk1 V c 2 t) (iblk1 V c 4 t) (iblk1 V c 5 t) (iblk1 V c 6 t) (iblk1 V c 7 t) p q).trans ?_
  rw [hm, blk7_eq V c t x21 h7]

/-- The edge output array after the region is the reference's edge output. -/
theorem arr9 (x0 : (⟨Cert.ReferenceIdeal.S100000x64, .f32⟩ : BufTy).Contents (Elt Ideal)) (x1 : (⟨Cert.ReferenceIdeal.S1250000x64, .f32⟩ : BufTy).Contents (Elt Ideal)) (x2 : (⟨Cert.ReferenceIdeal.S1250000, .i32⟩ : BufTy).Contents (Elt Ideal)) (x3 : (⟨Cert.ReferenceIdeal.S1250000, .i32⟩ : BufTy).Contents (Elt Ideal)) (x4 : (⟨Cert.ReferenceIdeal.S64x16, .f32⟩ : BufTy).Contents (Elt Ideal)) (x5 : (⟨Cert.ReferenceIdeal.S16x64, .f32⟩ : BufTy).Contents (Elt Ideal)) (x6 : (⟨Cert.ReferenceIdeal.S64, .f32⟩ : BufTy).Contents (Elt Ideal)) (x7 : (⟨Cert.ReferenceIdeal.S64x16, .f32⟩ : BufTy).Contents (Elt Ideal)) (x8 : (⟨Cert.ReferenceIdeal.S16x64, .f32⟩ : BufTy).Contents (Elt Ideal)) (x9 : (⟨Cert.ReferenceIdeal.S64, .f32⟩ : BufTy).Contents (Elt Ideal)) (x10 : (⟨Cert.ReferenceIdeal.S64x16, .f32⟩ : BufTy).Contents (Elt Ideal)) (x11 : (⟨Cert.ReferenceIdeal.S16x64, .f32⟩ : BufTy).Contents (Elt Ideal)) (x12 : (⟨Cert.ReferenceIdeal.S64, .f32⟩ : BufTy).Contents (Elt Ideal)) (x21 : (⟨Cert.ReferenceIdeal.S64, .f32⟩ : BufTy).Contents (Elt Ideal)) (x22 : (⟨Cert.ReferenceIdeal.S64, .f32⟩ : BufTy).Contents (Elt Ideal)) (h0 : V c main_arg1 = x1) (h1 : V c main_v7 = Cert.ReferenceIdeal.Read.val_main_v21 (F := Ideal) x0 x2 x4 x5 x6) (h2 : V c main_v14 = Cert.ReferenceIdeal.Read.val_main_v28 (F := Ideal) x0 x3 x7 x8 x9) (h4 : V c main_arg10 = x10) (h5 : V c main_arg11 = x11) (h6 : V c main_arg12 = x12) (h7 : V c main_arg21 = x21) (h8 : V c main_arg22 = x22) :
    (dat1 (F := Ideal) V c).arrAt 9 cfg1.N = Cert.ReferenceIdeal.Read.val_main_v112 (F := Ideal) x0 x1 x2 x3 x4 x5 x6 x7 x8 x9 x10 x11 x12 x21 x22 :=
  (dat1 (F := Ideal) V c).arrAt_eq_of_cover 9 (Cert.ReferenceIdeal.Read.val_main_v112 (F := Ideal) x0 x1 x2 x3 x4 x5 x6 x7 x8 x9 x10 x11 x12 x21 x22)
    (fun t _ => flushed9_eq V c x0 x1 x2 x3 x4 x5 x6 x7 x8 x9 x10 x11 x12 x21 x22 h0 h1 h2 h4 h5 h6 h7 h8 t) cover9

end Blocks

end Cert.Proof.EdgeGate

end
-- ==== Proof.LibRowNorm.lean ====
import Idealize.ShloMosaic.Lib.Pipeline.Value
import Idealize.ShloMosaic.Lib.ValueIdx
import Idealize.ShloMosaic.Lib.ValueLayout
import Idealize.ShloMosaic.PureOps.Ideal.Laws

/-!
# Row-wise normalisation followed by a gated activation, read at one element

A matrix with `L` lanes is normalised row by row: the row's mean is taken off, the result is scaled by the
reciprocal square root of the row's variance plus a constant, an affine map per lane is applied, and the
outcome `y` is passed through `y · logistic y` and added onto a residual. One element `(r, q)` of the result
depends on row `r` of the two summands, on lane `q` of the affine map and on element `(r, q)` of the residual,
and on nothing else: that is what lets a row-blocked computation be compared with one over the whole matrix.

Also here: a vector read as a one-lane column, a one-lane column spread over the lanes, and a sum over the
lanes read at a row, each at an index given by its coordinates.
-/

noncomputable section

open scoped BigOperators

namespace Cert.Proof.LibRowNorm

open Idealize.ShloMosaic Idealize.ShloMosaic.ValueIdx

variable {α : Type}

/-! ## Columns -/

/-- A vector `[a]` cast to the column `[a, 1]` reads, at `(i, u)`, the vector at `i`: both sit at row-major
position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum over the lanes -/

/-- The source index over row `p` with lane `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A float sum over the lanes of an `[a, b]` vector, started from the zero word, read at row `p`: the sum of
the row's `b` entries. The axis list is typed over `Fin 2` and the last two hypotheses as the program's own
reduction carries them (`0 = 0`, the neutral word of a sum unfolded), so that the statement matches the
program's term as it stands. -/
theorem multiReduction_add_lanes {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec 32) = 0x00000000#32) (p : Fin a) :
    multiReduction .add ([1] : List (Fin 2)) ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-! ## The normalised, activated row element -/

/-- Element `(r, q)` of `N + y · logistic y`, where `y` is row `r` of `A + B` centred, scaled by
`rsqrt (variance + ε)`, times `g q` plus `β q`; mean and variance divide the lane sums by `n`. The extended
reals' own operations throughout, so infinite entries are covered by the same formula. -/
def rowNormAct {R L : ℕ} (n ε : EReal) (A B N : (⟨2, ![R, L]⟩ : Shape).Idx → EReal)
    (g β : (⟨1, ![L]⟩ : Shape).Idx → EReal) (r : Fin R) (q : Fin L) : EReal :=
  let s : Fin L → EReal := fun k => A (ix2 r k) + B (ix2 r k)
  let μ : EReal := Ideal.div (∑ k : Fin L, s k) n
  let d : Fin L → EReal := fun k => s k - μ
  let σ : EReal := Ideal.div (∑ k : Fin L, d k * d k) n
  let y : EReal := d q * Ideal.rsqrt (σ + ε) * g (ix1 q) + β (ix1 q)
  N (ix2 r q) + y * Ideal.logistic y

/-- The element depends on the matrices only through row `r` of the summands, element `(r, q)` of the residual
and lane `q` of the affine map: two settings that agree there give the same element (the rows may sit at
different places `r`, `r'` of matrices with different numbers of rows). -/
theorem rowNormAct_congr {R R' L : ℕ} (n ε : EReal) (A B N : (⟨2, ![R, L]⟩ : Shape).Idx → EReal)
    (A' B' N' : (⟨2, ![R', L]⟩ : Shape).Idx → EReal) (g β g' β' : (⟨1, ![L]⟩ : Shape).Idx → EReal)
    (r : Fin R) (r' : Fin R') (q : Fin L)
    (hA : ∀ k : Fin L, A (ix2 r k) = A' (ix2 r' k)) (hB : ∀ k : Fin L, B (ix2 r k) = B' (ix2 r' k))
    (hN : N (ix2 r q) = N' (ix2 r' q)) (hg : g (ix1 q) = g' (ix1 q)) (hβ : β (ix1 q) = β' (ix1 q)) :
    rowNormAct n ε A B N g β r q = rowNormAct n ε A' B' N' g' β' r' q := by
  unfold rowNormAct
  simp only [hA, hB, hN, hg, hβ]

end Cert.Proof.LibRowNorm

end
-- ==== Proof.NodeFinal.lean ====
import proofs.«126342_j74371653697786_2_alg».proof.Proof.Gen.KernelIdeal.Frame
import proofs.«126342_j74371653697786_2_alg».proof.Proof.Gen.ReferenceIdeal.Read
import proofs.«126342_j74371653697786_2_alg».proof.Proof.LibRowNorm
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open Cert.KernelIdeal Cert.KernelIdeal.Gen
open Cert.Proof.LibRowNorm

namespace Cert.Proof.NodeFinal

open Cert.ReferenceIdeal.Read

/-!
# The node update: the row-blocked kernel region against the whole-matrix reference

The region walks the 100000 rows of the node features in 20 blocks of 5000. At a block it adds the two
incoming matrices, normalises each row over its 64 lanes (mean off, times the reciprocal square root of the
variance plus a guard, an affine map per lane), applies `y ↦ y · logistic y` and adds the residual. The
reference does the same on the whole matrix. Element `(r, q)` of either result is `rowNormAct` of row `r`: it
needs row `r` of the two summands, lane `q` of the affine map and element `(r, q)` of the residual only, and
row `r` lies in block `r / 5000` at place `r % 5000`. No law of arithmetic is used beyond `0 + x = x`, so
nothing is asked of the entries (infinite ones included).
-/

theorem hz2 : (![0, 0] : Fin 2 → Nat) = fun _ => 0 := funext fun a => by fin_cases a <;> rfl
theorem hz1 : (![0] : Fin 1 → Nat) = fun _ => 0 := funext fun a => by fin_cases a <;> rfl

/-- The number of lanes, 64, and the variance's guard, as the two programs' literals. -/
abbrev lanes : EReal := Ideal.ofBits .f32 0x42800000#32
abbrev guard : EReal := Ideal.ofBits .f32 0x3727C5AC#32

/-! ## The body's value at an element of the block -/

theorem rsqrt_apply {s : Shape} (x : FVec Ideal s .f32) (i : s.Idx) : rsqrt x i = Ideal.rsqrt (x i) := rfl
theorem logistic_apply {s : Shape} (x : FVec Ideal s .f32) (i : s.Idx) : logistic x i = Ideal.logistic (x i) := rfl

/-- The lane sum of a block, as the body spells it, read at row `p`. -/
theorem sum_lanes (src : FVec Ideal S5000x64 .f32) (hφ : FTy.f32 = FTy.f32 ∨ FTy.f32 = FTy.bf16)
    (hacc : (0x00000000#32 : BitVec 32) = 0x00000000#32) (p : Fin 5000) :
    multiReduction .add ([1] : List (Fin 2)) S5000 src 0x00000000#32 reduces_S5000x64_S5000 hφ hacc (ix1 p)
      = ∑ k : Fin 64, src (ix2 p k) :=
  multiReduction_add_lanes src reduces_S5000x64_S5000 hφ hacc p

/-- Element `(p, q)` of what the body stores is `rowNormAct` of row `p` of its loaded blocks: the casts to the
same shape drop out, the column of means and the column of scales read at `(p, q)` are the row's mean and scale,
the two lane vectors read at `(p, q)` are their lane `q`. -/
theorem pay_apply (a b n : Vec Ideal S5000x64 .f32) (g β : Vec Ideal S64 .f32) (p : Fin 5000) (q : Fin 64) :
    k2_pay1 (F := Ideal) a b g β n (ix2 p q) = rowNormAct lanes guard a b n g β p q := by
  unfold k2_pay1
  simp only [shapeCast_self, addf_apply, mulf_apply, subf_apply, divf_apply, rsqrt_apply, logistic_apply, broadcast_apply,
    broadcastTo_a1_ab_apply, shapeCast_a_a1_apply, sum_lanes, broadcastTo_1b_ab_apply, shapeCast_a_1a_apply]
  rfl

/-! ## The reference's value at an element -/

section
variable
  (x0 : (⟨Cert.ReferenceIdeal.S100000x64, .f32⟩ : BufTy).Contents (Elt Ideal))
  (x1 : (⟨Cert.ReferenceIdeal.S1250000x64, .f32⟩ : BufTy).Contents (Elt Ideal))
  (x2 x3 : (⟨Cert.ReferenceIdeal.S1250000, .i32⟩ : BufTy).Contents (Elt Ideal))
  (x4 : (⟨Cert.ReferenceIdeal.S64x16, .f32⟩ : BufTy).Contents (Elt Ideal))
  (x5 : (⟨Cert.ReferenceIdeal.S16x64, .f32⟩ : BufTy).Contents (Elt Ideal))
  (x6 : (⟨Cert.ReferenceIdeal.S64, .f32⟩ : BufTy).Contents (Elt Ideal))
  (x7 : (⟨Cert.ReferenceIdeal.S64x16, .f32⟩ : BufTy).Contents (Elt Ideal))
  (x8 : (⟨Cert.ReferenceIdeal.S16x64, .f32⟩ : BufTy).Contents (Elt Ideal))
  (x9 : (⟨Cert.ReferenceIdeal.S64, .f32⟩ : BufTy).Contents (Elt Ideal))
  (x10 : (⟨Cert.ReferenceIdeal.S64x16, .f32⟩ : BufTy).Contents (Elt Ideal))
  (x11 : (⟨Cert.ReferenceIdeal.S16x64, .f32⟩ : BufTy).Contents (Elt Ideal))
  (x12 : (⟨Cert.ReferenceIdeal.S64, .f32⟩ : BufTy).Contents (Elt Ideal))
  (x13 : (⟨Cert.ReferenceIdeal.S64x16, .f32⟩ : BufTy).Contents (Elt Ideal))
  (x14 : (⟨Cert.ReferenceIdeal.S16x64, .f32⟩ : BufTy).Contents (Elt Ideal))
  (x15 : (⟨Cert.ReferenceIdeal.S64, .f32⟩ : BufTy).Contents (Elt Ideal))
  (x16 : (⟨Cert.ReferenceIdeal.S64x16, .f32⟩ : BufTy).Contents (Elt Ideal))
  (x17 : (⟨Cert.ReferenceIdeal.S16x64, .f32⟩ : BufTy).Contents (Elt Ideal))
  (x18 x19 x20 : (⟨Cert.ReferenceIdeal.S64, .f32⟩ : BufTy).Contents (Elt Ideal))

/-- Element `(r, q)` of the reference's result is `rowNormAct` of row `r` of the two matrices it adds first: every
stage read at the index, the broadcasts' index maps composed (`(r, q) ↦ (r, 0) ↦ r ↦ (r, k)` for the two row
statistics, `(r, q) ↦ (0, q) ↦ q` for the two lane vectors), the sums' initial `0` dropped, and `1 / (1 + exp (-y))`
read as `logistic y`. -/
theorem ref_apply (r : Fin 100000) (q : Fin 64) :
    val_main_v88 (F := Ideal) x0 x1 x2 x3 x4 x5 x6 x7 x8 x9 x10 x11 x12 x13 x14 x15 x16 x17 x18 x19 x20 (ix2 r q)
      = rowNormAct lanes guard (val_main_v63 (F := Ideal) x0 x13 x14 x15) (val_main_v58 (F := Ideal) x0 x1 x2 x3 x4 x5 x6 x7 x8 x9 x10 x11 x12 x16 x17 x18) x0 x19 x20 r q := by
  have e1 : ∀ (r : Fin 100000) (q k : Fin 64), idx_main_v65 (idx_main_v66 (idx_main_v69 (ix2 r q))) k = ix2 r k :=
    fun r q k => funext fun a => Fin.ext (by match a with | ⟨0, _⟩ => rfl | ⟨1, _⟩ => rfl)
  have e2 : ∀ (r : Fin 100000) (q k : Fin 64), idx_main_v72 (idx_main_v73 (idx_main_v79 (ix2 r q))) k = ix2 r k :=
    fun r q k => funext fun a => Fin.ext (by match a with | ⟨0, _⟩ => rfl | ⟨1, _⟩ => rfl)
  have e3 : ∀ (r : Fin 100000) (q : Fin 64), idx_main_v81 (idx_main_v82 (ix2 r q)) = ix1 q :=
    fun r q => funext fun a => Fin.ext (by match a with | ⟨0, _⟩ => rfl)
  have e4 : ∀ (r : Fin 100000) (q : Fin 64), idx_main_v84 (idx_main_v85 (ix2 r q)) = ix1 q :=
    fun r q => funext fun a => Fin.ext (by match a with | ⟨0, _⟩ => rfl)
  have h1 : Ideal.ofBits .f32 0x3F800000#32 = 1 := IdealRules.sign_bit.ideal_onePat .f32
  simp only [val_main_v88_apply, val_main_v87_apply, val_main_call0_v5_apply, val_main_call0_v4_apply, val_main_call0_cst_0_apply, val_main_call0_v3_apply, val_main_call0_v2_apply, val_main_call0_cst_apply, val_main_call0_v1_apply, val_main_call0_v0_apply, val_main_v86_apply, val_main_v85_apply, val_main_v84_apply, val_main_v83_apply, val_main_v82_apply, val_main_v81_apply, val_main_v80_apply, val_main_v79_apply, val_main_v78_apply, val_main_v77_apply, val_main_v76_apply, val_main_cst_13_apply, val_main_v75_apply, val_main_v74_apply, val_main_cst_12_apply, val_main_v73_apply, val_main_v72_apply, val_main_cst_11_apply, val_main_v71_apply, val_main_v70_apply, val_main_v69_apply, val_main_v68_apply, val_main_v67_apply, val_main_cst_10_apply, val_main_v66_apply, val_main_v65_apply, val_main_cst_9_apply, val_main_v64_apply]
  simp only [e2, e1, e3, e4, Ideal.ofBits_def, Ideal.ofBits_zero_f32, zero_add, h1]
  generalize val_main_v63 (F := Ideal) x0 x13 x14 x15 = A
  generalize val_main_v58 (F := Ideal) x0 x1 x2 x3 x4 x5 x6 x7 x8 x9 x10 x11 x12 x16 x17 x18 = B
  rfl

/-! ## One element of a block against the reference -/

/-- If blocks `a`, `b`, `n` hold rows `5000·t … 5000·t + 4999` of the reference's two summands and of the node
features, and `g`, `β` are the affine map, then element `y` of what the body stores is element `i` of the
reference's result, `i` being `y` moved down by `5000·t` rows. -/
theorem point_eq (a b n : Vec Ideal S5000x64 .f32) (g β : Vec Ideal S64 .f32) (t : ℕ)
    (ha : ∀ (p : Fin 5000) (k : Fin 64) (r : Fin 100000), r.val = 5000 * t + p.val →
      a (ix2 p k) = val_main_v63 (F := Ideal) x0 x13 x14 x15 (ix2 r k))
    (hb : ∀ (p : Fin 5000) (k : Fin 64) (r : Fin 100000), r.val = 5000 * t + p.val →
      b (ix2 p k) = val_main_v58 (F := Ideal) x0 x1 x2 x3 x4 x5 x6 x7 x8 x9 x10 x11 x12 x16 x17 x18 (ix2 r k))
    (hn : ∀ (p : Fin 5000) (k : Fin 64) (r : Fin 100000), r.val = 5000 * t + p.val → n (ix2 p k) = x0 (ix2 r k))
    (hg : ∀ k : Fin 64, g (ix1 k) = x19 (ix1 k)) (hβ : ∀ k : Fin 64, β (ix1 k) = x20 (ix1 k))
    (y : S5000x64.Idx) (i : S100000x64.Idx) (e0 : (i 0).val = 5000 * t + (y 0).val) (e1 : (i 1).val = (y 1).val) :
    k2_pay1 (F := Ideal) a b g β n y = val_main_v88 (F := Ideal) x0 x1 x2 x3 x4 x5 x6 x7 x8 x9 x10 x11 x12 x13 x14 x15 x16 x17 x18 x19 x20 i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q' = q := Fin.ext e1
  rw [pay_apply, ref_apply]
  exact rowNormAct_congr lanes guard a b n _ _ _ g β _ _ p r q' (fun k => ha p k r e0) (fun k => hb p k r e0)
    (hn p q' r e0) (hg q') (hβ q')

end

/-! ## The region: blocks read off the arrays, what a point writes back, the cover -/

section
variable (V : (c : Dev nD) → (b : Ref sig .tc) → Buf (Elt Ideal) ((c : Thread nD τ).loc b)) (c : Dev nD)

/-- The windows' index maps over the 20 points: the four matrix windows sit at row block `t`, lane block `0`;
the two lane vectors are one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

/-- Window 0's block at point `t` is rows `5000·t …` of its array: an element of a block sits at block index
times block size plus its own coordinate. -/
theorem read0 (t : Fin cfg2.N) (p : Fin 5000) (k : Fin 64) (r : Fin 100000) (hr : r.val = 5000 * t.val + p.val) :
    iblk2 V c 0 t (ix2 p k : S5000x64.Idx) = V c main_v0_3 (ix2 r k : S100000x64.Idx) := by
  obtain ⟨i0, i1, -⟩ := idx_facts t
  show V c main_v0_3 (((cfg2.win 0).blk t).view.emb (ix2 p k : S5000x64.Idx)) = V c main_v0_3 (ix2 r k : S100000x64.Idx)
  refine congrArg (V c main_v0_3) (funext fun a => Fin.ext ?_)
  match a with
  | ⟨0, _⟩ => show win2_0.index t (0 : Fin 2) * 5000 + 1 * p.val = r.val; rw [i0, hr]; omega
  | ⟨1, _⟩ => show win2_0.index t (1 : Fin 2) * 64 + 1 * k.val = k.val; rw [i1]; omega

/-- Window 1's block likewise. -/
theorem read1 (t : Fin cfg2.N) (p : Fin 5000) (k : Fin 64) (r : Fin 100000) (hr : r.val = 5000 * t.val + p.val) :
    iblk2 V c 1 t (ix2 p k : S5000x64.Idx) = V c main_v31 (ix2 r k : S100000x64.Idx) := by
  obtain ⟨-, -, i0, i1, -⟩ := idx_facts t
  show V c main_v31 (((cfg2.win 1).blk t).view.emb (ix2 p k : S5000x64.Idx)) = V c main_v31 (ix2 r k : S100000x64.Idx)
  refine congrArg (V c main_v31) (funext fun a => Fin.ext ?_)
  match a with
  | ⟨0, _⟩ => show win2_1.index t (0 : Fin 2) * 5000 + 1 * p.val = r.val; rw [i0, hr]; omega
  | ⟨1, _⟩ => show win2_1.index t (1 : Fin 2) * 64 + 1 * k.val = k.val; rw [i1]; omega

/-- Window 2's block likewise. -/
theorem read2 (t : Fin cfg2.N) (p : Fin 5000) (k : Fin 64) (r : Fin 100000) (hr : r.val = 5000 * t.val + p.val) :
    iblk2 V c 2 t (ix2 p k : S5000x64.Idx) = V c main_arg0 (ix2 r k : S100000x64.Idx) := by
  obtain ⟨-, -, -, -, i0, i1, -⟩ := idx_facts t
  show V c main_arg0 (((cfg2.win 2).blk t).view.emb (ix2 p k : S5000x64.Idx)) = V c main_arg0 (ix2 r k : S100000x64.Idx)
  refine congrArg (V c main_arg0) (funext fun a => Fin.ext ?_)
  match a with
  | ⟨0, _⟩ => show win2_2.index t (0 : Fin 2) * 5000 + 1 * p.val = r.val; rw [i0, hr]; omega
  | ⟨1, _⟩ => show win2_2.index t (1 : Fin 2) * 64 + 1 * k.val = k.val; rw [i1]; omega

/-- Window 3's one block is its whole vector. -/
theorem read3 (t : Fin cfg2.N) (k : Fin 64) : iblk2 V c 3 t (ix1 k : S64.Idx) = V c main_arg19 (ix1 k : S64.Idx) := by
  obtain ⟨-, -, -, -, -, -, i0, -⟩ := idx_facts t
  show V c main_arg19 (((cfg2.win 3).blk t).view.emb (ix1 k : S64.Idx)) = V c main_arg19 (ix1 k : S64.Idx)
  refine congrArg (V c main_arg19) (funext fun a => Fin.ext ?_)
  match a with
  | ⟨0, _⟩ => show win2_3.index t (0 : Fin 1) * 64 + 1 * k.val = k.val; rw [i0]; omega

/-- Window 4's likewise. -/
theorem read4 (t : Fin cfg2.N) (k : Fin 64) : iblk2 V c 4 t (ix1 k : S64.Idx) = V c main_arg20 (ix1 k : S64.Idx) := by
  obtain ⟨-, -, -, -, -, -, -, i0, -⟩ := idx_facts t
  show V c main_arg20 (((cfg2.win 4).blk t).view.emb (ix1 k : S64.Idx)) = V c main_arg20 (ix1 k : S64.Idx)
  refine congrArg (V c main_arg20) (funext fun a => Fin.ext ?_)
  match a with
  | ⟨0, _⟩ => show win2_4.index t (0 : Fin 1) * 64 + 1 * k.val = k.val; rw [i0]; omega

variable
  (x0 : (⟨Cert.ReferenceIdeal.S100000x64, .f32⟩ : BufTy).Contents (Elt Ideal))
  (x1 : (⟨Cert.ReferenceIdeal.S1250000x64, .f32⟩ : BufTy).Contents (Elt Ideal))
  (x2 x3 : (⟨Cert.ReferenceIdeal.S1250000, .i32⟩ : BufTy).Contents (Elt Ideal))
  (x4 : (⟨Cert.ReferenceIdeal.S64x16, .f32⟩ : BufTy).Contents (Elt Ideal))
  (x5 : (⟨Cert.ReferenceIdeal.S16x64, .f32⟩ : BufTy).Contents (Elt Ideal))
  (x6 : (⟨Cert.ReferenceIdeal.S64, .f32⟩ : BufTy).Contents (Elt Ideal))
  (x7 : (⟨Cert.ReferenceIdeal.S64x16, .f32⟩ : BufTy).Contents (Elt Ideal))
  (x8 : (⟨Cert.ReferenceIdeal.S16x64, .f32⟩ : BufTy).Contents (Elt Ideal))
  (x9 : (⟨Cert.ReferenceIdeal.S64, .f32⟩ : BufTy).Contents (Elt Ideal))
  (x10 : (⟨Cert.ReferenceIdeal.S64x16, .f32⟩ : BufTy).Contents (Elt Ideal))
  (x11 : (⟨Cert.ReferenceIdeal.S16x64, .f32⟩ : BufTy).Contents (Elt Ideal))
  (x12 : (⟨Cert.ReferenceIdeal.S64, .f32⟩ : BufTy).Contents (Elt Ideal))
  (x13 : (⟨Cert.ReferenceIdeal.S64x16, .f32⟩ : BufTy).Contents (Elt Ideal))
  (x14 : (⟨Cert.ReferenceIdeal.S16x64, .f32⟩ : BufTy).Contents (Elt Ideal))
  (x15 : (⟨Cert.ReferenceIdeal.S64, .f32⟩ : BufTy).Contents (Elt Ideal))
  (x16 : (⟨Cert.ReferenceIdeal.S64x16, .f32⟩ : BufTy).Contents (Elt Ideal))
  (x17 : (⟨Cert.ReferenceIdeal.S16x64, .f32⟩ : BufTy).Contents (Elt Ideal))
  (x18 x19 x20 : (⟨Cert.ReferenceIdeal.S64, .f32⟩ : BufTy).Contents (Elt Ideal))

/-- What point `t` writes back to the result is block `t` of the reference's result, when the region is entered
with the two summands, the node features and the affine map in its operand arrays. -/
theorem flushed_eq (h0 : V c main_v0_3 = val_main_v63 (F := Ideal) x0 x13 x14 x15)
    (h1 : V c main_v31 = val_main_v58 (F := Ideal) x0 x1 x2 x3 x4 x5 x6 x7 x8 x9 x10 x11 x12 x16 x17 x18)
    (h2 : V c main_arg0 = x0) (h3 : V c main_arg19 = x19) (h4 : V c main_arg20 = x20) (t : Fin cfg2.N) :
    (dat2 (F := Ideal) V c).flushed 5 t
      = ((cfg2.win 5).blk t).view.read (Elt Ideal) (val_main_v88 (F := Ideal) x0 x1 x2 x3 x4 x5 x6 x7 x8 x9 x10 x11 x12 x13 x14 x15 x16 x17 x18 x19 x20) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S64) hz1]
  obtain ⟨-, -, -, -, -, -, -, -, i50, i51⟩ := idx_facts t
  funext j
  show k2_pay1 (F := Ideal) (iblk2 V c 0 t) (iblk2 V c 1 t) (iblk2 V c 3 t) (iblk2 V c 4 t) (iblk2 V c 2 t) j
    = val_main_v88 (F := Ideal) x0 x1 x2 x3 x4 x5 x6 x7 x8 x9 x10 x11 x12 x13 x14 x15 x16 x17 x18 x19 x20 (((cfg2.win 5).blk t).view.emb j)
  refine point_eq x0 x1 x2 x3 x4 x5 x6 x7 x8 x9 x10 x11 x12 x13 x14 x15 x16 x17 x18 x19 x20 (iblk2 V c 0 t) (iblk2 V c 1 t) (iblk2 V c 2 t) (iblk2 V c 3 t) (iblk2 V c 4 t) t.val
    (fun p k r hr => (read0 V c t p k r hr).trans (congrFun h0 _)) (fun p k r hr => (read1 V c t p k r hr).trans (congrFun h1 _))
    (fun p k r hr => (read2 V c t p k r hr).trans (congrFun h2 _)) (fun k => (read3 V c t k).trans (congrFun h3 _))
    (fun k => (read4 V c t k).trans (congrFun h4 _)) j (((cfg2.win 5).blk t).view.emb j) ?_ ?_
  · show win2_5.index t (0 : Fin 2) * 5000 + 1 * (j 0).val = 5000 * t.val + (j 0).val
    rw [i50]; omega
  · show win2_5.index t (1 : Fin 2) * 64 + 1 * (j 1).val = (j 1).val
    rw [i51]; omega

/-- An index of the result array is in point `t`'s block iff each coordinate is in the block's range. -/
theorem mem_blk (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v32).slice (win2_5.rect t)).set ↔ _
  rw [View.set_slice_whole, Rect.mem_set_unit]
  exact Iff.rfl

/-- Row `r` is written by point `r / 5000`: the 20 blocks of 5000 rows tile the 100000 rows. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, -, -, i50, i51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [i50]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [i51]; omega

/-- THE RESULT ARRAY after the region is the reference's result: every point writes its block of it, and the
blocks cover the array. -/
theorem arr5 (h0 : V c main_v0_3 = val_main_v63 (F := Ideal) x0 x13 x14 x15)
    (h1 : V c main_v31 = val_main_v58 (F := Ideal) x0 x1 x2 x3 x4 x5 x6 x7 x8 x9 x10 x11 x12 x16 x17 x18)
    (h2 : V c main_arg0 = x0) (h3 : V c main_arg19 = x19) (h4 : V c main_arg20 = x20) :
    (dat2 (F := Ideal) V c).arrAt 5 cfg2.N = val_main_v88 (F := Ideal) x0 x1 x2 x3 x4 x5 x6 x7 x8 x9 x10 x11 x12 x13 x14 x15 x16 x17 x18 x19 x20 :=
  (dat2 (F := Ideal) V c).arrAt_eq_of_cover 5 (val_main_v88 (F := Ideal) x0 x1 x2 x3 x4 x5 x6 x7 x8 x9 x10 x11 x12 x13 x14 x15 x16 x17 x18 x19 x20)
    (fun t _ => flushed_eq V c x0 x1 x2 x3 x4 x5 x6 x7 x8 x9 x10 x11 x12 x13 x14 x15 x16 x17 x18 x19 x20 h0 h1 h2 h3 h4 t) cover

end

end Cert.Proof.NodeFinal
end
-- ==== Proof.lean ====
/-
  The certificate of one edge-gated graph convolution layer.  The kernel program computes the layer in
  three row-blocked regions (the four low-rank projections of the node features; the edge gate with its
  layer norm; the node update with its layer norm) joined by the host's gathers along the edges and sums
  into the destination nodes; the reference computes the same layer as one host program.  At the extended
  reals the two are the same function of the arguments: a region only re-tiles the rows of what the
  reference computes on whole arrays, a product accumulated from zero is the host's contraction, a lane
  sum the host's reduction, the logistic function the quotient 1 / (1 + e^(-x)) the reference spells, and
  a change of float format the identity; no step uses that the inputs are finite.

  Proof/KernelRun.lean names the kernel program's two results at its last boundary; Proof/NodeProj.lean,
  Proof/EdgeGate.lean and Proof/NodeFinal.lean (over the row-norm lemmas of Proof/LibRowNorm.lean) read each region's output arrays as the reference's own
  stages of what the region finds on entry; Proof/Glue.lean carries those through the host operations
  between the regions, which are the reference's operation for operation; Proof/RefFrame.lean is the
  reference's side.  The ideal pass rewrote nothing, so the idealization claim is trivial.
-/
import proofs.«126342_j74371653697786_2_alg».proof.Defs
import proofs.«126342_j74371653697786_2_alg».proof.Proof.Gen.Kernel
import proofs.«126342_j74371653697786_2_alg».proof.Proof.Gen.Kernel.Skeleton
import proofs.«126342_j74371653697786_2_alg».proof.Proof.Gen.Kernel.Launch
import proofs.«126342_j74371653697786_2_alg».proof.Proof.Gen.Kernel.Points
import proofs.«126342_j74371653697786_2_alg».proof.Proof.Gen.Kernel.Frame
import proofs.«126342_j74371653697786_2_alg».proof.Proof.Gen.KernelIdeal
import proofs.«126342_j74371653697786_2_alg».proof.Proof.Gen.KernelIdeal.Skeleton
import proofs.«126342_j74371653697786_2_alg».proof.Proof.Gen.KernelIdeal.Launch
import proofs.«126342_j74371653697786_2_alg».proof.Proof.Gen.KernelIdeal.Points
import proofs.«126342_j74371653697786_2_alg».proof.Proof.Gen.KernelIdeal.Frame
import proofs.«126342_j74371653697786_2_alg».proof.Proof.Gen.ReferenceIdeal
import proofs.«126342_j74371653697786_2_alg».proof.Proof.Gen.Pre_finite_inputs
import proofs.«126342_j74371653697786_2_alg».proof.Proof.RefFrame
import proofs.«126342_j74371653697786_2_alg».proof.Proof.KernelRun
import proofs.«126342_j74371653697786_2_alg».proof.Proof.Glue
import proofs.«126342_j74371653697786_2_alg».proof.Proof.NodeProj
import proofs.«126342_j74371653697786_2_alg».proof.Proof.EdgeGate
import proofs.«126342_j74371653697786_2_alg».proof.Proof.NodeFinal
import Idealize.ShloMosaic.Adequacy
import Idealize.ShloMosaic.Init

noncomputable section

namespace Cert.Proof

open Idealize.ShloMosaic Idealize.ShloMosaic.TcCoe Idealize.SL.Sem

/-! ## The three regions' facts, collected -/

theorem region0 : Glue.Region0 := fun V c =>
  ⟨NodeProj.arr13 V c, NodeProj.arr14 V c, NodeProj.arr15 V c, NodeProj.arr16 V c⟩

theorem region1 : Glue.Region1 := fun V c x0 x1 x2 x3 x4 x5 x6 x7 x8 x9 x10 x11 x12 x16 x17 x18 x21 x22 h0 h1 h2 h3 h4 h5 h6 h7 h8 =>
  ⟨EdgeGate.arr9 V c x0 x1 x2 x3 x4 x5 x6 x7 x8 x9 x10 x11 x12 x21 x22 h0 h1 h2 h4 h5 h6 h7 h8,
   EdgeGate.arr10 V c x0 x1 x2 x3 x4 x5 x6 x7 x8 x9 x10 x11 x12 x16 x17 x18 h0 h1 h2 h3 h4 h5 h6,
   EdgeGate.arr11 V c x0 x1 x2 x3 x4 x5 x6 x7 x8 x9 x10 x11 x12 h0 h1 h2 h4 h5 h6⟩

theorem region2 : Glue.Region2 := fun V c x0 x1 x2 x3 x4 x5 x6 x7 x8 x9 x10 x11 x12 x13 x14 x15 x16 x17 x18 x19 x20 h0 h1 h2 h3 h4 =>
  NodeFinal.arr5 V c x0 x1 x2 x3 x4 x5 x6 x7 x8 x9 x10 x11 x12 x13 x14 x15 x16 x17 x18 x19 x20 h0 h1 h2 h3 h4

/-! ## The reference's two results at arguments that agree with the kernel's -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 1000000 in
/-- The reference's node result, run from a memory that agrees with the kernel's on the arguments, is the
    last node stage of the kernel's arguments. -/
theorem ref_node (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.Value.res_main_v88 (F := Ideal) m' c
      = Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  obtain ⟨e0, e1, e2, e3, e4, e5, e6, e7, e8, e9, e10, e11, e12, e13, e14, e15, e16, e17, e18, e19, e20, e21, e22⟩ := hagree
  rw [Cert.ReferenceIdeal.Read.val_main_v88_eq, e0, e1, e2, e3, e4, e5, e6, e7, e8, e9, e10, e11, e12, e13, e14, e15, e16, e17, e18, e19, e20]

set_option maxHeartbeats 1000000 in
/-- The reference's edge result likewise. -/
theorem ref_edge (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.Value.res_main_v112 (F := Ideal) m' c
      = Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  obtain ⟨e0, e1, e2, e3, e4, e5, e6, e7, e8, e9, e10, e11, e12, e13, e14, e15, e16, e17, e18, e19, e20, e21, e22⟩ := hagree
  rw [Cert.ReferenceIdeal.Read.val_main_v112_eq, e0, e1, e2, e3, e4, e5, e6, e7, e8, e9, e10, e11, e12, e21, e22]

end Agree

/-! ## The claims -/

theorem frame_kernel : Cert.frame_Kernel := fun m ρ _ => Cert.Kernel.Gen.frame m ρ
theorem frame_kernelIdeal : Cert.frame_KernelIdeal := fun m ρ _ => Cert.KernelIdeal.Gen.frame m ρ

set_option maxHeartbeats 1000000 in
/-- Run from memories agreeing on the arguments, the two idealized programs end with the same node result
    and the same edge result: the reference's last two stages of the arguments. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono (fun r h c =>
      ⟨(h c).1.trans (Glue.W5_v32 m ρ c region0 region1 region2),
       (h c).2.1.trans (Glue.W5_v22_0 m ρ c region0 region1), (h c).2.2⟩) (KernelRun.run_named (F := Ideal) m ρ)
  · exact (θ_run Cert.ReferenceIdeal.defs _ _).mono (fun r h c =>
      ⟨(h c).1.trans (ref_node m m' c (hagree c)), (h c).2.1.trans (ref_edge m m' c (hagree c)), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, RefFrame.frame, trivial, algebraic⟩

end Cert.Proof

end
